-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x64 : Shape := ⟨2, ![300000, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S2x1000000 : Shape := ⟨2, ![2, 1000000]⟩
abbrev S2x100000 : Shape := ⟨2, ![2, 100000]⟩
abbrev S1000000x1 : Shape := ⟨2, ![1000000, 1]⟩
abbrev S1000000 : Shape := ⟨1, ![1000000]⟩
abbrev S_ : Shape := ⟨0, ![]⟩

class Facts : Prop where
  bcast_S_S300000x64 : S_.BroadcastsInDim S300000x64 (![] : Fin 0 → Fin S300000x64.rank)
  reducesTo_S300000x64_S_d0_1 : S300000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1000000x1 : S_.BroadcastsInDim S1000000x1 (![] : Fin 0 → Fin S1000000x1.rank)
  reducesTo_S1000000x1_S_d0_1 : S1000000x1.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S1 .f32) (main_arg7 : FVec F S1000000x1 .f32) (main_arg8 : FVec F S1000000 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1000000x1 .f32 := Host.absf main_arg7
  let main_cst_8 : FVec F S_ .f32 := constant S_ .f32 0x7F800000#32
  let main_v25 : FVec F S1000000x1 .f32 := broadcastInDim S1000000x1 ![] bcast_S_S1000000x1 main_cst_8
  let main_v26 : IVec S1000000x1 1 := cmpf .olt main_v24 main_v25
  let main_c_9 : IVec S_ 1 := constantI S_ 1 1#1
  let main_v27 : IVec S_ 1 := (fun x v => Host.reduce IntOp.andi x v reducesTo_S1000000x1_S_d0_1 h_S_) main_v26 main_c_9
  let main_v28 : IVec S_ 1 := andi main_v23 main_v27
  let main_v29 : FVec F S1000000 .f32 := Host.absf main_arg8
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  main_v33

def fn {F : FTy → Type} [FloatOps F] (main_arg0 : FVec F S300000x64 .f32) (main_arg1 : FVec F S64x128 .f32) (main_arg2 : FVec F S64 .f32) (main_arg3 : FVec F S1x64 .f32) (main_arg4 : FVec F S1 .f32) (main_arg5 : IVec S2x1000000 32) (main_arg6 : IVec S2x100000 32) (main_arg7 : FVec F S1000000x1 .f32) (main_arg8 : FVec F S1000000 .f32) : IVec S_ 1 :=
  let main_v0 : FVec F S300000x64 .f32 := Host.absf main_arg0
  let main_cst : FVec F S_ .f32 := constant S_ .f32 0x7F800000#32
  let main_v1 : FVec F S300000x64 .f32 := broadcastInDim S300000x64 ![] bcast_S_S300000x64 main_cst
  let main_v2 : IVec S300000x64 1 := cmpf .olt main_v0 main_v1
  let main_c : IVec S_ 1 := constantI S_ 1 1#1
  let main_v3 : IVec S_ 1 := (fun x v => Host.reduce IntOp.andi x v reducesTo_S300000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg7 main_arg8 main_v13 main_v16
-- ==== Kernel.lean ====
abbrev S300000x64 : Shape := ⟨2, ![300000, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S2x1000000 : Shape := ⟨2, ![2, 1000000]⟩
abbrev S2x100000 : Shape := ⟨2, ![2, 100000]⟩
abbrev S1000000x1 : Shape := ⟨2, ![1000000, 1]⟩
abbrev S1000000 : Shape := ⟨1, ![1000000]⟩
abbrev S1x1000000 : Shape := ⟨2, ![1, 1000000]⟩
abbrev S_ : Shape := ⟨0, ![]⟩
abbrev S1000000x64 : Shape := ⟨2, ![1000000, 64]⟩
abbrev S64x64 : Shape := ⟨2, ![64, 64]⟩
abbrev S64x1 : Shape := ⟨2, ![64, 1]⟩
abbrev S1x1 : Shape := ⟨2, ![1, 1]⟩
abbrev S4096x64 : Shape := ⟨2, ![4096, 64]⟩
abbrev S4096x1 : Shape := ⟨2, ![4096, 1]⟩
abbrev S100000 : Shape := ⟨1, ![100000]⟩
abbrev S1x100000 : Shape := ⟨2, ![1, 100000]⟩
abbrev S1100000 : Shape := ⟨1, ![1100000]⟩
abbrev S1100000x1 : Shape := ⟨2, ![1100000, 1]⟩
abbrev S1099999 : Shape := ⟨1, ![1099999]⟩

abbrev nBuf : Space → Nat
  | .hbm => 115
  | .vmem => 15
  | .smem => 0
  | _ => 0

abbrev bufTy : (tb : Table) → Fin (tcTables nBuf tb) → BufTy
  | .hbm, ⟨0, _⟩ => ⟨S300000x64, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S2x1000000, .i32⟩
  | .hbm, ⟨6, _⟩ => ⟨S2x100000, .i32⟩
  | .hbm, ⟨7, _⟩ => ⟨S1000000x1, .f32⟩
  | .hbm, ⟨8, _⟩ => ⟨S1000000, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x1, .f32⟩
  | .hbm, ⟨36, _⟩ => ⟨S1x64, .f32⟩
  | .hbm, ⟨37, _⟩ => ⟨S1x1, .f32⟩
  | .hbm, ⟨38, _⟩ => ⟨S1000000x1, .f32⟩
  | .hbm, ⟨39, _⟩ => ⟨S1000000x1, .f32⟩
  | .hbm, ⟨40, _⟩ => ⟨S1000000, .f32⟩
  | .hbm, ⟨41, _⟩ => ⟨S_, .f32⟩
  | .hbm, ⟨42, _⟩ => ⟨S100000, .f32⟩
  | .hbm, ⟨43, _⟩ => ⟨S1x100000, .i32⟩
  | .hbm, ⟨44, _⟩ => ⟨S100000, .i32⟩
  | .hbm, ⟨45, _⟩ => ⟨S1100000, .i32⟩
  | .hbm, ⟨46, _⟩ => ⟨S1x100000, .i32⟩
  | .hbm, ⟨47, _⟩ => ⟨S100000, .i32⟩
  | .hbm, ⟨48, _⟩ => ⟨S1100000, .i32⟩
  | .hbm, ⟨49, _⟩ => ⟨S1100000, .f32⟩
  | .hbm, ⟨50, _⟩ => ⟨S1100000, .i32⟩
  | .hbm, ⟨51, _⟩ => ⟨S1100000, .i32⟩
  | .hbm, ⟨52, _⟩ => ⟨S1100000, .i32⟩
  | .hbm, ⟨53, _⟩ => ⟨S1100000, .i32⟩
  | .hbm, ⟨54, _⟩ => ⟨S_, .i32⟩
  | .hbm, ⟨55, _⟩ => ⟨S1100000, .i32⟩
  | .hbm, ⟨56, _⟩ => ⟨S1100000, .i1⟩
  | .hbm, ⟨57, _⟩ => ⟨S_, .i32⟩
  | .hbm, ⟨58, _⟩ => ⟨S1100000, .i32⟩
  | .hbm, ⟨59, _⟩ => ⟨S1100000, .i32⟩
  | .hbm, ⟨60, _⟩ => ⟨S1100000, .i32⟩
  | .hbm, ⟨61, _⟩ => ⟨S1100000x1, .i32⟩
  | .hbm, ⟨62, _⟩ => ⟨S1100000, .i32⟩
  | .hbm, ⟨63, _⟩ => ⟨S_, .i32⟩
  | .hbm, ⟨64, _⟩ => ⟨S1100000, .i32⟩
  | .hbm, ⟨65, _⟩ => ⟨S1100000, .i1⟩
  | .hbm, ⟨66, _⟩ => ⟨S_, .i32⟩
  | .hbm, ⟨67, _⟩ => ⟨S1100000, .i32⟩
  | .hbm, ⟨68, _⟩ => ⟨S1100000, .i32⟩
  | .hbm, ⟨69, _⟩ => ⟨S1100000, .i32⟩
  | .hbm, ⟨70, _⟩ => ⟨S1100000x1, .i32⟩
  | .hbm, ⟨71, _⟩ => ⟨S1100000, .i32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000, .f32⟩
  | .hbm, ⟨81, _⟩ => ⟨S_, .i1⟩
  | .hbm, ⟨82, _⟩ => ⟨S1, .i1⟩
  | .hbm, ⟨83, _⟩ => ⟨S1099999, .i32⟩
  | .hbm, ⟨84, _⟩ => ⟨S1099999, .i32⟩
  | .hbm, ⟨85, _⟩ => ⟨S1099999, .i1⟩
  | .hbm, ⟨86, _⟩ => ⟨S1099999, .i32⟩
  | .hbm, ⟨87, _⟩ => ⟨S1099999, .i32⟩
  | .hbm, ⟨88, _⟩ => ⟨S1099999, .i1⟩
  | .hbm, ⟨89, _⟩ => ⟨S1099999, .i1⟩
  | .hbm, ⟨90, _⟩ => ⟨S1100000, .i1⟩
  | .hbm, ⟨91, _⟩ => ⟨S1100000, .i32⟩
  | .hbm, ⟨92, _⟩ => ⟨S_, .i32⟩
  | .hbm, ⟨93, _⟩ => ⟨S_, .i32⟩
  | .hbm, ⟨94, _⟩ => ⟨S1100000, .i32⟩
  | .hbm, ⟨95, _⟩ => ⟨S_, .i32⟩
  | .hbm, ⟨96, _⟩ => ⟨S1100000, .i32⟩
  | .hbm, ⟨97, _⟩ => ⟨S1100000, .i32⟩
  | .hbm, ⟨98, _⟩ => ⟨S_, .f32⟩
  | .hbm, ⟨99, _⟩ => ⟨S1100000, .f32⟩
  | .hbm, ⟨100, _⟩ => ⟨S1100000x1, .i32⟩
  | .hbm, ⟨101, _⟩ => ⟨S1100000, .f32⟩
  | .hbm, ⟨102, _⟩ => ⟨S_, .i32⟩
  | .hbm, ⟨103, _⟩ => ⟨S1100000, .i32⟩
  | .hbm, ⟨104, _⟩ => ⟨S1100000, .i1⟩
  | .hbm, ⟨105, _⟩ => ⟨S_, .i32⟩
  | .hbm, ⟨106, _⟩ => ⟨S1100000, .i32⟩
  | .hbm, ⟨107, _⟩ => ⟨S1100000, .i32⟩
  | .hbm, ⟨108, _⟩ => ⟨S1100000, .i32⟩
  | .hbm, ⟨109, _⟩ => ⟨S1100000x1, .i32⟩
  | .hbm, ⟨110, _⟩ => ⟨S1100000, .f32⟩
  | .hbm, ⟨111, _⟩ => ⟨S_, .f32⟩
  | .hbm, ⟨112, _⟩ => ⟨S_, .f32⟩
  | .hbm, ⟨113, _⟩ => ⟨S1100000, .f32⟩
  | .hbm, ⟨114, _⟩ => ⟨S1100000, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S4096x1, .f32⟩
  | .local _ .vmem, ⟨10, _⟩ => ⟨S4096x1, .f32⟩
  | .local _ .vmem, ⟨11, _⟩ => ⟨S4096x1, .f32⟩
  | .local _ .vmem, ⟨12, _⟩ => ⟨S4096x1, .f32⟩
  | .local _ .vmem, ⟨13, _⟩ => ⟨S4096x1, .f32⟩
  | .local _ .vmem, ⟨14, _⟩ => ⟨S4096x1, .f32⟩
  | _, _ => ⟨S300000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1_0 : Ref sig .tc := ⟨.hbm, 51, rfl⟩
abbrev main_call0_v1_1 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_v0 : Ref sig .tc := ⟨.hbm, 91, rfl⟩
abbrev main_call1_call0_c : Ref sig .tc := ⟨.hbm, 92, rfl⟩
abbrev main_call1_call0_v0 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_12 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_call2_v0 : Ref sig .tc := ⟨.hbm, 112, rfl⟩
abbrev main_call2_v1 : Ref sig .tc := ⟨.hbm, 113, rfl⟩
abbrev main_v80 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S64x128_S64x64_0_0 : S64x128.Slices ![0, 0] S64x64
  slices_S64x128_S64x64_0_64 : S64x128.Slices ![0, 64] S64x64
  transposes_S64x64_S64x64_1_0 : S64x64.Transposes [1, 0] S64x64
  transposes_S1x64_S64x1_1_0 : S1x64.Transposes [1, 0] S64x1
  shapeCasts_S64_S1x64 : S64.ShapeCasts S1x64
  shapeCasts_S1_S1x1 : S1.ShapeCasts S1x1
  shapeCasts_S1000000_S1000000x1 : S1000000.ShapeCasts S1000000x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S1000000x1_S1000000 : S1000000x1.ShapeCasts S1000000
  bcast_S_S100000 : S_.BroadcastsInDim S100000 (![] : Fin 0 → Fin S100000.rank)
  slices_S2x100000_S1x100000_0_0 : S2x100000.Slices ![0, 0] S1x100000
  shapeCasts_S1x100000_S100000 : S1x100000.ShapeCasts S100000
  concatenates_S1000000_S100000_S1100000_d0 : Shape.Concatenates [S1000000, S100000] S1100000 0
  slices_S2x100000_S1x100000_1_0 : S2x100000.Slices ![1, 0] S1x100000
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S1 : S_.BroadcastsInDim S1 (![] : Fin 0 → Fin S1.rank)
  slices_S1100000_S1099999_1 : S1100000.Slices ![1] S1099999
  slices_S1100000_S1099999_0 : S1100000.Slices ![0] S1099999
  concatenates_S1_S1099999_S1100000_d0 : Shape.Concatenates [S1, S1099999] S1100000 0
  natLt_1_32 : 1 < 32
  bcast_S_S_ : S_.BroadcastsInDim S_ (![] : Fin 0 → Fin S_.rank)
  reduceWindows_S1100000_S1100000_w1100000s1p1099999_0 : S1100000.ReduceWindows (![1100000] : Fin 1 → Nat) ![1] ![1099999] ![0] S1100000
  h_S_ : 0 < S_.numel
  gather_S300000x64_S1000000x1_S1000000x64_1_0_n_n_0_1_164_wf : GatherDims.WF S300000x64 S1000000x1 S1000000x64 [1] [0] [] [0] [] 1 ![1, 64]
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  gather_S1100000_S1100000x1_S1100000_n_0_n_n_0_1_1_wf : GatherDims.WF S1100000 S1100000x1 S1100000 [] [0] [] [0] [] 1 ![1]
  scatter_S1100000_S1100000x1_S1100000_n_0_0_1_wf : ScatterDims.WF S1100000 S1100000x1 S1100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S1000000x64.size a
  hwx0_0 : ∀ i : grid0.Coords, EltTy.bits .f32 = 32 ∨ (Rect.unit (s := S1000000x64) (fun a => cc0_transform_0 i a * S4096x64.size a) (fun a => (Pipeline.Clip.of (cc0_transform_0 i a) (S4096x64.size a) (S1000000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S1000000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x64.size a < S1000000x64.size a
  hwx0_1 : ∀ i : grid0.Coords, EltTy.bits .f32 = 32 ∨ (Rect.unit (s := S1000000x64) (fun a => cc0_transform_1 i a * S4096x64.size a) (fun a => (Pipeline.Clip.of (cc0_transform_1 i a) (S4096x64.size a) (S1000000x64.size a)).extent (S4096x64.size a)) fun a => Pipeline.Clip.inb (Pipeline.Clip.ok_of (hstart0_1 i a))).WholeWords (EltTy.packing .f32)
  hwxs0_1 : ∀ i : grid0.Coords, EltTy.bits .f32 = 32 ∨ (Rect.unit (s := S4096x64) (fun _ => 0) (fun a => (Pipeline.Clip.of (cc0_transform_1 i a) (S4096x64.size a) (S1000000x64.size a)).extent (S4096x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S4096x1.size a < S1000000x1.size a
  hwx0_7 : ∀ i : grid0.Coords, EltTy.bits .f32 = 32 ∨ (Rect.unit (s := S1000000x1) (fun a => cc0_transform_7 i a * S4096x1.size a) (fun a => (Pipeline.Clip.of (cc0_transform_7 i a) (S4096x1.size a) (S1000000x1.size a)).extent (S4096x1.size a)) fun a => Pipeline.Clip.inb (Pipeline.Clip.ok_of (hstart0_7 i a))).WholeWords (EltTy.packing .f32)
  hwxs0_7 : ∀ i : grid0.Coords, EltTy.bits .f32 = 32 ∨ (Rect.unit (s := S4096x1) (fun _ => 0) (fun a => (Pipeline.Clip.of (cc0_transform_7 i a) (S4096x1.size a) (S1000000x1.size a)).extent (S4096x1.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S4096x1.size a < S1000000x1.size a
  hwx0_8 : ∀ i : grid0.Coords, EltTy.bits .f32 = 32 ∨ (Rect.unit (s := S1000000x1) (fun a => cc0_transform_8 i a * S4096x1.size a) (fun a => (Pipeline.Clip.of (cc0_transform_8 i a) (S4096x1.size a) (S1000000x1.size a)).extent (S4096x1.size a)) fun a => Pipeline.Clip.inb (Pipeline.Clip.ok_of (hstart0_8 i a))).WholeWords (EltTy.packing .f32)
  hwxs0_8 : ∀ i : grid0.Coords, EltTy.bits .f32 = 32 ∨ (Rect.unit (s := S4096x1) (fun _ => 0) (fun a => (Pipeline.Clip.of (cc0_transform_8 i a) (S4096x1.size a) (S1000000x1.size a)).extent (S4096x1.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S4096x1.size a < S1000000x1.size a
  hwx0_9 : ∀ i : grid0.Coords, EltTy.bits .f32 = 32 ∨ (Rect.unit (s := S1000000x1) (fun a => cc0_transform_9 i a * S4096x1.size a) (fun a => (Pipeline.Clip.of (cc0_transform_9 i a) (S4096x1.size a) (S1000000x1.size a)).extent (S4096x1.size a)) fun a => Pipeline.Clip.inb (Pipeline.Clip.ok_of (hstart0_9 i a))).WholeWords (EltTy.packing .f32)
  hwxs0_9 : ∀ i : grid0.Coords, EltTy.bits .f32 = 32 ∨ (Rect.unit (s := S4096x1) (fun _ => 0) (fun a => (Pipeline.Clip.of (cc0_transform_9 i a) (S4096x1.size a) (S1000000x1.size a)).extent (S4096x1.size a)) fun a => (Nat.zero_add _).trans_le (Pipeline.Clip.extent_le (Pipeline.Clip.ok_of (hstart0_9 i a)))).WholeWords (EltTy.packing .f32)

variable [Facts₀]

def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S1100000_S1100000x1_S1100000_n_0_n_n_0_1_1 : GatherDims S1100000 S1100000x1 S1100000 where
  offsetDims := []
  collapsedSliceDims := [0]
  operandBatchingDims := []
  startIndicesBatchingDims := []
  startIndexMap := [0]
  indexVectorDim := 1
  sliceSizes := ![1]
  wf := gather_S1100000_S1100000x1_S1100000_n_0_n_n_0_1_1_wf
def scatter_S1100000_S1100000x1_S1100000_n_0_0_1 : ScatterDims S1100000 S1100000x1 S1100000 where
  updateWindowDims := []
  insertedWindowDims := [0]
  scatterDimsToOperandDims := [0]
  indexVectorDim := 1
  wf := scatter_S1100000_S1100000x1_S1100000_n_0_0_1_wf

abbrev win0_0 : Pipeline.Window sig grid0 :=
  Pipeline.Window.ofSpecClip (Memref.whole main_v10) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S4096x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_arg7) S4096x1.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v25) S4096x1.size cc0_transform_8 reads0_8 false false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v26) S4096x1.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S300000x64 : Shape := ⟨2, ![300000, 64]⟩
abbrev S64x128 : Shape := ⟨2, ![64, 128]⟩
abbrev S64 : Shape := ⟨1, ![64]⟩
abbrev S1x64 : Shape := ⟨2, ![1, 64]⟩
abbrev S1 : Shape := ⟨1, ![1]⟩
abbrev S2x1000000 : Shape := ⟨2, ![2, 1000000]⟩
abbrev S2x100000 : Shape := ⟨2, ![2, 100000]⟩
abbrev S1000000x1 : Shape := ⟨2, ![1000000, 1]⟩
abbrev S1000000 : Shape := ⟨1, ![1000000]⟩
abbrev S1x1000000 : Shape := ⟨2, ![1, 1000000]⟩
abbrev S_ : Shape := ⟨0, ![]⟩
abbrev S1000000x64 : Shape := ⟨2, ![1000000, 64]⟩
abbrev S1000000x128 : Shape := ⟨2, ![1000000, 128]⟩
abbrev S128x64 : Shape := ⟨2, ![128, 64]⟩
abbrev S64x1 : Shape := ⟨2, ![64, 1]⟩
abbrev S1x1 : Shape := ⟨2, ![1, 1]⟩
abbrev S100000 : Shape := ⟨1, ![100000]⟩
abbrev S1x100000 : Shape := ⟨2, ![1, 100000]⟩
abbrev S1100000 : Shape := ⟨1, ![1100000]⟩
abbrev S1100000x1 : Shape := ⟨2, ![1100000, 1]⟩
abbrev S1099999 : Shape := ⟨1, ![1099999]⟩

abbrev nBuf : Space → Nat
  | .hbm => 180
  | .vmem => 0
  | .smem => 0
  | _ => 0

abbrev hbmTy0_0 (i : Nat) : BufTy := match i % 128 with
  | 0 => ⟨S300000x64, .f32⟩
  | 1 => ⟨S64x128, .f32⟩
  | 2 => ⟨S64, .f32⟩
  | 3 => ⟨S1x64, .f32⟩
  | 4 => ⟨S1, .f32⟩
  | 5 => ⟨S2x1000000, .i32⟩
  | 6 => ⟨S2x100000, .i32⟩
  | 7 => ⟨S1000000x1, .f32⟩
  | 8 => ⟨S1000000, .f32⟩
  | 9 => ⟨S1x1000000, .i32⟩
  | 10 => ⟨S1000000, .i32⟩
  | 11 => ⟨S1x1000000, .i32⟩
  | 12 => ⟨S1000000, .i32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x128, .f32⟩
  | 32 => ⟨S128x64, .f32⟩
  | 33 => ⟨S1000000x64, .f32⟩
  | 34 => ⟨S1x64, .f32⟩
  | 35 => ⟨S1000000x64, .f32⟩
  | 36 => ⟨S1000000x64, .f32⟩
  | 37 => ⟨S_, .f32⟩
  | 38 => ⟨S1000000x64, .f32⟩
  | 39 => ⟨S1000000x64, .f32⟩
  | 40 => ⟨S64x1, .f32⟩
  | 41 => ⟨S1000000x1, .f32⟩
  | 42 => ⟨S1x1, .f32⟩
  | 43 => ⟨S1000000x1, .f32⟩
  | 44 => ⟨S1000000x1, .f32⟩
  | 45 => ⟨S_, .f32⟩
  | 46 => ⟨S1000000x1, .f32⟩
  | 47 => ⟨S1000000x1, .f32⟩
  | 48 => ⟨S_, .f32⟩
  | 49 => ⟨S1000000x1, .f32⟩
  | 50 => ⟨S1000000x1, .f32⟩
  | 51 => ⟨S1000000x1, .f32⟩
  | 52 => ⟨S1000000x1, .f32⟩
  | 53 => ⟨S1000000x1, .f32⟩
  | 54 => ⟨S1000000x1, .f32⟩
  | 55 => ⟨S1000000x1, .f32⟩
  | 56 => ⟨S1000000x1, .f32⟩
  | 57 => ⟨S1000000x1, .f32⟩
  | 58 => ⟨S_, .f32⟩
  | 59 => ⟨S1000000x1, .f32⟩
  | 60 => ⟨S1000000x1, .f32⟩
  | 61 => ⟨S_, .f32⟩
  | 62 => ⟨S1000000x1, .f32⟩
  | 63 => ⟨S1000000x1, .f32⟩
  | 64 => ⟨S1000000, .f32⟩
  | 65 => ⟨S_, .f32⟩
  | 66 => ⟨S_, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S_, .f32⟩
  | 74 => ⟨S_, .f32⟩
  | 75 => ⟨S_, .f32⟩
  | 76 => ⟨S1000000, .f32⟩
  | 77 => ⟨S1000000, .f32⟩
  | 78 => ⟨S_, .f32⟩
  | 79 => ⟨S1000000, .f32⟩
  | 80 => ⟨S1000000, .f32⟩
  | 81 => ⟨S1000000, .f32⟩
  | 82 => ⟨S1000000, .f32⟩
  | 83 => ⟨S1000000, .f32⟩
  | 84 => ⟨S1000000, .f32⟩
  | 85 => ⟨S1000000, .f32⟩
  | 86 => ⟨S1000000, .f32⟩
  | 87 => ⟨S1000000, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S_, .f32⟩
  | 102 => ⟨S1000000, .f32⟩
  | 103 => ⟨S1000000, .i1⟩
  | 104 => ⟨S1000000, .f32⟩
  | 105 => ⟨S1000000, .f32⟩
  | 106 => ⟨S_, .f32⟩
  | 107 => ⟨S100000, .f32⟩
  | 108 => ⟨S1x100000, .i32⟩
  | 109 => ⟨S100000, .i32⟩
  | 110 => ⟨S1100000, .i32⟩
  | 111 => ⟨S1x100000, .i32⟩
  | 112 => ⟨S100000, .i32⟩
  | 113 => ⟨S1100000, .i32⟩
  | 114 => ⟨S1100000, .f32⟩
  | 115 => ⟨S1100000, .i32⟩
  | 116 => ⟨S1100000, .i32⟩
  | 117 => ⟨S1100000, .i32⟩
  | 118 => ⟨S1100000, .i32⟩
  | 119 => ⟨S_, .i32⟩
  | 120 => ⟨S1100000, .i32⟩
  | 121 => ⟨S1100000, .i1⟩
  | 122 => ⟨S_, .i32⟩
  | 123 => ⟨S1100000, .i32⟩
  | 124 => ⟨S1100000, .i32⟩
  | 125 => ⟨S1100000, .i32⟩
  | 126 => ⟨S1100000x1, .i32⟩
  | 127 => ⟨S1100000, .i32⟩
  | _ => ⟨S300000x64, .f32⟩

abbrev hbmTy0_1 (i : Nat) : BufTy := match i % 128 with
  | 0 => ⟨S_, .i32⟩
  | 1 => ⟨S1100000, .i32⟩
  | 2 => ⟨S1100000, .i1⟩
  | 3 => ⟨S_, .i32⟩
  | 4 => ⟨S1100000, .i32⟩
  | 5 => ⟨S1100000, .i32⟩
  | 6 => ⟨S1100000, .i32⟩
  | 7 => ⟨S1100000x1, .i32⟩
  | 8 => ⟨S1100000, .i32⟩
  | 9 => ⟨S_, .i32⟩
  | 10 => ⟨S1100000, .i32⟩
  | 11 => ⟨S1100000, .i1⟩
  | 12 => ⟨S_, .i32⟩
  | 13 => ⟨S1100000, .i32⟩
  | 14 => ⟨S1100000, .i32⟩
  | 15 => ⟨S1100000, .i32⟩
  | 16 => ⟨S1100000x1, .i32⟩
  | 17 => ⟨S1100000, .f32⟩
  | 18 => ⟨S_, .i1⟩
  | 19 => ⟨S1, .i1⟩
  | 20 => ⟨S1099999, .i32⟩
  | 21 => ⟨S1099999, .i32⟩
  | 22 => ⟨S1099999, .i1⟩
  | 23 => ⟨S1099999, .i32⟩
  | 24 => ⟨S1099999, .i32⟩
  | 25 => ⟨S1099999, .i1⟩
  | 26 => ⟨S1099999, .i1⟩
  | 27 => ⟨S1100000, .i1⟩
  | 28 => ⟨S1100000, .i32⟩
  | 29 => ⟨S_, .i32⟩
  | 30 => ⟨S_, .i32⟩
  | 31 => ⟨S1100000, .i32⟩
  | 32 => ⟨S_, .i32⟩
  | 33 => ⟨S1100000, .i32⟩
  | 34 => ⟨S1100000, .i32⟩
  | 35 => ⟨S_, .f32⟩
  | 36 => ⟨S1100000, .f32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S_, .f32⟩
  | 49 => ⟨S_, .f32⟩
  | 50 => ⟨S1100000, .f32⟩
  | 51 => ⟨S1100000, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | _, _ => ⟨S300000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v46 : Ref sig .tc := ⟨.hbm, 72, rfl⟩
abbrev main_cst_8 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call3_v0 : Ref sig .tc := ⟨.hbm, 115, rfl⟩
abbrev main_call3_v1_0 : Ref sig .tc := ⟨.hbm, 116, rfl⟩
abbrev main_call3_v1_1 : Ref sig .tc := ⟨.hbm, 117, rfl⟩
abbrev main_v77 : Ref sig .tc := ⟨.hbm, 118, rfl⟩
abbrev main_c_15 : Ref sig .tc := ⟨.hbm, 119, rfl⟩
abbrev main_v78 : Ref sig .tc := ⟨.hbm, 120, rfl⟩
abbrev main_v79 : Ref sig .tc := ⟨.hbm, 121, rfl⟩
abbrev main_c_16 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_17 : Ref sig .tc := ⟨.hbm, 128, rfl⟩
abbrev main_v85 : Ref sig .tc := ⟨.hbm, 129, rfl⟩
abbrev main_v86 : Ref sig .tc := ⟨.hbm, 130, rfl⟩
abbrev main_c_18 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_19 : Ref sig .tc := ⟨.hbm, 137, rfl⟩
abbrev main_v92 : Ref sig .tc := ⟨.hbm, 138, rfl⟩
abbrev main_v93 : Ref sig .tc := ⟨.hbm, 139, rfl⟩
abbrev main_c_20 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_21 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call4_v0 : Ref sig .tc := ⟨.hbm, 156, rfl⟩
abbrev main_call4_call0_c : Ref sig .tc := ⟨.hbm, 157, rfl⟩
abbrev main_call4_call0_v0 : Ref sig .tc := ⟨.hbm, 158, rfl⟩
abbrev main_v108 : Ref sig .tc := ⟨.hbm, 159, rfl⟩
abbrev main_c_22 : Ref sig .tc := ⟨.hbm, 160, rfl⟩
abbrev main_v109 : Ref sig .tc := ⟨.hbm, 161, rfl⟩
abbrev main_v110 : Ref sig .tc := ⟨.hbm, 162, rfl⟩
abbrev main_cst_23 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_24 : Ref sig .tc := ⟨.hbm, 167, rfl⟩
abbrev main_v114 : Ref sig .tc := ⟨.hbm, 168, rfl⟩
abbrev main_v115 : Ref sig .tc := ⟨.hbm, 169, rfl⟩
abbrev main_c_25 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_26 : Ref sig .tc := ⟨.hbm, 176, rfl⟩
abbrev main_call5_v0 : Ref sig .tc := ⟨.hbm, 177, rfl⟩
abbrev main_call5_v1 : Ref sig .tc := ⟨.hbm, 178, rfl⟩
abbrev main_v121 : Ref sig .tc := ⟨.hbm, 179, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  bcast_S_S100000 : S_.BroadcastsInDim S100000 (![] : Fin 0 → Fin S100000.rank)
  slices_S2x100000_S1x100000_0_0 : S2x100000.Slices ![0, 0] S1x100000
  shapeCasts_S1x100000_S100000 : S1x100000.ShapeCasts S100000
  concatenates_S1000000_S100000_S1100000_d0 : Shape.Concatenates [S1000000, S100000] S1100000 0
  slices_S2x100000_S1x100000_1_0 : S2x100000.Slices ![1, 0] S1x100000
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S1 : S_.BroadcastsInDim S1 (![] : Fin 0 → Fin S1.rank)
  slices_S1100000_S1099999_1 : S1100000.Slices ![1] S1099999
  slices_S1100000_S1099999_0 : S1100000.Slices ![0] S1099999
  concatenates_S1_S1099999_S1100000_d0 : Shape.Concatenates [S1, S1099999] S1100000 0
  natLt_1_32 : 1 < 32
  bcast_S_S_ : S_.BroadcastsInDim S_ (![] : Fin 0 → Fin S_.rank)
  reduceWindows_S1100000_S1100000_w1100000s1p1099999_0 : S1100000.ReduceWindows (![1100000] : Fin 1 → Nat) ![1] ![1099999] ![0] S1100000
  h_S_ : 0 < S_.numel
  gather_S300000x64_S1000000x1_S1000000x64_1_0_n_n_0_1_164_wf : GatherDims.WF S300000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []
  gather_S1100000_S1100000x1_S1100000_n_0_n_n_0_1_1_wf : GatherDims.WF S1100000 S1100000x1 S1100000 [] [0] [] [0] [] 1 ![1]
  scatter_S1100000_S1100000x1_S1100000_n_0_0_1_wf : ScatterDims.WF S1100000 S1100000x1 S1100000 [] [0] [0] 1

variable [Facts₀]

def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S1100000_S1100000x1_S1100000_n_0_n_n_0_1_1 : GatherDims S1100000 S1100000x1 S1100000 where
  offsetDims := []
  collapsedSliceDims := [0]
  operandBatchingDims := []
  startIndicesBatchingDims := []
  startIndexMap := [0]
  indexVectorDim := 1
  sliceSizes := ![1]
  wf := gather_S1100000_S1100000x1_S1100000_n_0_n_n_0_1_1_wf
def scatter_S1100000_S1100000x1_S1100000_n_0_0_1 : ScatterDims S1100000 S1100000x1 S1100000 where
  updateWindowDims := []
  insertedWindowDims := [0]
  scatterDimsToOperandDims := [0]
  indexVectorDim := 1
  wf := scatter_S1100000_S1100000x1_S1100000_n_0_0_1_wf

class Facts : Prop extends Facts₀ where

variable [Facts]
-- ==== Proof.BaseBits.lean ====
/-
  The arrays as the region finds them. Core `c`'s buffer contents when the region is entered are the launch contents
  after the host operations that precede it (`V0`, `V`); window `w`'s block at grid point `t` is read off its array
  there (`iblk`): its part inside the array — the last block of the windows that step through the million rows in
  blocks of 4096 overhangs the array and is cut to 576 rows.
-/
import proofs.«165509_j29300266893702_2_alg».proof.Proof.Gen.Kernel.Launch
import proofs.«165509_j29300266893702_2_alg».proof.Proof.Gen.Kernel.Points
import Idealize.ShloMosaic.Lib.Pipeline.FrameBody
import Idealize.ShloMosaic.Lib.Pipeline.FrameSuffix

noncomputable section

namespace Cert.Kernel.Around

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s TensorCore buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4, hostOps1_5]

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Around

end
-- ==== Proof.BodyBits.lean ====
/-
  The kernel body's triple, for any float instance. The body loads its nine input staging buffers whole, computes one
  column of 4096 values from them and stores it over the whole output staging buffer: so after the body the inputs'
  buffers hold what they held and the output's buffer holds `out9` of the inputs' contents — the one store's value
  read back through the buffer's whole rectangle.
-/
import proofs.«165509_j29300266893702_2_alg».proof.Proof.Gen.Kernel.Launch
import proofs.«165509_j29300266893702_2_alg».proof.Proof.Gen.Kernel.Skeleton
import proofs.«165509_j29300266893702_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole rectangles the body reads and writes through -/

abbrev rRows : Rect S4096x64 := Rect.unit (s := S4096x64) ![0, 0] S4096x64.size inb_S4096x64_S4096x64_0_0
abbrev rSq : Rect S64x64 := Rect.unit (s := S64x64) ![0, 0] S64x64.size inb_S64x64_S64x64_0_0
abbrev rBias : Rect S1x64 := Rect.unit (s := S1x64) ![0, 0] S1x64.size inb_S1x64_S1x64_0_0
abbrev rW2 : Rect S64x1 := Rect.unit (s := S64x1) ![0, 0] S64x1.size inb_S64x1_S64x1_0_0
abbrev rOne : Rect S1x1 := Rect.unit (s := S1x1) ![0, 0] S1x1.size inb_S1x1_S1x1_0_0
abbrev rCol : Rect S4096x1 := Rect.unit (s := S4096x1) ![0, 0] S4096x1.size inb_S4096x1_S4096x1_0_0

/-- The column the body stores, from the nine buffers' contents. -/
def stored (x0 x1 : Vec F S4096x64 .f32) (x2 x3 : Vec F S64x64 .f32) (x4 : Vec F S1x64 .f32) (x5 : Vec F S64x1 .f32)
    (x6 : Vec F S1x1 .f32) (x7 x8 : Vec F S4096x1 .f32) : FVec F S4096x1 .f32 :=
  k0_pay1 (k0_pay2 (View.ld x0 rRows) (View.ld x1 rRows) (View.ld x2 rSq) (View.ld x3 rSq) (View.ld x4 rBias) (View.ld x5 rW2) (View.ld x6 rOne))
    (k0_pay3 (View.ld x7 rCol)) (k0_pay4 (View.ld x7 rCol)) (Scalar.ofBits .f32 0x00000000#32) (View.ld x8 rCol)

/-- The output staging buffer after the body: its one store, over the whole buffer. -/
def out9 (x0 x1 : Vec F S4096x64 .f32) (x2 x3 : Vec F S64x64 .f32) (x4 : Vec F S1x64 .f32) (x5 : Vec F S64x1 .f32)
    (x6 : Vec F S1x1 .f32) (x7 x8 : Vec F S4096x1 .f32) : Vec F S4096x1 .f32 :=
  View.canon [⟨rCol, stored x0 x1 x2 x3 x4 x5 x6 x7 x8⟩]

/-- The one store covers the buffer. -/
theorem cover9 (p0 : Vec F S4096x1 .f32) (y : S4096x1.Idx) :
    ∃ pc ∈ ([⟨rCol, p0⟩] : List (View.Piece (Elt F) S4096x1 .f32)), y ∈ pc.1.set :=
  View.cover_of_tiled [⟨rCol, p0⟩] S4096x1.size (by rfl) y

set_option maxHeartbeats 4000000 in
/-- The body on whole staging memrefs, the inputs' at contents `xW` and the output's at anything, runs to the continuation
    holding the inputs' as they were and the output's at `out9` of them. -/
theorem sound_kernel (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4096x1 .f32) (harg8 : arg8.IsWhole) (arg9 : Memref sig .tc .vmem S4096x1 .f32) (harg9 : arg9.IsWhole) (arg10 : Memref sig .tc .vmem S4096x1 .f32) (harg10 : arg10.IsWhole)
    (x0 x1 : Vec F S4096x64 .f32) (x2 x3 : Vec F S64x64 .f32) (x4 : Vec F S1x64 .f32) (x5 : Vec F S64x1 .f32)
    (x6 : Vec F S1x1 .f32) (x7 x8 : Vec F S4096x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8 arg9 harg9 arg10 harg10) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

end Cert.Kernel.Body

end
-- ==== Proof.AroundBits.lean ====
/- @main of `Cert.Kernel` around its one region: the host operations before it, the region, the six stretches of host
   operations after it — what Lib/Pipeline/FrameSuffix.lean's frame run around a region takes of @main (`hmain`,
   `sfx_sub`, `sfx_fresh`, `sfx_keeps`), the buffers the later stretches write (`tailW`, `T`), the argument arrays'
   contents at the region's entry and after the last stretch (`V_…`, `W_…`), and the frame claim's post from a frame
   run's (`frame_of` for exact proof data, `frame_ofR` for relational proof data). Generic in the float model `F`. -/
import proofs.«165509_j29300266893702_2_alg».proof.Proof.BaseBits
import Idealize.ShloMosaic.Lib.Pipeline.FrameBody
import Idealize.ShloMosaic.Lib.Pipeline.FrameSuffix
import Idealize.ShloMosaic.Lib.Ring
import Idealize.ShloMosaic.Lib.Tactic

-- deciding that two references of a signature of 130 buffers differ recurses past the default depth
set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main around the region, at any variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ### The lines after the region, stretch by stretch -/

/-- No operation of `hostOps1` writes an array of the pipeline: each writes only its own result buffer, which is no array. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_1` writes an array of the pipeline: each writes only its own result buffer, which is no array. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_2` writes an array of the pipeline: each writes only its own result buffer, which is no array. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_3` writes an array of the pipeline: each writes only its own result buffer, which is no array. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_4` writes an array of the pipeline: each writes only its own result buffer, which is no array. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_5` writes an array of the pipeline: each writes only its own result buffer, which is no array. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)

/-- The lines after the region touch the pipeline's arrays and the bypassing buffers only (each operation's buffers are
    unscoped TensorCore references, and with nothing prefetched every such reference is one or the other:
    `Pipeline.tailRefs_none`). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The buffers the host operations write -/

/-- The result buffers of `hostOps0`'s operations, in order. -/
abbrev hostOps0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_v23, main_v24, main_v25]
/-- The result buffers of `hostOps1`'s operations, in order. -/
abbrev hostOps1_W : List (Ref sig .tc) := [main_v27, main_cst, main_v28, main_v29, main_v30, main_v31, main_v32, main_v33, main_v34, main_v35]
/-- The result buffers of `hostOps1_1`'s operations, in order. -/
abbrev hostOps1_1_W : List (Ref sig .tc) := [main_call0_v0, main_call0_v1_0, main_call0_v1_1, main_v36]
/-- The result buffers of `hostOps1_2`'s operations, in order. -/
abbrev hostOps1_2_W : List (Ref sig .tc) := [main_c_3, main_v37, main_v38, main_c_4, main_v39, main_v40, main_v41, main_v42, main_v43, main_c_5, main_v44, main_v45, main_c_6, main_v46, main_v47, main_v48, main_v49, main_v50, main_c_7, main_v51, main_v52, main_c_8, main_v53, main_v54, main_v55, main_v56, main_v57, main_c_9, main_v58, main_v59, main_v60, main_v61, main_v62, main_v63, main_v64, main_v65, main_v66]
/-- The result buffers of `hostOps1_3`'s operations, in order. -/
abbrev hostOps1_3_W : List (Ref sig .tc) := [main_call1_v0, main_call1_call0_c, main_call1_call0_v0, main_v67]
/-- The result buffers of `hostOps1_4`'s operations, in order. -/
abbrev hostOps1_4_W : List (Ref sig .tc) := [main_c_10, main_v68, main_v69, main_cst_11, main_v70, main_v71, main_v72, main_c_12, main_v73, main_v74, main_c_13, main_v75, main_v76, main_v77, main_v78, main_v79, main_cst_14]
/-- The result buffers of `hostOps1_5`'s operations, in order. -/
abbrev hostOps1_5_W : List (Ref sig .tc) := [main_call2_v0, main_call2_v1, main_v80]

/-- Every buffer a line after the region writes, stretch by stretch, in order. -/
abbrev tailW : List (Ref sig .tc) := hostOps1_W ++ (hostOps1_1_W ++ (hostOps1_2_W ++ (hostOps1_3_W ++ (hostOps1_4_W ++ (hostOps1_5_W)))))
/-- The same as a set. -/
abbrev T : Finset (Ref sig .tc) := tailW.toFinset

/-- Each operation of `hostOps0` writes its one result buffer, as listed. -/
theorem hostOps0_writes : (hostOps0 : List (HloOp τ sig (Elt F))).map (fun op => op.writes)
    = hostOps0_W.map fun y => ({Proc.devRef .tc y} : Finset (DevRef τ sig)) := by
  simp only [hostOps0, List.map_cons, List.map_nil, StableHlo.nullary_writes, StableHlo.unary_writes, StableHlo.binary_writes, StableHlo.ternary_writes, StableHlo.quaternary_writes, StableHlo.reshape_writes, StableHlo.binaryIndexed_writes]
/-- Each operation of `hostOps1` writes its one result buffer, as listed. -/
theorem hostOps1_writes : (hostOps1 : List (HloOp τ sig (Elt F))).map (fun op => op.writes)
    = hostOps1_W.map fun y => ({Proc.devRef .tc y} : Finset (DevRef τ sig)) := by
  simp only [hostOps1, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_1` writes its one result buffer, as listed. -/
theorem hostOps1_1_writes : (hostOps1_1 : List (HloOp τ sig (Elt F))).map (fun op => op.writes)
    = hostOps1_1_W.map fun y => ({Proc.devRef .tc y} : Finset (DevRef τ sig)) := by
  simp only [hostOps1_1, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_2` writes its one result buffer, as listed. -/
theorem hostOps1_2_writes : (hostOps1_2 : List (HloOp τ sig (Elt F))).map (fun op => op.writes)
    = hostOps1_2_W.map fun y => ({Proc.devRef .tc y} : Finset (DevRef τ sig)) := by
  simp only [hostOps1_2, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_3` writes its one result buffer, as listed. -/
theorem hostOps1_3_writes : (hostOps1_3 : List (HloOp τ sig (Elt F))).map (fun op => op.writes)
    = hostOps1_3_W.map fun y => ({Proc.devRef .tc y} : Finset (DevRef τ sig)) := by
  simp only [hostOps1_3, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_4` writes its one result buffer, as listed. -/
theorem hostOps1_4_writes : (hostOps1_4 : List (HloOp τ sig (Elt F))).map (fun op => op.writes)
    = hostOps1_4_W.map fun y => ({Proc.devRef .tc y} : Finset (DevRef τ sig)) := by
  simp only [hostOps1_4, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_5` writes its one result buffer, as listed. -/
theorem hostOps1_5_writes : (hostOps1_5 : List (HloOp τ sig (Elt F))).map (fun op => op.writes)
    = hostOps1_5_W.map fun y => ({Proc.devRef .tc y} : Finset (DevRef τ sig)) := by
  simp only [hostOps1_5, List.map_cons, List.map_nil, StableHlo.nullary_writes, StableHlo.unary_writes, StableHlo.binary_writes, StableHlo.ternary_writes, StableHlo.quaternary_writes, StableHlo.reshape_writes, StableHlo.binaryIndexed_writes]

/-- A reference one operation of a line writes is among the line's result buffers. -/
theorem mem_of_writes {ops : List (HloOp τ sig (Elt F))} {W : List (Ref sig .tc)}
    (h : ops.map (fun op => op.writes) = W.map fun y => ({Proc.devRef .tc y} : Finset (DevRef τ sig))) :
    ∀ op ∈ ops, ∀ b : Ref sig .tc, Proc.devRef .tc b ∈ op.writes → b ∈ W := by
  intro op hop b hb
  have hw : op.writes ∈ ops.map (fun op => op.writes) := List.mem_map.mpr ⟨op, hop, rfl⟩
  rw [h] at hw
  obtain ⟨y, hy, e⟩ := List.mem_map.mp hw
  rw [← e, Finset.mem_singleton] at hb
  exact (Proc.devRef_injective _ hb) ▸ hy

/-- Every reference a line after the region writes is in `tailW`. -/
theorem sfx_W : ∀ ops ∈ (tailOps : List (List (HloOp τ sig (Elt F)))), ∀ op ∈ ops,
    ∀ b : Ref sig .tc, Proc.devRef .tc b ∈ op.writes → b ∈ tailW := by
  intro ops hops op hop b hb
  simp only [tailOps, List.mem_cons, List.mem_nil_iff, or_false] at hops
  rcases hops with rfl | rfl | rfl | rfl | rfl | rfl
  · exact List.mem_append_left _ (mem_of_writes hostOps1_writes op hop b hb)
  · exact List.mem_append_right _ (List.mem_append_left _ (mem_of_writes hostOps1_1_writes op hop b hb))
  · exact List.mem_append_right _ (List.mem_append_right _ (List.mem_append_left _ (mem_of_writes hostOps1_2_writes op hop b hb)))
  · exact List.mem_append_right _ (List.mem_append_right _ (List.mem_append_right _ (List.mem_append_left _ (mem_of_writes hostOps1_3_writes op hop b hb))))
  · exact List.mem_append_right _ (List.mem_append_right _ (List.mem_append_right _ (List.mem_append_right _ (List.mem_append_left _ (mem_of_writes hostOps1_4_writes op hop b hb)))))
  · exact List.mem_append_right _ (List.mem_append_right _ (List.mem_append_right _ (List.mem_append_right _ (List.mem_append_right _ (mem_of_writes hostOps1_5_writes op hop b hb)))))
/-- The same of the set `T`: the frame run of relational proof data's hypothesis on what the later lines write. -/
theorem sfx_T : ∀ ops ∈ (tailOps : List (List (HloOp τ sig (Elt F)))), ∀ op ∈ ops,
    ∀ b : Ref sig .tc, Proc.devRef .tc b ∈ op.writes → b ∈ T :=
  fun ops hops op hop b hb => List.mem_toFinset.mpr (sfx_W ops hops op hop b hb)

/-- A reference outside `tailW` is not in `T`. -/
theorem not_mem_T {r : Ref sig .tc} (h : r ∉ tailW) : r ∉ T := fun hT => h (List.mem_toFinset.mp hT)

/-- A buffer outside `tailW` is written by no line after the region. -/
theorem tail_not_writes {r : Ref sig .tc} (hr : r ∉ tailW) :
    ∀ op ∈ (tailOps (F := F)).flatten, Proc.devRef .tc r ∉ op.writes := fun op hop hb => by
  obtain ⟨ops, hops, hop'⟩ := List.mem_flatten.mp hop
  exact hr (sfx_W ops hops op hop' r hb)

/-- A buffer no host operation before the region writes is found by the region as launched. -/
theorem V_of (c : Dev nD) (r : Ref sig .tc) (hr : r ∉ hostOps0_W) : V m c r = m ((c : Thread nD τ).loc r) :=
  StableHlo.after_of_forall_not_mem (b := Proc.devRef .tc r) _ _ (fun op hop hb => by
    obtain ⟨ops, hops, hop'⟩ := List.mem_flatten.mp hop
    rw [List.mem_singleton] at hops
    subst hops
    exact hr (mem_of_writes hostOps0_writes op hop' r hb))

/-- A buffer that is no array of the pipeline and that no line after the region writes ends at its contents at the
    region's entry. -/
theorem W_of (dats : (p : Fin 1) → (c : Dev nD) → Dat τ (Elt F) Unit ℕ (UR sig nD τ) ℕ (cfgs p) c) (c : Dev nD)
    (r : Ref sig .tc) (hr : r ∉ tailW) (ha : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (tail_not_writes hr),
    Pipeline.withArrays_of_ne _ c (V0 m c) _ r ha]

/-! ## The argument arrays -/

/-- No host operation before the region writes `main_arg0`: the region finds it as launched. -/
theorem V_main_arg0 (c : Dev nD) : V m c main_arg0 = m ((c : Thread nD τ).loc main_arg0) :=
  V_of m c main_arg0 (by decide)
/-- No host operation before the region writes `main_arg1`: the region finds it as launched. -/
theorem V_main_arg1 (c : Dev nD) : V m c main_arg1 = m ((c : Thread nD τ).loc main_arg1) :=
  V_of m c main_arg1 (by decide)
/-- No host operation before the region writes `main_arg2`: the region finds it as launched. -/
theorem V_main_arg2 (c : Dev nD) : V m c main_arg2 = m ((c : Thread nD τ).loc main_arg2) :=
  V_of m c main_arg2 (by decide)
/-- No host operation before the region writes `main_arg3`: the region finds it as launched. -/
theorem V_main_arg3 (c : Dev nD) : V m c main_arg3 = m ((c : Thread nD τ).loc main_arg3) :=
  V_of m c main_arg3 (by decide)
/-- No host operation before the region writes `main_arg4`: the region finds it as launched. -/
theorem V_main_arg4 (c : Dev nD) : V m c main_arg4 = m ((c : Thread nD τ).loc main_arg4) :=
  V_of m c main_arg4 (by decide)
/-- No host operation before the region writes `main_arg5`: the region finds it as launched. -/
theorem V_main_arg5 (c : Dev nD) : V m c main_arg5 = m ((c : Thread nD τ).loc main_arg5) :=
  V_of m c main_arg5 (by decide)
/-- No host operation before the region writes `main_arg6`: the region finds it as launched. -/
theorem V_main_arg6 (c : Dev nD) : V m c main_arg6 = m ((c : Thread nD τ).loc main_arg6) :=
  V_of m c main_arg6 (by decide)
/-- No host operation before the region writes `main_arg7`: the region finds it as launched. -/
theorem V_main_arg7 (c : Dev nD) : V m c main_arg7 = m ((c : Thread nD τ).loc main_arg7) :=
  V_of m c main_arg7 (by decide)
/-- No host operation before the region writes `main_arg8`: the region finds it as launched. -/
theorem V_main_arg8 (c : Dev nD) : V m c main_arg8 = m ((c : Thread nD τ).loc main_arg8) :=
  V_of m c main_arg8 (by decide)

/-- No host operation after the region writes `main_arg0`, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  (W_of m dats c main_arg0 (by decide) (by exact (by decide : ∀ w, Pipeline.arrRef spec0 w ≠ main_arg0))).trans (V_main_arg0 m c)
/-- No host operation after the region writes `main_arg1`, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (W_of m dats c main_arg1 (by decide) (by exact (by decide : ∀ w, Pipeline.arrRef spec0 w ≠ main_arg1))).trans (V_main_arg1 m c)
/-- No host operation after the region writes `main_arg2`, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_of m dats c main_arg2 (by decide) (by exact (by decide : ∀ w, Pipeline.arrRef spec0 w ≠ main_arg2))).trans (V_main_arg2 m c)
/-- No host operation after the region writes `main_arg3`, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_of m dats c main_arg3 (by decide) (by exact (by decide : ∀ w, Pipeline.arrRef spec0 w ≠ main_arg3))).trans (V_main_arg3 m c)
/-- No host operation after the region writes `main_arg4`, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_of m dats c main_arg4 (by decide) (by exact (by decide : ∀ w, Pipeline.arrRef spec0 w ≠ main_arg4))).trans (V_main_arg4 m c)
/-- No host operation after the region writes `main_arg5`, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_of m dats c main_arg5 (by decide) (by exact (by decide : ∀ w, Pipeline.arrRef spec0 w ≠ main_arg5))).trans (V_main_arg5 m c)
/-- No host operation after the region writes `main_arg6`, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_of m dats c main_arg6 (by decide) (by exact (by decide : ∀ w, Pipeline.arrRef spec0 w ≠ main_arg6))).trans (V_main_arg6 m c)
/-- No host operation after the region writes `main_arg8`, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_of m dats c main_arg8 (by decide) (by exact (by decide : ∀ w, Pipeline.arrRef spec0 w ≠ main_arg8))).trans (V_main_arg8 m c)

/-! ## The frame claim's post from the frame run's -/

/-- THE FRAME from a frame run of exact proof data: for any proof data whose arrays are the region-entry contents
    (`hA`), a run to Lib/Pipeline/Frame.lean's `FramePost` read at the argument arrays — `main_arg7`, window 7's
    array, a staged input, by the post's first clause and `Dat.arrAt_in`; every other one, which no window stages, by
    the post's second clause, then `W_…` — is the frame claim's post (Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c)⟩) h

/-- THE FRAME from a frame run of relational proof data (`RDat.θ_run_frame_around_T`'s conclusion, at the set `T` of the
    buffers the later lines write): `main_arg7`, an input window's array, holds its entry contents (`RDat.ArrAt_in`);
    every other argument array is unscoped, no window's array and outside `T`, so it holds its region-entry contents. -/
theorem frame_ofR (rdat : (c : Dev nD) → RDat τ (Elt F) Unit ℕ (UR sig nD τ) ℕ cfg0 c)
    (hA : ∀ c w, (rdat c).A w = V m c (Pipeline.arrRef spec0 w))
    (h : θ_run defs (onTc (τ := τ) (main (F := F))) (s₀ m ρ) (RDat.FramePostR cfg0 rdat T (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), not_mem_T (by decide)⟩)).trans (V_main_arg0 m c),
      ((h c).2 main_arg1 (Finset.mem_sdiff.mpr ⟨Pipeline.mem_restRefs_of main_arg1 (by decide) (by decide), not_mem_T (by decide)⟩)).trans (V_main_arg1 m c),
      ((h c).2 main_arg2 (Finset.mem_sdiff.mpr ⟨Pipeline.mem_restRefs_of main_arg2 (by decide) (by decide), not_mem_T (by decide)⟩)).trans (V_main_arg2 m c),
      ((h c).2 main_arg3 (Finset.mem_sdiff.mpr ⟨Pipeline.mem_restRefs_of main_arg3 (by decide) (by decide), not_mem_T (by decide)⟩)).trans (V_main_arg3 m c),
      ((h c).2 main_arg4 (Finset.mem_sdiff.mpr ⟨Pipeline.mem_restRefs_of main_arg4 (by decide) (by decide), not_mem_T (by decide)⟩)).trans (V_main_arg4 m c),
      ((h c).2 main_arg5 (Finset.mem_sdiff.mpr ⟨Pipeline.mem_restRefs_of main_arg5 (by decide) (by decide), not_mem_T (by decide)⟩)).trans (V_main_arg5 m c),
      ((h c).2 main_arg6 (Finset.mem_sdiff.mpr ⟨Pipeline.mem_restRefs_of main_arg6 (by decide) (by decide), not_mem_T (by decide)⟩)).trans (V_main_arg6 m c),
      (Eq.mp (congrFun ((rdat c).ArrAt_in 7 rfl _) _) ((h c).1 7)).trans ((hA c 7).trans (V_main_arg7 m c)),
      ((h c).2 main_arg8 (Finset.mem_sdiff.mpr ⟨Pipeline.mem_restRefs_of main_arg8 (by decide) (by decide), not_mem_T (by decide)⟩)).trans (V_main_arg8 m c)⟩) h

end Cert.Kernel.Around

end
-- ==== Proof.FrameBits.lean ====
/-
  The frame of the kernel program read at bit patterns (and at any float instance): its run terminates, nothing
  faults, and the nine argument arrays end as launched. Nothing is claimed of the output's contents here, so the proof
  data FORGET the output window: the body is handed its staging buffer at anything and hands it back at anything. The
  inputs' buffers hold their blocks on the rows inside the array (the last of the 245 blocks of 4096 rows overhangs the
  million rows and is cut) and are left as found.
-/
import proofs.«165509_j29300266893702_2_alg».proof.Proof.BaseBits
import proofs.«165509_j29300266893702_2_alg».proof.Proof.BodyBits
import proofs.«165509_j29300266893702_2_alg».proof.Proof.AroundBits

set_option maxRecDepth 16384

noncomputable section

namespace Cert.Kernel.Run

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not read: the output. -/
abbrev forgets : Fin cfg0.W → Bool := fun | 0 => false | 1 => false | 2 => false | 3 => false | 4 => false | 5 => false | 6 => false | 7 => false | 8 => false | 9 => true | ⟨_ + 10, h⟩ => absurd h (Nat.not_lt.2 (Nat.le_add_left _ _))

/-- Window `w`'s block at point `t` filled out to the staging buffer's size. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data: the arrays as the region finds them; after the body each input's buffer at its filled block, the
    output's unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => fblk m c 7 t
    | ⟨8, _⟩ => fblk m c 8 t
    | ⟨9, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = fblk m c 0 t := by dsimp only [dats]
theorem after_1 (c : Dev nD) (t : Fin cfg0.N) : (dats m 0 c).after 1 t = fblk m c 1 t := by dsimp only [dats]
theorem after_2 (c : Dev nD) (t : Fin cfg0.N) : (dats m 0 c).after 2 t = fblk m c 2 t := by dsimp only [dats]
theorem after_3 (c : Dev nD) (t : Fin cfg0.N) : (dats m 0 c).after 3 t = fblk m c 3 t := by dsimp only [dats]
theorem after_4 (c : Dev nD) (t : Fin cfg0.N) : (dats m 0 c).after 4 t = fblk m c 4 t := by dsimp only [dats]
theorem after_5 (c : Dev nD) (t : Fin cfg0.N) : (dats m 0 c).after 5 t = fblk m c 5 t := by dsimp only [dats]
theorem after_6 (c : Dev nD) (t : Fin cfg0.N) : (dats m 0 c).after 6 t = fblk m c 6 t := by dsimp only [dats]
theorem after_7 (c : Dev nD) (t : Fin cfg0.N) : (dats m 0 c).after 7 t = fblk m c 7 t := by dsimp only [dats]
theorem after_8 (c : Dev nD) (t : Fin cfg0.N) : (dats m 0 c).after 8 t = fblk m c 8 t := by dsimp only [dats]

/-- An input window's buffer, when the body runs at point `t`, holds the window's block there on the rows inside the
    array and what the buffer held elsewhere — fetched at this point or carried from an earlier one. -/
theorem before_in (c : Dev nD) (w : Fin cfg0.W) (hw : (cfg0.win w).isOut = false)
    (hafter : ∀ t, (dats m 0 c).after w t = fblk m c w t)
    (hclip : ∀ t t' : Fin cfg0.N, (cfg0.win w).index t = (cfg0.win w).index t' →
      (cfg0.win w).clip (cfg0.grid.coords t) = (cfg0.win w).clip (cfg0.grid.coords t'))
    (t : Fin cfg0.N) (d) :
    (dats m 0 c).before w t d = (cfg0.win w).fill (cfg0.grid.coords t) d (iblk m c w t) := by
  rw [(dats m 0 c).before_in_eq_fetched w hw (fun _ => rfl) hclip
    (fun t => by rw [hafter]; unfold fblk; rw [Window.cut_fill]; unfold Dat.blockOf iblk; rw [A_eq]) t d]
  unfold Dat.fetched Dat.blockOf iblk; rw [A_eq]

/-- The cut of a window of this pipeline is a function of its block index. -/
theorem clip_of_index (w : Fin cfg0.W) : ∀ t t' : Fin cfg0.N, (cfg0.win w).index t = (cfg0.win w).index t' →
      (cfg0.win w).clip (cfg0.grid.coords t) = (cfg0.win w).clip (cfg0.grid.coords t') := by
  intro t t' h
  fin_cases w <;> first | rfl | (funext a; exact congrArg (fun ix : Fin 2 → Nat => Pipeline.Clip.of (ix a) _ _) h)

set_option maxHeartbeats 2000000 in
/-- The library's loose body obligation with the output forgotten, at every point. -/
theorem body_obligation (c : Dev nD) :
    BodyObligationLoose (dats m 0 c) (defs₀ (F := F)) Variants.none () Set.univ forgets := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_in m c 0 rfl (after_0 m c) (clip_of_index 0) t d0, before_in m c 1 rfl (after_1 m c) (clip_of_index 1) t d1,
    before_in m c 2 rfl (after_2 m c) (clip_of_index 2) t d2, before_in m c 3 rfl (after_3 m c) (clip_of_index 3) t d3,
    before_in m c 4 rfl (after_4 m c) (clip_of_index 4) t d4, before_in m c 5 rfl (after_5 m c) (clip_of_index 5) t d5,
    before_in m c 6 rfl (after_6 m c) (clip_of_index 6) t d6, before_in m c 7 rfl (after_7 m c) (clip_of_index 7) t d7,
    before_in m c 8 rfl (after_8 m c) (clip_of_index 8) t d8]
  have e2 : (cfg0.win 2).fill (cfg0.grid.coords t) d2 (iblk m c 2 t) = fblk m c 2 t :=
    Pipeline.fill_of_clip_none (cfg := cfg0) 2 (cfg0.grid.coords t) (fun _ => rfl) _ _ _
  have e3 : (cfg0.win 3).fill (cfg0.grid.coords t) d3 (iblk m c 3 t) = fblk m c 3 t :=
    Pipeline.fill_of_clip_none (cfg := cfg0) 3 (cfg0.grid.coords t) (fun _ => rfl) _ _ _
  have e4 : (cfg0.win 4).fill (cfg0.grid.coords t) d4 (iblk m c 4 t) = fblk m c 4 t :=
    Pipeline.fill_of_clip_none (cfg := cfg0) 4 (cfg0.grid.coords t) (fun _ => rfl) _ _ _
  have e5 : (cfg0.win 5).fill (cfg0.grid.coords t) d5 (iblk m c 5 t) = fblk m c 5 t :=
    Pipeline.fill_of_clip_none (cfg := cfg0) 5 (cfg0.grid.coords t) (fun _ => rfl) _ _ _
  have e6 : (cfg0.win 6).fill (cfg0.grid.coords t) d6 (iblk m c 6 t) = fblk m c 6 t :=
    Pipeline.fill_of_clip_none (cfg := cfg0) 6 (cfg0.grid.coords t) (fun _ => rfl) _ _ _
  rw [e2, e3, e4, e5, e6]
  iapply (sound_kernel (F := F) c Set.univ (grid0.coords t) _ _ _ _ _ _ _ _ _ _ _ _ _ _ _ _ _ _ _ _
    ((cfg0.win 0).fill (cfg0.grid.coords t) d0 (iblk m c 0 t)) ((cfg0.win 1).fill (cfg0.grid.coords t) d1 (iblk m c 1 t)) (fblk m c 2 t) (fblk m c 3 t) (fblk m c 4 t) (fblk m c 5 t) (fblk m c 6 t) ((cfg0.win 7).fill (cfg0.grid.coords t) d7 (iblk m c 7 t)) ((cfg0.win 8).fill (cfg0.grid.coords t) d8 (iblk m c 8 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [after_0]; unfold fblk; rw [Window.cut_fill]
    iexact H0
  isplitl [H1]
  · iexists d1
    rw [after_1]; unfold fblk; rw [Window.cut_fill]
    iexact H1
  isplitl [H2]
  · rw [after_2]; iexact H2
  isplitl [H3]
  · rw [after_3]; iexact H3
  isplitl [H4]
  · rw [after_4]; iexact H4
  isplitl [H5]
  · rw [after_5]; iexact H5
  isplitl [H6]
  · rw [after_6]; iexact H6
  isplitl [H7]
  · iexists d7
    rw [after_7]; unfold fblk; rw [Window.cut_fill]
    iexact H7
  isplitl [H8]
  · iexists d8
    rw [after_8]; unfold fblk; rw [Window.cut_fill]
    iexact H8
  iexists _; iexact H9

/-- The relational proof data of the run: the data above with the output forgotten. -/
abbrev rdat (c : Dev nD) : RDat τ (Elt F) Unit ℕ (UR sig nD τ) ℕ cfg0 c := (dats m 0 c).toRForget forgets

set_option backward.isDefEq.respectTransparency.types false in
/-- From any memory with zero counters every weakly fair execution of @main terminates without a fault, every input array
    of the pipeline unchanged, and every buffer the later host operations do not write as the region found it. -/
theorem run_main : θ_run defs (onTc (τ := τ) (main (F := F))) (s₀ m ρ) (RDat.FramePostR cfg0 (rdat m) T (V m)) :=
  Pipeline.RDat.θ_run_frame_around_T cfgs (0 : Fin 1) launch0 defs₀ Variants.none (rdat m) T m ρ main
    (hbody := fun c => (body_obligation m c).toRForget)
    (hshare := fun c => ((dats m 0 c).toRForget forgets).share_full fun _ => rfl) (howed := fun _ _ => rfl)
    (V₀ := V0 m) (opss := tailOps) (hsub := sfx_sub) (hfresh := sfx_fresh) (hkeep := sfx_keeps) (hT := sfx_T)
    (hmain := hmain m Variants.none) (hA := A_eq m) (hΦ := fun _ _ => rfl)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_ofR m ρ (rdat m) (A_eq m) (run_main m ρ)

end Cert.Kernel.Run

end
-- ==== Proof.BaseIdeal.lean ====
/-
  The arrays as the region finds them. Core `c`'s buffer contents when the region is entered are the launch contents
  after the host operations that precede it (`V0`, `V`); window `w`'s block at grid point `t` is read off its array
  there (`iblk`): its part inside the array — the last block of the windows that step through the million rows in
  blocks of 4096 overhangs the array and is cut to 576 rows.
-/
import proofs.«165509_j29300266893702_2_alg».proof.Proof.Gen.KernelIdeal.Launch
import proofs.«165509_j29300266893702_2_alg».proof.Proof.Gen.KernelIdeal.Points
import Idealize.ShloMosaic.Lib.Pipeline.FrameBody
import Idealize.ShloMosaic.Lib.Pipeline.FrameSuffix

noncomputable section

namespace Cert.KernelIdeal.Around

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s TensorCore buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4, hostOps1_5]

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Around

end
-- ==== Proof.BodyIdeal.lean ====
/-
  The kernel body's triple, for any float instance. The body loads its nine input staging buffers whole, computes one
  column of 4096 values from them and stores it over the whole output staging buffer: so after the body the inputs'
  buffers hold what they held and the output's buffer holds `out9` of the inputs' contents — the one store's value
  read back through the buffer's whole rectangle.
-/
import proofs.«165509_j29300266893702_2_alg».proof.Proof.Gen.KernelIdeal.Launch
import proofs.«165509_j29300266893702_2_alg».proof.Proof.Gen.KernelIdeal.Skeleton
import proofs.«165509_j29300266893702_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole rectangles the body reads and writes through -/

abbrev rRows : Rect S4096x64 := Rect.unit (s := S4096x64) ![0, 0] S4096x64.size inb_S4096x64_S4096x64_0_0
abbrev rSq : Rect S64x64 := Rect.unit (s := S64x64) ![0, 0] S64x64.size inb_S64x64_S64x64_0_0
abbrev rBias : Rect S1x64 := Rect.unit (s := S1x64) ![0, 0] S1x64.size inb_S1x64_S1x64_0_0
abbrev rW2 : Rect S64x1 := Rect.unit (s := S64x1) ![0, 0] S64x1.size inb_S64x1_S64x1_0_0
abbrev rOne : Rect S1x1 := Rect.unit (s := S1x1) ![0, 0] S1x1.size inb_S1x1_S1x1_0_0
abbrev rCol : Rect S4096x1 := Rect.unit (s := S4096x1) ![0, 0] S4096x1.size inb_S4096x1_S4096x1_0_0

/-- The column the body stores, from the nine buffers' contents. -/
def stored (x0 x1 : Vec F S4096x64 .f32) (x2 x3 : Vec F S64x64 .f32) (x4 : Vec F S1x64 .f32) (x5 : Vec F S64x1 .f32)
    (x6 : Vec F S1x1 .f32) (x7 x8 : Vec F S4096x1 .f32) : FVec F S4096x1 .f32 :=
  k0_pay1 (k0_pay2 (View.ld x0 rRows) (View.ld x1 rRows) (View.ld x2 rSq) (View.ld x3 rSq) (View.ld x4 rBias) (View.ld x5 rW2) (View.ld x6 rOne))
    (k0_pay3 (View.ld x7 rCol)) (k0_pay4 (View.ld x7 rCol)) (Scalar.ofBits .f32 0x00000000#32) (View.ld x8 rCol)

/-- The output staging buffer after the body: its one store, over the whole buffer. -/
def out9 (x0 x1 : Vec F S4096x64 .f32) (x2 x3 : Vec F S64x64 .f32) (x4 : Vec F S1x64 .f32) (x5 : Vec F S64x1 .f32)
    (x6 : Vec F S1x1 .f32) (x7 x8 : Vec F S4096x1 .f32) : Vec F S4096x1 .f32 :=
  View.canon [⟨rCol, stored x0 x1 x2 x3 x4 x5 x6 x7 x8⟩]

/-- The one store covers the buffer. -/
theorem cover9 (p0 : Vec F S4096x1 .f32) (y : S4096x1.Idx) :
    ∃ pc ∈ ([⟨rCol, p0⟩] : List (View.Piece (Elt F) S4096x1 .f32)), y ∈ pc.1.set :=
  View.cover_of_tiled [⟨rCol, p0⟩] S4096x1.size (by rfl) y

set_option maxHeartbeats 4000000 in
/-- The body on whole staging memrefs, the inputs' at contents `xW` and the output's at anything, runs to the continuation
    holding the inputs' as they were and the output's at `out9` of them. -/
theorem sound_kernel (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4096x1 .f32) (harg8 : arg8.IsWhole) (arg9 : Memref sig .tc .vmem S4096x1 .f32) (harg9 : arg9.IsWhole) (arg10 : Memref sig .tc .vmem S4096x1 .f32) (harg10 : arg10.IsWhole)
    (x0 x1 : Vec F S4096x64 .f32) (x2 x3 : Vec F S64x64 .f32) (x4 : Vec F S1x64 .f32) (x5 : Vec F S64x1 .f32)
    (x6 : Vec F S1x1 .f32) (x7 x8 : Vec F S4096x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6 x7 x8)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8 arg9 harg9 arg10 harg10) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

end Cert.KernelIdeal.Body

end
-- ==== Proof.DatIdeal.lean ====
/-
  The proof data of the one pipeline at the ideal instance. After the body at grid point `t` each input's staging
  buffer holds its block — the rows inside the array; past the array's end (only the last of the 245 blocks of 4096
  rows overhangs the million rows) a filler nothing reads — and the output's buffer holds the stored column computed
  from those filled blocks. What the body finds: every input's buffer at its block filled out with whatever the buffer
  held (`before_in`), the output's at anything (`before_out`).
-/
import proofs.«165509_j29300266893702_2_alg».proof.Proof.BaseIdeal
import proofs.«165509_j29300266893702_2_alg».proof.Proof.BodyIdeal
import Idealize.ShloMosaic.PureOps.Ideal

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Window `w`'s block at point `t` filled out to the staging buffer's size. -/
def fblk (c : Dev nD) (w : Fin cfg0.W) (t : Fin cfg0.N) : (cfg0.win w).block.Idx → Elt Ideal (cfg0.win w).elt :=
  (cfg0.win w).fill (cfg0.grid.coords t) (fun _ => Classical.arbitrary _) (iblk m c w t)

/-- The proof data: the arrays as the region finds them; after the body each input's buffer at its filled block and the
    output's at the stored column of them; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => fblk m c 0 t
    | ⟨1, _⟩ => fblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => fblk m c 7 t
    | ⟨8, _⟩ => fblk m c 8 t
    | ⟨9, _⟩ => out9 (fblk m c 0 t) (fblk m c 1 t) (fblk m c 2 t) (fblk m c 3 t) (fblk m c 4 t) (fblk m c 5 t) (fblk m c 6 t) (fblk m c 7 t) (fblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = fblk m c 0 t := by dsimp only [dats]
theorem after_1 (c : Dev nD) (t : Fin cfg0.N) : (dats m 0 c).after 1 t = fblk m c 1 t := by dsimp only [dats]
theorem after_2 (c : Dev nD) (t : Fin cfg0.N) : (dats m 0 c).after 2 t = fblk m c 2 t := by dsimp only [dats]
theorem after_3 (c : Dev nD) (t : Fin cfg0.N) : (dats m 0 c).after 3 t = fblk m c 3 t := by dsimp only [dats]
theorem after_4 (c : Dev nD) (t : Fin cfg0.N) : (dats m 0 c).after 4 t = fblk m c 4 t := by dsimp only [dats]
theorem after_5 (c : Dev nD) (t : Fin cfg0.N) : (dats m 0 c).after 5 t = fblk m c 5 t := by dsimp only [dats]
theorem after_6 (c : Dev nD) (t : Fin cfg0.N) : (dats m 0 c).after 6 t = fblk m c 6 t := by dsimp only [dats]
theorem after_7 (c : Dev nD) (t : Fin cfg0.N) : (dats m 0 c).after 7 t = fblk m c 7 t := by dsimp only [dats]
theorem after_8 (c : Dev nD) (t : Fin cfg0.N) : (dats m 0 c).after 8 t = fblk m c 8 t := by dsimp only [dats]
theorem after_9 (c : Dev nD) (t : Fin cfg0.N) : (dats m 0 c).after 9 t
    = out9 (fblk m c 0 t) (fblk m c 1 t) (fblk m c 2 t) (fblk m c 3 t) (fblk m c 4 t) (fblk m c 5 t) (fblk m c 6 t) (fblk m c 7 t) (fblk m c 8 t) := by
  dsimp only [dats]

/-- An input window's buffer, when the body runs at point `t`, holds the window's block there on the rows inside the
    array and what the buffer held elsewhere — fetched at this point or carried from an earlier one: the body leaves
    the block in place, and the cut is a function of the block index. -/
theorem before_in (c : Dev nD) (w : Fin cfg0.W) (hw : (cfg0.win w).isOut = false)
    (hafter : ∀ t, (dats m 0 c).after w t = fblk m c w t)
    (hclip : ∀ t t' : Fin cfg0.N, (cfg0.win w).index t = (cfg0.win w).index t' →
      (cfg0.win w).clip (cfg0.grid.coords t) = (cfg0.win w).clip (cfg0.grid.coords t'))
    (t : Fin cfg0.N) (d) :
    (dats m 0 c).before w t d = (cfg0.win w).fill (cfg0.grid.coords t) d (iblk m c w t) := by
  rw [(dats m 0 c).before_in_eq_fetched w hw (fun _ => rfl) hclip
    (fun t => by rw [hafter]; unfold fblk; rw [Window.cut_fill]; unfold Dat.blockOf iblk; rw [A_eq]) t d]
  unfold Dat.fetched Dat.blockOf iblk; rw [A_eq]

/-- The cut of a window of this pipeline is a function of its block index. -/
theorem clip_of_index (w : Fin cfg0.W) : ∀ t t' : Fin cfg0.N, (cfg0.win w).index t = (cfg0.win w).index t' →
      (cfg0.win w).clip (cfg0.grid.coords t) = (cfg0.win w).clip (cfg0.grid.coords t') := by
  intro t t' h
  fin_cases w <;> first | rfl | (funext a; exact congrArg (fun ix : Fin 2 → Nat => Pipeline.Clip.of (ix a) _ _) h)

/-- The output's buffer holds anything when the body runs: the previous point wrote it back. -/
theorem before_out (c : Dev nD) (t : Fin cfg0.N) (d) : (dats m 0 c).before 9 t d = d :=
  (dats m 0 c).before_out_reset 9 rfl t
    (by by_cases h0 : t.val = 0
        · exact .inl h0
        · exact .inr ⟨h0, flush0_9 _⟩) d

end Cert.KernelIdeal.Run

end
-- ==== Proof.OblIdeal.lean ====
/-
  The body obligation at the ideal instance, in the loose form the clipped windows ask: at every grid point the body,
  handed every input's buffer at its block filled out with whatever the buffer held past the array's end, and the
  output's buffer at anything, leaves the inputs' buffers as they were and the output's at the stored column — which on
  the rows inside the array is the column of the proof data, because a row of the stored column depends only on that
  row of the row-blocked inputs (`Local`).
-/
import proofs.«165509_j29300266893702_2_alg».proof.Proof.DatIdeal

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Row-locality of the stored column: inputs that agree on the rows inside the array give columns that agree there. -/
def Local : Prop :=
  ∀ (t : Fin cfg0.N) (x0 y0 x1 y1 : Vec Ideal S4096x64 .f32) (x2 x3 : Vec Ideal S64x64 .f32) (x4 : Vec Ideal S1x64 .f32)
    (x5 : Vec Ideal S64x1 .f32) (x6 : Vec Ideal S1x1 .f32) (x7 y7 x8 y8 : Vec Ideal S4096x1 .f32),
    win0_0.cut (grid0.coords t) x0 = win0_0.cut (grid0.coords t) y0 →
    win0_1.cut (grid0.coords t) x1 = win0_1.cut (grid0.coords t) y1 →
    win0_7.cut (grid0.coords t) x7 = win0_7.cut (grid0.coords t) y7 →
    win0_8.cut (grid0.coords t) x8 = win0_8.cut (grid0.coords t) y8 →
    win0_9.cut (grid0.coords t) (out9 x0 x1 x2 x3 x4 x5 x6 x7 x8) = win0_9.cut (grid0.coords t) (out9 y0 y1 x2 x3 x4 x5 x6 y7 y8)

set_option maxHeartbeats 2000000 in
/-- The library's loose body obligation, at every point. -/
theorem body_obligation (hloc : Local) (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_in m c 0 rfl (after_0 m c) (clip_of_index 0) t d0, before_in m c 1 rfl (after_1 m c) (clip_of_index 1) t d1,
    before_in m c 2 rfl (after_2 m c) (clip_of_index 2) t d2, before_in m c 3 rfl (after_3 m c) (clip_of_index 3) t d3,
    before_in m c 4 rfl (after_4 m c) (clip_of_index 4) t d4, before_in m c 5 rfl (after_5 m c) (clip_of_index 5) t d5,
    before_in m c 6 rfl (after_6 m c) (clip_of_index 6) t d6, before_in m c 7 rfl (after_7 m c) (clip_of_index 7) t d7,
    before_in m c 8 rfl (after_8 m c) (clip_of_index 8) t d8, before_out m c t d9]
  have e2 : (cfg0.win 2).fill (cfg0.grid.coords t) d2 (iblk m c 2 t) = fblk m c 2 t :=
    Pipeline.fill_of_clip_none (cfg := cfg0) 2 (cfg0.grid.coords t) (fun _ => rfl) _ _ _
  have e3 : (cfg0.win 3).fill (cfg0.grid.coords t) d3 (iblk m c 3 t) = fblk m c 3 t :=
    Pipeline.fill_of_clip_none (cfg := cfg0) 3 (cfg0.grid.coords t) (fun _ => rfl) _ _ _
  have e4 : (cfg0.win 4).fill (cfg0.grid.coords t) d4 (iblk m c 4 t) = fblk m c 4 t :=
    Pipeline.fill_of_clip_none (cfg := cfg0) 4 (cfg0.grid.coords t) (fun _ => rfl) _ _ _
  have e5 : (cfg0.win 5).fill (cfg0.grid.coords t) d5 (iblk m c 5 t) = fblk m c 5 t :=
    Pipeline.fill_of_clip_none (cfg := cfg0) 5 (cfg0.grid.coords t) (fun _ => rfl) _ _ _
  have e6 : (cfg0.win 6).fill (cfg0.grid.coords t) d6 (iblk m c 6 t) = fblk m c 6 t :=
    Pipeline.fill_of_clip_none (cfg := cfg0) 6 (cfg0.grid.coords t) (fun _ => rfl) _ _ _
  rw [e2, e3, e4, e5, e6]
  have h0 : win0_0.cut (grid0.coords t) ((cfg0.win 0).fill (cfg0.grid.coords t) d0 (iblk m c 0 t))
      = win0_0.cut (grid0.coords t) (fblk m c 0 t) := by
    unfold fblk; exact (Window.cut_fill _ _ _ _).trans (Window.cut_fill _ _ _ _).symm
  have h1 : win0_1.cut (grid0.coords t) ((cfg0.win 1).fill (cfg0.grid.coords t) d1 (iblk m c 1 t))
      = win0_1.cut (grid0.coords t) (fblk m c 1 t) := by
    unfold fblk; exact (Window.cut_fill _ _ _ _).trans (Window.cut_fill _ _ _ _).symm
  have h7 : win0_7.cut (grid0.coords t) ((cfg0.win 7).fill (cfg0.grid.coords t) d7 (iblk m c 7 t))
      = win0_7.cut (grid0.coords t) (fblk m c 7 t) := by
    unfold fblk; exact (Window.cut_fill _ _ _ _).trans (Window.cut_fill _ _ _ _).symm
  have h8 : win0_8.cut (grid0.coords t) ((cfg0.win 8).fill (cfg0.grid.coords t) d8 (iblk m c 8 t))
      = win0_8.cut (grid0.coords t) (fblk m c 8 t) := by
    unfold fblk; exact (Window.cut_fill _ _ _ _).trans (Window.cut_fill _ _ _ _).symm
  iapply (sound_kernel (F := Ideal) c Set.univ (grid0.coords t) _ _ _ _ _ _ _ _ _ _ _ _ _ _ _ _ _ _ _ _
    ((cfg0.win 0).fill (cfg0.grid.coords t) d0 (iblk m c 0 t)) ((cfg0.win 1).fill (cfg0.grid.coords t) d1 (iblk m c 1 t)) (fblk m c 2 t) (fblk m c 3 t) (fblk m c 4 t) (fblk m c 5 t) (fblk m c 6 t) ((cfg0.win 7).fill (cfg0.grid.coords t) d7 (iblk m c 7 t)) ((cfg0.win 8).fill (cfg0.grid.coords t) d8 (iblk m c 8 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [after_0]; unfold fblk; rw [Window.cut_fill]
    iexact H0
  isplitl [H1]
  · iexists d1
    rw [after_1]; unfold fblk; rw [Window.cut_fill]
    iexact H1
  isplitl [H2]
  · rw [after_2]; iexact H2
  isplitl [H3]
  · rw [after_3]; iexact H3
  isplitl [H4]
  · rw [after_4]; iexact H4
  isplitl [H5]
  · rw [after_5]; iexact H5
  isplitl [H6]
  · rw [after_6]; iexact H6
  isplitl [H7]
  · iexists d7
    rw [after_7]; unfold fblk; rw [Window.cut_fill]
    iexact H7
  isplitl [H8]
  · iexists d8
    rw [after_8]; unfold fblk; rw [Window.cut_fill]
    iexact H8
  iexists (out9 ((cfg0.win 0).fill (cfg0.grid.coords t) d0 (iblk m c 0 t)) ((cfg0.win 1).fill (cfg0.grid.coords t) d1 (iblk m c 1 t)) (fblk m c 2 t) (fblk m c 3 t) (fblk m c 4 t) (fblk m c 5 t) (fblk m c 6 t) ((cfg0.win 7).fill (cfg0.grid.coords t) d7 (iblk m c 7 t)) ((cfg0.win 8).fill (cfg0.grid.coords t) d8 (iblk m c 8 t)))
  rw [after_9, win0_9.fill_congr_cut (grid0.coords t) (hloc t _ _ _ _ _ _ _ _ _ _ _ _ _ h0 h1 h7 h8)]
  iexact H9

end Cert.KernelIdeal.Run

end
-- ==== Proof.AroundIdeal.lean ====
/- @main of `Cert.KernelIdeal` around its one region: the host operations before it, the region, the six stretches of host
   operations after it — what Lib/Pipeline/FrameSuffix.lean's frame run around a region takes of @main (`hmain`,
   `sfx_sub`, `sfx_fresh`, `sfx_keeps`), the buffers the later stretches write (`tailW`, `T`), the argument arrays'
   contents at the region's entry and after the last stretch (`V_…`, `W_…`), and the frame claim's post from a frame
   run's (`frame_of` for exact proof data, `frame_ofR` for relational proof data). Generic in the float model `F`. -/
import proofs.«165509_j29300266893702_2_alg».proof.Proof.BaseIdeal
import Idealize.ShloMosaic.Lib.Pipeline.FrameBody
import Idealize.ShloMosaic.Lib.Pipeline.FrameSuffix
import Idealize.ShloMosaic.Lib.Ring
import Idealize.ShloMosaic.Lib.Tactic

-- deciding that two references of a signature of 130 buffers differ recurses past the default depth
set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main around the region, at any variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ### The lines after the region, stretch by stretch -/

/-- No operation of `hostOps1` writes an array of the pipeline: each writes only its own result buffer, which is no array. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_1` writes an array of the pipeline: each writes only its own result buffer, which is no array. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_2` writes an array of the pipeline: each writes only its own result buffer, which is no array. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_3` writes an array of the pipeline: each writes only its own result buffer, which is no array. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_4` writes an array of the pipeline: each writes only its own result buffer, which is no array. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)
/-- No operation of `hostOps1_5` writes an array of the pipeline: each writes only its own result buffer, which is no array. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' constructor
  all_goals intro w; fin_cases w <;> exact StableHlo.devRef_ne_of_ne (by decide)

/-- The lines after the region touch the pipeline's arrays and the bypassing buffers only (each operation's buffers are
    unscoped TensorCore references, and with nothing prefetched every such reference is one or the other:
    `Pipeline.tailRefs_none`). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-! ## The buffers the host operations write -/

/-- The result buffers of `hostOps0`'s operations, in order. -/
abbrev hostOps0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_v23, main_v24, main_v25]
/-- The result buffers of `hostOps1`'s operations, in order. -/
abbrev hostOps1_W : List (Ref sig .tc) := [main_v27, main_cst, main_v28, main_v29, main_v30, main_v31, main_v32, main_v33, main_v34, main_v35]
/-- The result buffers of `hostOps1_1`'s operations, in order. -/
abbrev hostOps1_1_W : List (Ref sig .tc) := [main_call0_v0, main_call0_v1_0, main_call0_v1_1, main_v36]
/-- The result buffers of `hostOps1_2`'s operations, in order. -/
abbrev hostOps1_2_W : List (Ref sig .tc) := [main_c_3, main_v37, main_v38, main_c_4, main_v39, main_v40, main_v41, main_v42, main_v43, main_c_5, main_v44, main_v45, main_c_6, main_v46, main_v47, main_v48, main_v49, main_v50, main_c_7, main_v51, main_v52, main_c_8, main_v53, main_v54, main_v55, main_v56, main_v57, main_c_9, main_v58, main_v59, main_v60, main_v61, main_v62, main_v63, main_v64, main_v65, main_v66]
/-- The result buffers of `hostOps1_3`'s operations, in order. -/
abbrev hostOps1_3_W : List (Ref sig .tc) := [main_call1_v0, main_call1_call0_c, main_call1_call0_v0, main_v67]
/-- The result buffers of `hostOps1_4`'s operations, in order. -/
abbrev hostOps1_4_W : List (Ref sig .tc) := [main_c_10, main_v68, main_v69, main_cst_11, main_v70, main_v71, main_v72, main_c_12, main_v73, main_v74, main_c_13, main_v75, main_v76, main_v77, main_v78, main_v79, main_cst_14]
/-- The result buffers of `hostOps1_5`'s operations, in order. -/
abbrev hostOps1_5_W : List (Ref sig .tc) := [main_call2_v0, main_call2_v1, main_v80]

/-- Every buffer a line after the region writes, stretch by stretch, in order. -/
abbrev tailW : List (Ref sig .tc) := hostOps1_W ++ (hostOps1_1_W ++ (hostOps1_2_W ++ (hostOps1_3_W ++ (hostOps1_4_W ++ (hostOps1_5_W)))))
/-- The same as a set. -/
abbrev T : Finset (Ref sig .tc) := tailW.toFinset

/-- Each operation of `hostOps0` writes its one result buffer, as listed. -/
theorem hostOps0_writes : (hostOps0 : List (HloOp τ sig (Elt F))).map (fun op => op.writes)
    = hostOps0_W.map fun y => ({Proc.devRef .tc y} : Finset (DevRef τ sig)) := by
  simp only [hostOps0, List.map_cons, List.map_nil, StableHlo.nullary_writes, StableHlo.unary_writes, StableHlo.binary_writes, StableHlo.ternary_writes, StableHlo.quaternary_writes, StableHlo.reshape_writes, StableHlo.binaryIndexed_writes]
/-- Each operation of `hostOps1` writes its one result buffer, as listed. -/
theorem hostOps1_writes : (hostOps1 : List (HloOp τ sig (Elt F))).map (fun op => op.writes)
    = hostOps1_W.map fun y => ({Proc.devRef .tc y} : Finset (DevRef τ sig)) := by
  simp only [hostOps1, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_1` writes its one result buffer, as listed. -/
theorem hostOps1_1_writes : (hostOps1_1 : List (HloOp τ sig (Elt F))).map (fun op => op.writes)
    = hostOps1_1_W.map fun y => ({Proc.devRef .tc y} : Finset (DevRef τ sig)) := by
  simp only [hostOps1_1, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_2` writes its one result buffer, as listed. -/
theorem hostOps1_2_writes : (hostOps1_2 : List (HloOp τ sig (Elt F))).map (fun op => op.writes)
    = hostOps1_2_W.map fun y => ({Proc.devRef .tc y} : Finset (DevRef τ sig)) := by
  simp only [hostOps1_2, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_3` writes its one result buffer, as listed. -/
theorem hostOps1_3_writes : (hostOps1_3 : List (HloOp τ sig (Elt F))).map (fun op => op.writes)
    = hostOps1_3_W.map fun y => ({Proc.devRef .tc y} : Finset (DevRef τ sig)) := by
  simp only [hostOps1_3, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_4` writes its one result buffer, as listed. -/
theorem hostOps1_4_writes : (hostOps1_4 : List (HloOp τ sig (Elt F))).map (fun op => op.writes)
    = hostOps1_4_W.map fun y => ({Proc.devRef .tc y} : Finset (DevRef τ sig)) := by
  simp only [hostOps1_4, List.map_cons, List.map_nil, StableHlo.nullary_writes, StableHlo.unary_writes, StableHlo.binary_writes, StableHlo.ternary_writes, StableHlo.quaternary_writes, StableHlo.reshape_writes, StableHlo.binaryIndexed_writes]
/-- Each operation of `hostOps1_5` writes its one result buffer, as listed. -/
theorem hostOps1_5_writes : (hostOps1_5 : List (HloOp τ sig (Elt F))).map (fun op => op.writes)
    = hostOps1_5_W.map fun y => ({Proc.devRef .tc y} : Finset (DevRef τ sig)) := by
  simp only [hostOps1_5, List.map_cons, List.map_nil, StableHlo.nullary_writes, StableHlo.unary_writes, StableHlo.binary_writes, StableHlo.ternary_writes, StableHlo.quaternary_writes, StableHlo.reshape_writes, StableHlo.binaryIndexed_writes]

/-- A reference one operation of a line writes is among the line's result buffers. -/
theorem mem_of_writes {ops : List (HloOp τ sig (Elt F))} {W : List (Ref sig .tc)}
    (h : ops.map (fun op => op.writes) = W.map fun y => ({Proc.devRef .tc y} : Finset (DevRef τ sig))) :
    ∀ op ∈ ops, ∀ b : Ref sig .tc, Proc.devRef .tc b ∈ op.writes → b ∈ W := by
  intro op hop b hb
  have hw : op.writes ∈ ops.map (fun op => op.writes) := List.mem_map.mpr ⟨op, hop, rfl⟩
  rw [h] at hw
  obtain ⟨y, hy, e⟩ := List.mem_map.mp hw
  rw [← e, Finset.mem_singleton] at hb
  exact (Proc.devRef_injective _ hb) ▸ hy

/-- Every reference a line after the region writes is in `tailW`. -/
theorem sfx_W : ∀ ops ∈ (tailOps : List (List (HloOp τ sig (Elt F)))), ∀ op ∈ ops,
    ∀ b : Ref sig .tc, Proc.devRef .tc b ∈ op.writes → b ∈ tailW := by
  intro ops hops op hop b hb
  simp only [tailOps, List.mem_cons, List.mem_nil_iff, or_false] at hops
  rcases hops with rfl | rfl | rfl | rfl | rfl | rfl
  · exact List.mem_append_left _ (mem_of_writes hostOps1_writes op hop b hb)
  · exact List.mem_append_right _ (List.mem_append_left _ (mem_of_writes hostOps1_1_writes op hop b hb))
  · exact List.mem_append_right _ (List.mem_append_right _ (List.mem_append_left _ (mem_of_writes hostOps1_2_writes op hop b hb)))
  · exact List.mem_append_right _ (List.mem_append_right _ (List.mem_append_right _ (List.mem_append_left _ (mem_of_writes hostOps1_3_writes op hop b hb))))
  · exact List.mem_append_right _ (List.mem_append_right _ (List.mem_append_right _ (List.mem_append_right _ (List.mem_append_left _ (mem_of_writes hostOps1_4_writes op hop b hb)))))
  · exact List.mem_append_right _ (List.mem_append_right _ (List.mem_append_right _ (List.mem_append_right _ (List.mem_append_right _ (mem_of_writes hostOps1_5_writes op hop b hb)))))
/-- The same of the set `T`: the frame run of relational proof data's hypothesis on what the later lines write. -/
theorem sfx_T : ∀ ops ∈ (tailOps : List (List (HloOp τ sig (Elt F)))), ∀ op ∈ ops,
    ∀ b : Ref sig .tc, Proc.devRef .tc b ∈ op.writes → b ∈ T :=
  fun ops hops op hop b hb => List.mem_toFinset.mpr (sfx_W ops hops op hop b hb)

/-- A reference outside `tailW` is not in `T`. -/
theorem not_mem_T {r : Ref sig .tc} (h : r ∉ tailW) : r ∉ T := fun hT => h (List.mem_toFinset.mp hT)

/-- A buffer outside `tailW` is written by no line after the region. -/
theorem tail_not_writes {r : Ref sig .tc} (hr : r ∉ tailW) :
    ∀ op ∈ (tailOps (F := F)).flatten, Proc.devRef .tc r ∉ op.writes := fun op hop hb => by
  obtain ⟨ops, hops, hop'⟩ := List.mem_flatten.mp hop
  exact hr (sfx_W ops hops op hop' r hb)

/-- A buffer no host operation before the region writes is found by the region as launched. -/
theorem V_of (c : Dev nD) (r : Ref sig .tc) (hr : r ∉ hostOps0_W) : V m c r = m ((c : Thread nD τ).loc r) :=
  StableHlo.after_of_forall_not_mem (b := Proc.devRef .tc r) _ _ (fun op hop hb => by
    obtain ⟨ops, hops, hop'⟩ := List.mem_flatten.mp hop
    rw [List.mem_singleton] at hops
    subst hops
    exact hr (mem_of_writes hostOps0_writes op hop' r hb))

/-- A buffer that is no array of the pipeline and that no line after the region writes ends at its contents at the
    region's entry. -/
theorem W_of (dats : (p : Fin 1) → (c : Dev nD) → Dat τ (Elt F) Unit ℕ (UR sig nD τ) ℕ (cfgs p) c) (c : Dev nD)
    (r : Ref sig .tc) (hr : r ∉ tailW) (ha : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (tail_not_writes hr),
    Pipeline.withArrays_of_ne _ c (V0 m c) _ r ha]

/-! ## The argument arrays -/

/-- No host operation before the region writes `main_arg0`: the region finds it as launched. -/
theorem V_main_arg0 (c : Dev nD) : V m c main_arg0 = m ((c : Thread nD τ).loc main_arg0) :=
  V_of m c main_arg0 (by decide)
/-- No host operation before the region writes `main_arg1`: the region finds it as launched. -/
theorem V_main_arg1 (c : Dev nD) : V m c main_arg1 = m ((c : Thread nD τ).loc main_arg1) :=
  V_of m c main_arg1 (by decide)
/-- No host operation before the region writes `main_arg2`: the region finds it as launched. -/
theorem V_main_arg2 (c : Dev nD) : V m c main_arg2 = m ((c : Thread nD τ).loc main_arg2) :=
  V_of m c main_arg2 (by decide)
/-- No host operation before the region writes `main_arg3`: the region finds it as launched. -/
theorem V_main_arg3 (c : Dev nD) : V m c main_arg3 = m ((c : Thread nD τ).loc main_arg3) :=
  V_of m c main_arg3 (by decide)
/-- No host operation before the region writes `main_arg4`: the region finds it as launched. -/
theorem V_main_arg4 (c : Dev nD) : V m c main_arg4 = m ((c : Thread nD τ).loc main_arg4) :=
  V_of m c main_arg4 (by decide)
/-- No host operation before the region writes `main_arg5`: the region finds it as launched. -/
theorem V_main_arg5 (c : Dev nD) : V m c main_arg5 = m ((c : Thread nD τ).loc main_arg5) :=
  V_of m c main_arg5 (by decide)
/-- No host operation before the region writes `main_arg6`: the region finds it as launched. -/
theorem V_main_arg6 (c : Dev nD) : V m c main_arg6 = m ((c : Thread nD τ).loc main_arg6) :=
  V_of m c main_arg6 (by decide)
/-- No host operation before the region writes `main_arg7`: the region finds it as launched. -/
theorem V_main_arg7 (c : Dev nD) : V m c main_arg7 = m ((c : Thread nD τ).loc main_arg7) :=
  V_of m c main_arg7 (by decide)
/-- No host operation before the region writes `main_arg8`: the region finds it as launched. -/
theorem V_main_arg8 (c : Dev nD) : V m c main_arg8 = m ((c : Thread nD τ).loc main_arg8) :=
  V_of m c main_arg8 (by decide)

/-- No host operation after the region writes `main_arg0`, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  (W_of m dats c main_arg0 (by decide) (by exact (by decide : ∀ w, Pipeline.arrRef spec0 w ≠ main_arg0))).trans (V_main_arg0 m c)
/-- No host operation after the region writes `main_arg1`, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (W_of m dats c main_arg1 (by decide) (by exact (by decide : ∀ w, Pipeline.arrRef spec0 w ≠ main_arg1))).trans (V_main_arg1 m c)
/-- No host operation after the region writes `main_arg2`, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_of m dats c main_arg2 (by decide) (by exact (by decide : ∀ w, Pipeline.arrRef spec0 w ≠ main_arg2))).trans (V_main_arg2 m c)
/-- No host operation after the region writes `main_arg3`, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_of m dats c main_arg3 (by decide) (by exact (by decide : ∀ w, Pipeline.arrRef spec0 w ≠ main_arg3))).trans (V_main_arg3 m c)
/-- No host operation after the region writes `main_arg4`, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_of m dats c main_arg4 (by decide) (by exact (by decide : ∀ w, Pipeline.arrRef spec0 w ≠ main_arg4))).trans (V_main_arg4 m c)
/-- No host operation after the region writes `main_arg5`, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_of m dats c main_arg5 (by decide) (by exact (by decide : ∀ w, Pipeline.arrRef spec0 w ≠ main_arg5))).trans (V_main_arg5 m c)
/-- No host operation after the region writes `main_arg6`, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_of m dats c main_arg6 (by decide) (by exact (by decide : ∀ w, Pipeline.arrRef spec0 w ≠ main_arg6))).trans (V_main_arg6 m c)
/-- No host operation after the region writes `main_arg8`, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_of m dats c main_arg8 (by decide) (by exact (by decide : ∀ w, Pipeline.arrRef spec0 w ≠ main_arg8))).trans (V_main_arg8 m c)

/-! ## The frame claim's post from the frame run's -/

/-- THE FRAME from a frame run of exact proof data: for any proof data whose arrays are the region-entry contents
    (`hA`), a run to Lib/Pipeline/Frame.lean's `FramePost` read at the argument arrays — `main_arg7`, window 7's
    array, a staged input, by the post's first clause and `Dat.arrAt_in`; every other one, which no window stages, by
    the post's second clause, then `W_…` — is the frame claim's post (Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c)⟩) h

/-- THE FRAME from a frame run of relational proof data (`RDat.θ_run_frame_around_T`'s conclusion, at the set `T` of the
    buffers the later lines write): `main_arg7`, an input window's array, holds its entry contents (`RDat.ArrAt_in`);
    every other argument array is unscoped, no window's array and outside `T`, so it holds its region-entry contents. -/
theorem frame_ofR (rdat : (c : Dev nD) → RDat τ (Elt F) Unit ℕ (UR sig nD τ) ℕ cfg0 c)
    (hA : ∀ c w, (rdat c).A w = V m c (Pipeline.arrRef spec0 w))
    (h : θ_run defs (onTc (τ := τ) (main (F := F))) (s₀ m ρ) (RDat.FramePostR cfg0 rdat T (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), not_mem_T (by decide)⟩)).trans (V_main_arg0 m c),
      ((h c).2 main_arg1 (Finset.mem_sdiff.mpr ⟨Pipeline.mem_restRefs_of main_arg1 (by decide) (by decide), not_mem_T (by decide)⟩)).trans (V_main_arg1 m c),
      ((h c).2 main_arg2 (Finset.mem_sdiff.mpr ⟨Pipeline.mem_restRefs_of main_arg2 (by decide) (by decide), not_mem_T (by decide)⟩)).trans (V_main_arg2 m c),
      ((h c).2 main_arg3 (Finset.mem_sdiff.mpr ⟨Pipeline.mem_restRefs_of main_arg3 (by decide) (by decide), not_mem_T (by decide)⟩)).trans (V_main_arg3 m c),
      ((h c).2 main_arg4 (Finset.mem_sdiff.mpr ⟨Pipeline.mem_restRefs_of main_arg4 (by decide) (by decide), not_mem_T (by decide)⟩)).trans (V_main_arg4 m c),
      ((h c).2 main_arg5 (Finset.mem_sdiff.mpr ⟨Pipeline.mem_restRefs_of main_arg5 (by decide) (by decide), not_mem_T (by decide)⟩)).trans (V_main_arg5 m c),
      ((h c).2 main_arg6 (Finset.mem_sdiff.mpr ⟨Pipeline.mem_restRefs_of main_arg6 (by decide) (by decide), not_mem_T (by decide)⟩)).trans (V_main_arg6 m c),
      (Eq.mp (congrFun ((rdat c).ArrAt_in 7 rfl _) _) ((h c).1 7)).trans ((hA c 7).trans (V_main_arg7 m c)),
      ((h c).2 main_arg8 (Finset.mem_sdiff.mpr ⟨Pipeline.mem_restRefs_of main_arg8 (by decide) (by decide), not_mem_T (by decide)⟩)).trans (V_main_arg8 m c)⟩) h

end Cert.KernelIdeal.Around

end
-- ==== Proof.RunIdeal.lean ====
/-
  The run of the idealized kernel program: from any memory with zero counters every weakly fair execution of @main
  terminates without a fault; the pipeline's arrays end at what the proof data compute (the output array: every block
  written back at its grid point), every other buffer as the host operations after the region leave it; and the nine
  argument arrays end as launched.
-/
import proofs.«165509_j29300266893702_2_alg».proof.Proof.OblIdeal
import proofs.«165509_j29300266893702_2_alg».proof.Proof.AroundIdeal

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The frame run, with the arrays' final contents. -/
theorem run_main (hloc : Local) : θ_run defs (onTc (τ := τ) (main (F := Ideal))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the nine argument arrays end as launched. -/
theorem frame (hloc : Local) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ hloc)

end Cert.KernelIdeal.Run

end
-- ==== Proof.GateSpec.lean ====
/-
  The mathematics of one row of the gate, on the extended reals: the edge logit of a two-layer perceptron applied to a
  pair of 64-dimensional embeddings, and the Gumbel-sigmoid gate with its relaxed Bernoulli sample that follows it.
  No program is mentioned here: the functions below take a row's entries and give the row's result.
-/
import Idealize.ShloMosaic.PureOps.Ideal
import Idealize.ShloMosaic.PureOps.Ideal.Laws

noncomputable section

namespace Cert.GateSpec

open Idealize.ShloMosaic
open scoped BigOperators

/-! ## The edge logit

One row of the two-layer perceptron. The row of the first layer's input is the pair of embeddings
`es`, `ed` (64 entries each); the first layer's weight is given as its two 64×64 halves, already
transposed (`w1a k j`, `w1b k j`: input coordinate `k`, hidden unit `j`), with bias `b1`; the hidden
unit is rectified (`max · 0`); the second layer is the column `w2` with the scalar bias `b2`. -/

/-- The logit of one edge: `relu(es·w1a + ed·w1b + b1) · w2 + b2`, with the sums associated as
    written (first half, second half, bias). -/
def logit (es ed : Fin 64 → EReal) (w1a w1b : Fin 64 → Fin 64 → EReal) (b1 : Fin 64 → EReal)
    (w2 : Fin 64 → EReal) (b2 : EReal) : EReal :=
  (∑ j : Fin 64, max ((∑ k : Fin 64, es k * w1a k j) + (∑ k : Fin 64, ed k * w1b k j) + b1 j) 0 * w2 j) + b2

/-! ## The gate

Everything after the logit is a function of three extended reals: the logit `lg`, the uniform
sample `eu` behind the logistic noise, and the uniform sample `ru` behind the relaxed Bernoulli
draw. The binary32 literals stay as the words they are; `0 − x` is how a negation is spelt. -/

/-- The noise variable: the uniform sample `eu` moved affinely into `(bias, 1 − bias)`. -/
def eps (eu : EReal) : EReal :=
  Ideal.ofBits .f32 0xBF7FF2E5#32 * eu + Ideal.ofBits .f32 0x3F7FF972#32

/-- The log-odds `log p − log1p(0 − p)` of a probability `p`. -/
def logOdds (p : EReal) : EReal :=
  Ideal.log p - Ideal.log1p (Ideal.ofBits .f32 0x00000000#32 - p)

/-- The edge weight: the logistic function of the noise's log-odds plus the logit. -/
def weight (lg eu : EReal) : EReal :=
  Ideal.logistic (logOdds (eps eu) + lg)

/-- The edge weight clipped to `[0.01, 0.99]` (as binary32 words). -/
def att (lg eu : EReal) : EReal :=
  min (Ideal.ofBits .f32 0x3F7D70A4#32) (max (Ideal.ofBits .f32 0x3C23D70A#32) (weight lg eu))

/-- The Bernoulli draw's uniform sample clipped to `[1e-7, 1 − 1e-7]` (as binary32 words). -/
def unif (ru : EReal) : EReal :=
  min (Ideal.ofBits .f32 0x3F7FFFFE#32) (max (Ideal.ofBits .f32 0x33D6BF95#32) ru)

/-- The relaxed Bernoulli sample at temperature `0.9`: the logistic function of
    `(logOdds att + log u − log1p(0 − u)) / 0.9`, associated as written. -/
def sample (lg eu ru : EReal) : EReal :=
  Ideal.logistic (Ideal.div
    (logOdds (att lg eu) + Ideal.log (unif ru) - Ideal.log1p (Ideal.ofBits .f32 0x00000000#32 - unif ru))
    (Ideal.ofBits .f32 0x3F666666#32))

/-- The indicator of `s > 0` as a choice between the words of `1` and `0`. -/
def mask (s : EReal) : EReal :=
  Scalar.select (Ideal.cmp .ogt s (Ideal.ofBits .f32 0x00000000#32))
    (Ideal.ofBits .f32 0x3F800000#32) (Ideal.ofBits .f32 0x00000000#32)

/-- The stored value as a function of the logit and the two uniform samples: the sample times its
    positivity indicator. -/
def gateTail (lg eu ru : EReal) : EReal :=
  sample lg eu ru * mask (sample lg eu ru)

/-- One row of the result: the gate applied to the row's logit and the row's two uniform samples. -/
def rowfn (es ed : Fin 64 → EReal) (w1a w1b : Fin 64 → Fin 64 → EReal) (b1 : Fin 64 → EReal)
    (w2 : Fin 64 → EReal) (b2 eu ru : EReal) : EReal :=
  gateTail (logit es ed w1a w1b b1 w2 b2) eu ru

/-- The indicator is the one-bit comparison converted to a float (`1` for a set bit, `0` for a clear one). -/
theorem mask_eq_uitofp (s : EReal) :
    mask s = FloatOps.uitofp (F := Ideal) .f32 (FloatOps.cmpf (F := Ideal) (φ := .f32) .ogt s (Ideal.ofBits .f32 0x00000000#32)) := by
  unfold mask
  show Scalar.select (Ideal.cmp .ogt s (Ideal.ofBits .f32 0x00000000#32)) _ _
    = (((Ideal.cmp .ogt s (Ideal.ofBits .f32 0x00000000#32)).toNat : ℝ) : EReal)
  have h1 : Ideal.ofBits .f32 0x3F800000#32 = 1 := IdealRules.sign_bit.ideal_onePat .f32
  rcases BitVec.eq_zero_or_eq_one (Ideal.cmp .ogt s (Ideal.ofBits .f32 0x00000000#32)) with h | h
  · rw [h, Ideal.ofBits_zero_f32]; simp [Scalar.select]
  · rw [h, h1]; simp [Scalar.select]

/-- A subtraction from the zero word is a negation. -/
theorem zero_word_sub (x : EReal) : Ideal.ofBits .f32 0x00000000#32 - x = -x := by
  rw [Ideal.ofBits_zero_f32, zero_sub]

/-- A sum over 128 coordinates is the sum over the first 64 plus the sum over the last 64. -/
theorem sum_split (f : Fin 128 → EReal) :
    ∑ k : Fin 128, f k = (∑ k : Fin 64, f ⟨k.val, by omega⟩) + ∑ k : Fin 64, f ⟨64 + k.val, by omega⟩ := by
  have h := Fin.sum_univ_add (M := EReal) (a := 64) (b := 64) f
  exact h

/-! ## The same row as a host program spells it

A host program writes the logistic function as `1 / (1 + exp(−x))` with the word of `1`, a negation as a negation,
the indicator as the comparison's bit converted to a float, and contracts the concatenated row `[es | ed]` (128
entries) against the whole transposed first-layer weight (128 × 64). The functions below follow that spelling; each is
equal to its counterpart above. -/

/-- `1 / (1 + exp(−x))` over the word of `1`. -/
def hostSigmoid (x : EReal) : EReal :=
  Ideal.div (Ideal.ofBits .f32 0x3F800000#32) (Ideal.ofBits .f32 0x3F800000#32 + Ideal.exp (-x))

theorem hostSigmoid_eq (x : EReal) : hostSigmoid x = Ideal.logistic x := by
  have h1 : Ideal.ofBits .f32 0x3F800000#32 = 1 := IdealRules.sign_bit.ideal_onePat .f32
  unfold hostSigmoid
  rw [h1]
  rfl

/-- The log-odds with the negation spelt as a negation. -/
def hostLogOdds (p : EReal) : EReal := Ideal.log p - Ideal.log1p (-p)

theorem hostLogOdds_eq (p : EReal) : hostLogOdds p = logOdds p := by
  unfold hostLogOdds logOdds
  rw [zero_word_sub]

/-- The clipped edge weight, host spelling. -/
def hostAtt (lg eu : EReal) : EReal :=
  min (Ideal.ofBits .f32 0x3F7D70A4#32) (max (Ideal.ofBits .f32 0x3C23D70A#32) (hostSigmoid (hostLogOdds (eps eu) + lg)))

theorem hostAtt_eq (lg eu : EReal) : hostAtt lg eu = att lg eu := by
  unfold hostAtt att weight
  rw [hostSigmoid_eq, hostLogOdds_eq]

/-- The relaxed Bernoulli sample, host spelling. -/
def hostSample (lg eu ru : EReal) : EReal :=
  hostSigmoid (Ideal.div
    (hostLogOdds (hostAtt lg eu) + Ideal.log (unif ru) - Ideal.log1p (-(unif ru)))
    (Ideal.ofBits .f32 0x3F666666#32))

theorem hostSample_eq (lg eu ru : EReal) : hostSample lg eu ru = sample lg eu ru := by
  unfold hostSample sample
  rw [hostSigmoid_eq, hostLogOdds_eq, hostAtt_eq, zero_word_sub]

/-- The indicator of `s > 0` as the comparison's bit converted to a float. -/
def hostMask (s : EReal) : EReal :=
  FloatOps.uitofp (F := Ideal) .f32 (FloatOps.cmpf (F := Ideal) (φ := .f32) .ogt s (Ideal.ofBits .f32 0x00000000#32))

theorem hostMask_eq (s : EReal) : hostMask s = mask s := (mask_eq_uitofp s).symm

/-- The gate, host spelling. -/
def hostTail (lg eu ru : EReal) : EReal :=
  hostSample lg eu ru * hostMask (hostSample lg eu ru)

theorem hostTail_eq (lg eu ru : EReal) : hostTail lg eu ru = gateTail lg eu ru := by
  unfold hostTail gateTail
  rw [hostMask_eq, hostSample_eq]

/-- The logit over the concatenated row `cat = [es | ed]` and the whole transposed weight `w1t` (128 × 64), with the
    rectifier against the zero word. -/
def hostLogit (cat : Fin 128 → EReal) (w1t : Fin 128 → Fin 64 → EReal) (b1 w2 : Fin 64 → EReal) (b2 : EReal) : EReal :=
  (∑ j : Fin 64, max ((∑ c : Fin 128, cat c * w1t c j) + b1 j) (Ideal.ofBits .f32 0x00000000#32) * w2 j) + b2

/-- The contraction over 128 columns splits into the two halves' contractions. -/
theorem hostLogit_eq (cat : Fin 128 → EReal) (w1t : Fin 128 → Fin 64 → EReal) (b1 w2 : Fin 64 → EReal) (b2 : EReal) :
    hostLogit cat w1t b1 w2 b2
      = logit (fun k => cat ⟨k.val, by omega⟩) (fun k => cat ⟨64 + k.val, by omega⟩)
          (fun k j => w1t ⟨k.val, by omega⟩ j) (fun k j => w1t ⟨64 + k.val, by omega⟩ j) b1 w2 b2 := by
  unfold hostLogit logit
  rw [Ideal.ofBits_zero_f32]
  refine congrArg (· + b2) (Finset.sum_congr rfl fun j _ => ?_)
  rw [sum_split (fun c => cat c * w1t c j)]

/-- One row, host spelling. -/
def hostRow (cat : Fin 128 → EReal) (w1t : Fin 128 → Fin 64 → EReal) (b1 w2 : Fin 64 → EReal) (b2 eu ru : EReal) : EReal :=
  hostTail (hostLogit cat w1t b1 w2 b2) eu ru

/-- THE LAW BETWEEN THE TWO SPELLINGS: the host's row over the concatenated embeddings is the row function of the two
    halves. No finiteness is needed: only the splitting of a finite sum, `0 − x = −x`, and the words of `0` and `1`. -/
theorem hostRow_eq (cat : Fin 128 → EReal) (w1t : Fin 128 → Fin 64 → EReal) (b1 w2 : Fin 64 → EReal) (b2 eu ru : EReal) :
    hostRow cat w1t b1 w2 b2 eu ru
      = rowfn (fun k => cat ⟨k.val, by omega⟩) (fun k => cat ⟨64 + k.val, by omega⟩)
          (fun k j => w1t ⟨k.val, by omega⟩ j) (fun k j => w1t ⟨64 + k.val, by omega⟩ j) b1 w2 b2 eu ru := by
  unfold hostRow rowfn
  rw [hostTail_eq, hostLogit_eq]

end Cert.GateSpec

end
-- ==== Proof.PayIdeal.lean ====
/-
  The body's arithmetic read row by row, at the extended reals. The body computes, for a block of 4096 edges, the logit
  of each edge (two 64×64 products into zero accumulators, a bias row, a rectifier, a 64×1 product into a zero
  accumulator, a scalar bias) and then the gate (pointwise in the logit and in two columns of uniform samples). Every
  operation after the products is pointwise and each product contracts along the row, so row p of the result depends
  only on row p of the two embedding blocks and of the two sample columns: stored_apply says so, with the row's value
  named by Cert.GateSpec.rowfn.
-/
import proofs.«165509_j29300266893702_2_alg».proof.Proof.GateSpec
import Idealize.ShloMosaic.Lib.ValueIdx
import Idealize.ShloMosaic.Lib.ValueLayout
import Idealize.ShloMosaic.Lib.Pipeline.Value
import proofs.«165509_j29300266893702_2_alg».proof.Proof.Gen.KernelIdeal.Skeleton

noncomputable section

namespace Cert.KernelIdeal.PayIdeal

open Idealize.ShloMosaic Idealize.ShloMosaic.ValueIdx
open Cert.KernelIdeal Cert.KernelIdeal.Gen
open scoped BigOperators

/-! ## The two contractions read at an index -/

/-- The first layer's product into the zero accumulator: entry `(p, j)` is the sum over the
    contracted coordinate `k` of `lhs (p, k) * rhs (k, j)`. -/
theorem matmul_hidden_apply {φ₁ φ₂ : FTy} (lhs : FVec Ideal S4096x64 φ₁) (rhs : FVec Ideal S64x64 φ₂)
    (p : Fin 4096) (j : Fin 64) :
    matmul dot_S4096x64_S64x64_S4096x64_1_0_0_1_n_n none lhs rhs (constant (F := Ideal) S4096x64 .f32 0x00000000#32) (ix2 p j)
      = ∑ k : Fin 64, lhs (ix2 p k) * rhs (ix2 k j) := by
  show FloatOps.matmul _ none lhs rhs (constant (F := Ideal) S4096x64 .f32 0x00000000#32) (ix2 p j) = _
  rw [Ideal.matmul_constant_zero_apply,
    ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 p j)
      ((contrEquiv1 dot_S4096x64_S64x64_S4096x64_1_0_0_1_n_n 64 rfl rfl).symm c) = ix2 p c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 p j)
      ((contrEquiv1 dot_S4096x64_S64x64_S4096x64_1_0_0_1_n_n 64 rfl rfl).symm c) = ix2 c j := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- The second layer's product into the zero accumulator: entry `(p, 0)` is the sum over the
    contracted coordinate `k` of `lhs (p, k) * rhs (k, 0)`. -/
theorem matmul_out_apply {φ₁ φ₂ : FTy} (lhs : FVec Ideal S4096x64 φ₁) (rhs : FVec Ideal S64x1 φ₂)
    (p : Fin 4096) (q : Fin 1) :
    matmul dot_S4096x64_S64x1_S4096x1_1_0_0_1_n_n none lhs rhs (constant (F := Ideal) S4096x1 .f32 0x00000000#32) (ix2 p q)
      = ∑ k : Fin 64, lhs (ix2 p k) * rhs (ix2 k q) := by
  show FloatOps.matmul _ none lhs rhs (constant (F := Ideal) S4096x1 .f32 0x00000000#32) (ix2 p q) = _
  rw [Ideal.matmul_constant_zero_apply,
    ← Equiv.sum_comp (contrEquiv1 dot_S4096x64_S64x1_S4096x1_1_0_0_1_n_n 64 rfl rfl).symm]
  refine Finset.sum_congr rfl fun c _ => ?_
  have c2 := contrEquiv1_symm_val dot_S4096x64_S64x1_S4096x1_1_0_0_1_n_n 64 rfl rfl c
  have l2 : dot_S4096x64_S64x1_S4096x1_1_0_0_1_n_n.lhsIdx (ix2 p q)
      ((contrEquiv1 dot_S4096x64_S64x1_S4096x1_1_0_0_1_n_n 64 rfl rfl).symm c) = ix2 p c := by
    funext ax; apply Fin.ext
    match ax with
    | ⟨0, _⟩ => simp [DotDims.lhsIdx, dot_S4096x64_S64x1_S4096x1_1_0_0_1_n_n]; rfl
    | ⟨1, _⟩ => simp [DotDims.lhsIdx, dot_S4096x64_S64x1_S4096x1_1_0_0_1_n_n]; exact c2
  have r2 : dot_S4096x64_S64x1_S4096x1_1_0_0_1_n_n.rhsIdx (ix2 p q)
      ((contrEquiv1 dot_S4096x64_S64x1_S4096x1_1_0_0_1_n_n 64 rfl rfl).symm c) = ix2 c q := by
    funext ax; apply Fin.ext
    match ax with
    | ⟨0, _⟩ => simp [DotDims.rhsIdx, dot_S4096x64_S64x1_S4096x1_1_0_0_1_n_n]; exact c2
    | ⟨1, _⟩ => simp [DotDims.rhsIdx, dot_S4096x64_S64x1_S4096x1_1_0_0_1_n_n] <;> rfl
  rw [l2, r2]

/-! ## The payloads read at a row -/

/-- The noise variable at an index is `eps` of the uniform sample there. -/
theorem pay3_apply (x7 : Vec Ideal S4096x1 .f32) (i : S4096x1.Idx) :
    k0_pay3 (F := Ideal) x7 i = Cert.GateSpec.eps (x7 i) := rfl

/-- Its logarithm likewise. -/
theorem pay4_apply (x7 : Vec Ideal S4096x1 .f32) (i : S4096x1.Idx) :
    k0_pay4 (F := Ideal) x7 i = Ideal.log (Cert.GateSpec.eps (x7 i)) := rfl

/-- The gate's payload at an index, as a function of the three vectors it reads there and of the uniform sample there. -/
theorem pay1_apply (v29 v34 v35 : FVec Ideal S4096x1 .f32) (v46 : Vec Ideal S4096x1 .f32) (i : S4096x1.Idx) :
    k0_pay1 (F := Ideal) v29 v34 v35 (Scalar.ofBits .f32 0x00000000#32) v46 i
      = (fun s : EReal => s * Cert.GateSpec.mask s)
          (Ideal.logistic (Ideal.div
            ((fun a : EReal => Cert.GateSpec.logOdds a + Ideal.log (Cert.GateSpec.unif (v46 i))
                - Ideal.log1p (Ideal.ofBits .f32 0x00000000#32 - Cert.GateSpec.unif (v46 i)))
              (min (Ideal.ofBits .f32 0x3F7D70A4#32) (max (Ideal.ofBits .f32 0x3C23D70A#32)
                (Ideal.logistic (v35 i - Ideal.log1p (Ideal.ofBits .f32 0x00000000#32 - v34 i) + v29 i)))))
            (Ideal.ofBits .f32 0x3F666666#32))) := by
  have h : shapeCast S4096x1 v46 shapeCasts_S4096x1_S4096x1 = v46 := shapeCast_self v46 _
  unfold k0_pay1
  simp only [h]
  rfl

/-- The gate's payload at an index where the vectors it reads are the logit, the noise variable, its logarithm and the
    uniform sample: the gate of those. -/
theorem pay1_apply_of (v29 v34 v35 : FVec Ideal S4096x1 .f32) (v46 : Vec Ideal S4096x1 .f32) (i : S4096x1.Idx)
    (lg eu ru : EReal) (h29 : v29 i = lg) (h34 : v34 i = Cert.GateSpec.eps eu)
    (h35 : v35 i = Ideal.log (Cert.GateSpec.eps eu)) (h46 : v46 i = ru) :
    k0_pay1 (F := Ideal) v29 v34 v35 (Scalar.ofBits .f32 0x00000000#32) v46 i = Cert.GateSpec.gateTail lg eu ru := by
  rw [pay1_apply, h29, h34, h35, h46]
  rfl

/-- The logit's payload at row `p`: the logit of that row of the two embedding blocks. -/
theorem pay2_apply (x0 x1 : Vec Ideal S4096x64 .f32) (x2 x3 : Vec Ideal S64x64 .f32) (x4 : Vec Ideal S1x64 .f32)
    (x5 : Vec Ideal S64x1 .f32) (x6 : Vec Ideal S1x1 .f32) (p : Fin 4096) :
    k0_pay2 (F := Ideal) x0 x1 x2 x3 x4 x5 x6 (ix2 p (0 : Fin 1))
      = Cert.GateSpec.logit (fun k => x0 (ix2 p k)) (fun k => x1 (ix2 p k)) (fun k j => x2 (ix2 k j))
          (fun k j => x3 (ix2 k j)) (fun j => x4 (ix2 (0 : Fin 1) j)) (fun j => x5 (ix2 j (0 : Fin 1)))
          (x6 (ix2 (0 : Fin 1) (0 : Fin 1))) := by
  unfold k0_pay2
  simp only [shapeCast_self]
  show matmul dot_S4096x64_S64x1_S4096x1_1_0_0_1_n_n none _ _ (constant (F := Ideal) S4096x1 .f32 0x00000000#32) (ix2 p (0 : Fin 1))
      + broadcastTo S4096x1 x6 broadcasts_S1x1_S4096x1 (ix2 p (0 : Fin 1)) = _
  rw [matmul_out_apply, broadcastTo_1b_ab_apply]
  unfold Cert.GateSpec.logit
  refine congrArg (· + x6 (ix2 (0 : Fin 1) (0 : Fin 1))) (Finset.sum_congr rfl fun j _ => ?_)
  show max (matmul dot_S4096x64_S64x64_S4096x64_1_0_0_1_n_n none _ _ (constant (F := Ideal) S4096x64 .f32 0x00000000#32) (ix2 p j)
        + matmul dot_S4096x64_S64x64_S4096x64_1_0_0_1_n_n none _ _ (constant (F := Ideal) S4096x64 .f32 0x00000000#32) (ix2 p j)
        + broadcastTo S4096x64 x4 broadcasts_S1x64_S4096x64 (ix2 p j)) (Ideal.ofBits .f32 0x00000000#32)
      * x5 (ix2 j (0 : Fin 1)) = _
  rw [matmul_hidden_apply, matmul_hidden_apply, broadcastTo_1b_ab_apply, Ideal.ofBits_zero_f32]
  rfl

/-- ROW `p` OF THE STORED VALUE is the row function of row `p` of the two embedding blocks and of the two blocks of
    uniform samples (and of the weights, which every row shares). -/
theorem stored_apply (x0 x1 : Vec Ideal S4096x64 .f32) (x2 x3 : Vec Ideal S64x64 .f32) (x4 : Vec Ideal S1x64 .f32)
    (x5 : Vec Ideal S64x1 .f32) (x6 : Vec Ideal S1x1 .f32) (x7 x8 : Vec Ideal S4096x1 .f32) (p : Fin 4096) :
    k0_pay1 (F := Ideal) (k0_pay2 x0 x1 x2 x3 x4 x5 x6) (k0_pay3 x7) (k0_pay4 x7) (Scalar.ofBits .f32 0x00000000#32) x8
        (ix2 p (0 : Fin 1))
      = Cert.GateSpec.rowfn (fun k => x0 (ix2 p k)) (fun k => x1 (ix2 p k)) (fun k j => x2 (ix2 k j))
          (fun k j => x3 (ix2 k j)) (fun j => x4 (ix2 (0 : Fin 1) j)) (fun j => x5 (ix2 j (0 : Fin 1)))
          (x6 (ix2 (0 : Fin 1) (0 : Fin 1))) (x7 (ix2 p (0 : Fin 1))) (x8 (ix2 p (0 : Fin 1))) :=
  pay1_apply_of _ _ _ x8 (ix2 p (0 : Fin 1)) _ _ _ (pay2_apply x0 x1 x2 x3 x4 x5 x6 p) (pay3_apply x7 _) (pay4_apply x7 _) rfl

/-- The same at an arbitrary index of the block whose row coordinate is `p` (its column coordinate can only be `0`). -/
theorem stored_apply_idx (x0 x1 : Vec Ideal S4096x64 .f32) (x2 x3 : Vec Ideal S64x64 .f32) (x4 : Vec Ideal S1x64 .f32)
    (x5 : Vec Ideal S64x1 .f32) (x6 : Vec Ideal S1x1 .f32) (x7 x8 : Vec Ideal S4096x1 .f32) (i : S4096x1.Idx)
    (p : Fin 4096) (hp : (i 0).val = p.val) :
    k0_pay1 (F := Ideal) (k0_pay2 x0 x1 x2 x3 x4 x5 x6) (k0_pay3 x7) (k0_pay4 x7) (Scalar.ofBits .f32 0x00000000#32) x8 i
      = Cert.GateSpec.rowfn (fun k => x0 (ix2 p k)) (fun k => x1 (ix2 p k)) (fun k j => x2 (ix2 k j))
          (fun k j => x3 (ix2 k j)) (fun j => x4 (ix2 (0 : Fin 1) j)) (fun j => x5 (ix2 j (0 : Fin 1)))
          (x6 (ix2 (0 : Fin 1) (0 : Fin 1))) (x7 (ix2 p (0 : Fin 1))) (x8 (ix2 p (0 : Fin 1))) := by
  have hi : i = ix2 p (0 : Fin 1) := by
    funext a
    match a with
    | ⟨0, _⟩ => exact Fin.ext hp
    | ⟨1, _⟩ => exact Fin.ext (by have := idx2_lt1 i; show (i 1).val = 0; omega)
  rw [hi]
  exact stored_apply x0 x1 x2 x3 x4 x5 x6 x7 x8 p

end Cert.KernelIdeal.PayIdeal

end
-- ==== Proof.FinalIdeal.lean ====
/-
  From the blocks to the array. A row of the stored column depends only on that row of the row-blocked inputs, so
  columns computed from inputs that agree on the rows inside the array agree there; and what each grid point writes
  back is its block of ONE function of the arrays as the region finds them: row r of the result is the row function of
  row r of the two embedding arrays and of the two sample columns. The 245 blocks of 4096 rows (the last cut to 576)
  cover the million rows, so the array ends holding that function.
-/
import proofs.«165509_j29300266893702_2_alg».proof.Proof.OblIdeal
import proofs.«165509_j29300266893702_2_alg».proof.Proof.PayIdeal
import Idealize.ShloMosaic.Lib.Pipeline.Value

set_option maxRecDepth 16384

noncomputable section

namespace Cert.KernelIdeal.Run

open Cert.KernelIdeal Cert.KernelIdeal.Gen Cert.KernelIdeal.Around Cert.KernelIdeal.Body Cert.KernelIdeal.PayIdeal
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The stored column, without the whole-rectangle reads -/

theorem hz : (![0, 0] : Fin 2 → Nat) = fun _ => 0 := funext fun a => by fin_cases a <;> rfl

/-- The output buffer after the body is the stored column of the nine buffers' contents. -/
theorem out9_eq (x0 x1 : Vec Ideal S4096x64 .f32) (x2 x3 : Vec Ideal S64x64 .f32) (x4 : Vec Ideal S1x64 .f32)
    (x5 : Vec Ideal S64x1 .f32) (x6 : Vec Ideal S1x1 .f32) (x7 x8 : Vec Ideal S4096x1 .f32) :
    out9 x0 x1 x2 x3 x4 x5 x6 x7 x8
      = k0_pay1 (F := Ideal) (k0_pay2 x0 x1 x2 x3 x4 x5 x6) (k0_pay3 x7) (k0_pay4 x7) (Scalar.ofBits .f32 0x00000000#32) x8 := by
  unfold out9 stored
  rw [View.canon_unit_zero hz]
  simp only [View.ld_unit_zero (S := S4096x64) hz, View.ld_unit_zero (S := S64x64) hz, View.ld_unit_zero (S := S1x64) hz,
    View.ld_unit_zero (S := S64x1) hz, View.ld_unit_zero (S := S1x1) hz, View.ld_unit_zero (S := S4096x1) hz]

/-! ## Row-locality -/

/-- Blocks of 64 columns that agree on the rows a transfer moves agree at every entry of such a row. -/
theorem rows_of_cut0 (i : grid0.Coords) (x y : Vec Ideal S4096x64 .f32) (h : win0_0.cut i x = win0_0.cut i y)
    (p : Fin 4096) (hp : p.val < win0_0.xsize i 0) (k : Fin 64) : x (ix2 p k) = y (ix2 p k) := by
  let j' : (win0_0.xblock i).Idx := fun a => match a with
    | ⟨0, _⟩ => ⟨p.val, hp⟩
    | ⟨1, _⟩ => ⟨k.val, k.isLt⟩
  have e : win0_0.xinj i j' = ix2 p k := by
    funext a; match a with | ⟨0, _⟩ => rfl | ⟨1, _⟩ => rfl
  rw [← e]; exact congrFun h j'

theorem rows_of_cut1 (i : grid0.Coords) (x y : Vec Ideal S4096x64 .f32) (h : win0_1.cut i x = win0_1.cut i y)
    (p : Fin 4096) (hp : p.val < win0_1.xsize i 0) (k : Fin 64) : x (ix2 p k) = y (ix2 p k) := by
  let j' : (win0_1.xblock i).Idx := fun a => match a with
    | ⟨0, _⟩ => ⟨p.val, hp⟩
    | ⟨1, _⟩ => ⟨k.val, k.isLt⟩
  have e : win0_1.xinj i j' = ix2 p k := by
    funext a; match a with | ⟨0, _⟩ => rfl | ⟨1, _⟩ => rfl
  rw [← e]; exact congrFun h j'

theorem rows_of_cut7 (i : grid0.Coords) (x y : Vec Ideal S4096x1 .f32) (h : win0_7.cut i x = win0_7.cut i y)
    (p : Fin 4096) (hp : p.val < win0_7.xsize i 0) : x (ix2 p (0 : Fin 1)) = y (ix2 p (0 : Fin 1)) := by
  let j' : (win0_7.xblock i).Idx := fun a => match a with
    | ⟨0, _⟩ => ⟨p.val, hp⟩
    | ⟨1, _⟩ => ⟨0, Nat.one_pos⟩
  have e : win0_7.xinj i j' = ix2 p (0 : Fin 1) := by
    funext a; match a with | ⟨0, _⟩ => rfl | ⟨1, _⟩ => rfl
  rw [← e]; exact congrFun h j'

theorem rows_of_cut8 (i : grid0.Coords) (x y : Vec Ideal S4096x1 .f32) (h : win0_8.cut i x = win0_8.cut i y)
    (p : Fin 4096) (hp : p.val < win0_8.xsize i 0) : x (ix2 p (0 : Fin 1)) = y (ix2 p (0 : Fin 1)) := by
  let j' : (win0_8.xblock i).Idx := fun a => match a with
    | ⟨0, _⟩ => ⟨p.val, hp⟩
    | ⟨1, _⟩ => ⟨0, Nat.one_pos⟩
  have e : win0_8.xinj i j' = ix2 p (0 : Fin 1) := by
    funext a; match a with | ⟨0, _⟩ => rfl | ⟨1, _⟩ => rfl
  rw [← e]; exact congrFun h j'

/-- ROW-LOCALITY of the stored column: a row of it is the row function of that row of the row-blocked inputs, and the
    five row-blocked windows are cut alike, so inputs agreeing on the rows inside the array give columns agreeing there. -/
theorem local_holds : Local := by
  intro t x0 y0 x1 y1 x2 x3 x4 x5 x6 x7 y7 x8 y8 h0 h1 h7 h8
  funext j
  have hj : (j 0).val < win0_9.xsize (grid0.coords t) 0 := (j 0).isLt
  have hj4096 : (j 0).val < 4096 := lt_of_lt_of_le hj (win0_9.xsize_le _ 0)
  show out9 x0 x1 x2 x3 x4 x5 x6 x7 x8 (win0_9.xinj (grid0.coords t) j)
    = out9 y0 y1 x2 x3 x4 x5 x6 y7 y8 (win0_9.xinj (grid0.coords t) j)
  rw [out9_eq, out9_eq,
    stored_apply_idx x0 x1 x2 x3 x4 x5 x6 x7 x8 _ ⟨(j 0).val, hj4096⟩ rfl,
    stored_apply_idx y0 y1 x2 x3 x4 x5 x6 y7 y8 _ ⟨(j 0).val, hj4096⟩ rfl]
  have e0 : (fun k => x0 (ix2 (⟨(j 0).val, hj4096⟩ : Fin 4096) k)) = fun k => y0 (ix2 (⟨(j 0).val, hj4096⟩ : Fin 4096) k) :=
    funext fun k => rows_of_cut0 _ x0 y0 h0 _ hj k
  have e1 : (fun k => x1 (ix2 (⟨(j 0).val, hj4096⟩ : Fin 4096) k)) = fun k => y1 (ix2 (⟨(j 0).val, hj4096⟩ : Fin 4096) k) :=
    funext fun k => rows_of_cut1 _ x1 y1 h1 _ hj k
  rw [e0, e1, rows_of_cut7 _ x7 y7 h7 _ hj, rows_of_cut8 _ x8 y8 h8 _ hj]

/-! ## The result array in closed form -/

/-- Row `r` of the result: the row function of row `r` of the two gathered embedding arrays, of the weights, and of
    row `r` of the two sample columns, all as the region finds them. -/
def rowK (c : Dev nD) (r : Fin 1000000) : EReal :=
  Cert.GateSpec.rowfn (fun k => V m c main_v10 (ix2 r k)) (fun k => V m c main_v17 (ix2 r k))
    (fun k j => V m c main_v20 (ix2 k j)) (fun k j => V m c main_v21 (ix2 k j))
    (fun j => V m c main_v23 (ix2 (0 : Fin 1) j)) (fun j => V m c main_v22 (ix2 j (0 : Fin 1)))
    (V m c main_v24 (ix2 (0 : Fin 1) (0 : Fin 1))) (V m c main_arg7 (ix2 r (0 : Fin 1))) (V m c main_v25 (ix2 r (0 : Fin 1)))

/-- The result array: at each index, the row function of its row. -/
def matK (c : Dev nD) : S1000000x1.Idx → EReal := fun i => rowK m c ⟨(i 0).val, idx2_lt0 i⟩

/-- A filled block of the first embedding window at a row the transfer moves reads the array at the block's offset
    plus the row. -/
theorem fblk0_apply (c : Dev nD) (t : Fin cfg0.N) (p : Fin 4096) (hp : p.val < win0_0.xsize (grid0.coords t) 0) (k : Fin 64)
    (r : Fin 1000000) (hr : r.val = win0_0.index t 0 * 4096 + p.val) :
    fblk m c 0 t (ix2 p k) = V m c main_v10 (ix2 r k) := by
  let j' : (win0_0.xblock (grid0.coords t)).Idx := fun a => match a with
    | ⟨0, _⟩ => ⟨p.val, hp⟩
    | ⟨1, _⟩ => ⟨k.val, k.isLt⟩
  have e : win0_0.xinj (grid0.coords t) j' = ix2 p k := by
    funext a; match a with | ⟨0, _⟩ => rfl | ⟨1, _⟩ => rfl
  refine (congrArg (fblk m c 0 t) e.symm).trans ((Window.fill_xinj (cfg0.win 0) (cfg0.grid.coords t) _ (iblk m c 0 t) j').trans ?_)
  show V m c main_v10 (((cfg0.win 0).blk t).view.emb j') = V m c main_v10 (ix2 r k)
  refine congrArg (V m c main_v10) ?_
  funext a; apply Fin.ext
  match a with
  | ⟨0, _⟩ => show win0_0.index t 0 * 4096 + 1 * p.val = r.val; omega
  | ⟨1, _⟩ => show 0 * 64 + 1 * k.val = k.val; omega

/-- The other windows' filled blocks likewise: the second embedding window and the two sample columns at the block's
    offset plus the row; the weights' windows, whose block is their whole array, at the same index. -/
theorem fblk1_apply (c : Dev nD) (t : Fin cfg0.N) (p : Fin 4096) (hp : p.val < win0_1.xsize (grid0.coords t) 0) (k : Fin 64)
    (r : Fin 1000000) (hr : r.val = win0_1.index t 0 * 4096 + p.val) :
    fblk m c 1 t (ix2 p k) = V m c main_v17 (ix2 r k) := by
  let j' : (win0_1.xblock (grid0.coords t)).Idx := fun a => match a with
    | ⟨0, _⟩ => ⟨p.val, hp⟩
    | ⟨1, _⟩ => ⟨k.val, k.isLt⟩
  have e : win0_1.xinj (grid0.coords t) j' = ix2 p k := by
    funext a; match a with | ⟨0, _⟩ => rfl | ⟨1, _⟩ => rfl
  refine (congrArg (fblk m c 1 t) e.symm).trans ((Window.fill_xinj (cfg0.win 1) (cfg0.grid.coords t) _ (iblk m c 1 t) j').trans ?_)
  show V m c main_v17 (((cfg0.win 1).blk t).view.emb j') = V m c main_v17 (ix2 r k)
  refine congrArg (V m c main_v17) ?_
  funext a; apply Fin.ext
  match a with
  | ⟨0, _⟩ => show win0_1.index t 0 * 4096 + 1 * p.val = r.val; omega
  | ⟨1, _⟩ => show 0 * 64 + 1 * k.val = k.val; omega

theorem fblk7_apply (c : Dev nD) (t : Fin cfg0.N) (p : Fin 4096) (hp : p.val < win0_7.xsize (grid0.coords t) 0)
    (r : Fin 1000000) (hr : r.val = win0_7.index t 0 * 4096 + p.val) :
    fblk m c 7 t (ix2 p (0 : Fin 1)) = V m c main_arg7 (ix2 r (0 : Fin 1)) := by
  let j' : (win0_7.xblock (grid0.coords t)).Idx := fun a => match a with
    | ⟨0, _⟩ => ⟨p.val, hp⟩
    | ⟨1, _⟩ => ⟨0, Nat.one_pos⟩
  have e : win0_7.xinj (grid0.coords t) j' = ix2 p (0 : Fin 1) := by
    funext a; match a with | ⟨0, _⟩ => rfl | ⟨1, _⟩ => rfl
  refine (congrArg (fblk m c 7 t) e.symm).trans ((Window.fill_xinj (cfg0.win 7) (cfg0.grid.coords t) _ (iblk m c 7 t) j').trans ?_)
  show V m c main_arg7 (((cfg0.win 7).blk t).view.emb j') = V m c main_arg7 (ix2 r (0 : Fin 1))
  refine congrArg (V m c main_arg7) ?_
  funext a; apply Fin.ext
  match a with
  | ⟨0, _⟩ => show win0_7.index t 0 * 4096 + 1 * p.val = r.val; omega
  | ⟨1, _⟩ => show 0 * 1 + 1 * 0 = 0; omega

theorem fblk8_apply (c : Dev nD) (t : Fin cfg0.N) (p : Fin 4096) (hp : p.val < win0_8.xsize (grid0.coords t) 0)
    (r : Fin 1000000) (hr : r.val = win0_8.index t 0 * 4096 + p.val) :
    fblk m c 8 t (ix2 p (0 : Fin 1)) = V m c main_v25 (ix2 r (0 : Fin 1)) := by
  let j' : (win0_8.xblock (grid0.coords t)).Idx := fun a => match a with
    | ⟨0, _⟩ => ⟨p.val, hp⟩
    | ⟨1, _⟩ => ⟨0, Nat.one_pos⟩
  have e : win0_8.xinj (grid0.coords t) j' = ix2 p (0 : Fin 1) := by
    funext a; match a with | ⟨0, _⟩ => rfl | ⟨1, _⟩ => rfl
  refine (congrArg (fblk m c 8 t) e.symm).trans ((Window.fill_xinj (cfg0.win 8) (cfg0.grid.coords t) _ (iblk m c 8 t) j').trans ?_)
  show V m c main_v25 (((cfg0.win 8).blk t).view.emb j') = V m c main_v25 (ix2 r (0 : Fin 1))
  refine congrArg (V m c main_v25) ?_
  funext a; apply Fin.ext
  match a with
  | ⟨0, _⟩ => show win0_8.index t 0 * 4096 + 1 * p.val = r.val; omega
  | ⟨1, _⟩ => show 0 * 1 + 1 * 0 = 0; omega

theorem fblk2_apply (c : Dev nD) (t : Fin cfg0.N) (a0 : Fin 64) (a1 : Fin 64) :
    fblk m c 2 t (ix2 a0 a1) = V m c main_v20 (ix2 a0 a1) := by
  let j' : (win0_2.xblock (grid0.coords t)).Idx := fun a => match a with
    | ⟨0, _⟩ => ⟨a0.val, a0.isLt⟩
    | ⟨1, _⟩ => ⟨a1.val, a1.isLt⟩
  have e : win0_2.xinj (grid0.coords t) j' = ix2 a0 a1 := by
    funext a; match a with | ⟨0, _⟩ => rfl | ⟨1, _⟩ => rfl
  refine (congrArg (fblk m c 2 t) e.symm).trans ((Window.fill_xinj (cfg0.win 2) (cfg0.grid.coords t) _ (iblk m c 2 t) j').trans ?_)
  show V m c main_v20 (((cfg0.win 2).blk t).view.emb j') = V m c main_v20 (ix2 a0 a1)
  refine congrArg (V m c main_v20) ?_
  funext a; apply Fin.ext
  match a with
  | ⟨0, _⟩ => show 0 * 64 + 1 * a0.val = a0.val; omega
  | ⟨1, _⟩ => show 0 * 64 + 1 * a1.val = a1.val; omega

theorem fblk3_apply (c : Dev nD) (t : Fin cfg0.N) (a0 : Fin 64) (a1 : Fin 64) :
    fblk m c 3 t (ix2 a0 a1) = V m c main_v21 (ix2 a0 a1) := by
  let j' : (win0_3.xblock (grid0.coords t)).Idx := fun a => match a with
    | ⟨0, _⟩ => ⟨a0.val, a0.isLt⟩
    | ⟨1, _⟩ => ⟨a1.val, a1.isLt⟩
  have e : win0_3.xinj (grid0.coords t) j' = ix2 a0 a1 := by
    funext a; match a with | ⟨0, _⟩ => rfl | ⟨1, _⟩ => rfl
  refine (congrArg (fblk m c 3 t) e.symm).trans ((Window.fill_xinj (cfg0.win 3) (cfg0.grid.coords t) _ (iblk m c 3 t) j').trans ?_)
  show V m c main_v21 (((cfg0.win 3).blk t).view.emb j') = V m c main_v21 (ix2 a0 a1)
  refine congrArg (V m c main_v21) ?_
  funext a; apply Fin.ext
  match a with
  | ⟨0, _⟩ => show 0 * 64 + 1 * a0.val = a0.val; omega
  | ⟨1, _⟩ => show 0 * 64 + 1 * a1.val = a1.val; omega

theorem fblk4_apply (c : Dev nD) (t : Fin cfg0.N) (a0 : Fin 1) (a1 : Fin 64) :
    fblk m c 4 t (ix2 a0 a1) = V m c main_v23 (ix2 a0 a1) := by
  let j' : (win0_4.xblock (grid0.coords t)).Idx := fun a => match a with
    | ⟨0, _⟩ => ⟨a0.val, a0.isLt⟩
    | ⟨1, _⟩ => ⟨a1.val, a1.isLt⟩
  have e : win0_4.xinj (grid0.coords t) j' = ix2 a0 a1 := by
    funext a; match a with | ⟨0, _⟩ => rfl | ⟨1, _⟩ => rfl
  refine (congrArg (fblk m c 4 t) e.symm).trans ((Window.fill_xinj (cfg0.win 4) (cfg0.grid.coords t) _ (iblk m c 4 t) j').trans ?_)
  show V m c main_v23 (((cfg0.win 4).blk t).view.emb j') = V m c main_v23 (ix2 a0 a1)
  refine congrArg (V m c main_v23) ?_
  funext a; apply Fin.ext
  match a with
  | ⟨0, _⟩ => show 0 * 1 + 1 * a0.val = a0.val; omega
  | ⟨1, _⟩ => show 0 * 64 + 1 * a1.val = a1.val; omega

theorem fblk5_apply (c : Dev nD) (t : Fin cfg0.N) (a0 : Fin 64) (a1 : Fin 1) :
    fblk m c 5 t (ix2 a0 a1) = V m c main_v22 (ix2 a0 a1) := by
  let j' : (win0_5.xblock (grid0.coords t)).Idx := fun a => match a with
    | ⟨0, _⟩ => ⟨a0.val, a0.isLt⟩
    | ⟨1, _⟩ => ⟨a1.val, a1.isLt⟩
  have e : win0_5.xinj (grid0.coords t) j' = ix2 a0 a1 := by
    funext a; match a with | ⟨0, _⟩ => rfl | ⟨1, _⟩ => rfl
  refine (congrArg (fblk m c 5 t) e.symm).trans ((Window.fill_xinj (cfg0.win 5) (cfg0.grid.coords t) _ (iblk m c 5 t) j').trans ?_)
  show V m c main_v22 (((cfg0.win 5).blk t).view.emb j') = V m c main_v22 (ix2 a0 a1)
  refine congrArg (V m c main_v22) ?_
  funext a; apply Fin.ext
  match a with
  | ⟨0, _⟩ => show 0 * 64 + 1 * a0.val = a0.val; omega
  | ⟨1, _⟩ => show 0 * 1 + 1 * a1.val = a1.val; omega

theorem fblk6_apply (c : Dev nD) (t : Fin cfg0.N) (a0 : Fin 1) (a1 : Fin 1) :
    fblk m c 6 t (ix2 a0 a1) = V m c main_v24 (ix2 a0 a1) := by
  let j' : (win0_6.xblock (grid0.coords t)).Idx := fun a => match a with
    | ⟨0, _⟩ => ⟨a0.val, a0.isLt⟩
    | ⟨1, _⟩ => ⟨a1.val, a1.isLt⟩
  have e : win0_6.xinj (grid0.coords t) j' = ix2 a0 a1 := by
    funext a; match a with | ⟨0, _⟩ => rfl | ⟨1, _⟩ => rfl
  refine (congrArg (fblk m c 6 t) e.symm).trans ((Window.fill_xinj (cfg0.win 6) (cfg0.grid.coords t) _ (iblk m c 6 t) j').trans ?_)
  show V m c main_v24 (((cfg0.win 6).blk t).view.emb j') = V m c main_v24 (ix2 a0 a1)
  refine congrArg (V m c main_v24) ?_
  funext a; apply Fin.ext
  match a with
  | ⟨0, _⟩ => show 0 * 1 + 1 * a0.val = a0.val; omega
  | ⟨1, _⟩ => show 0 * 1 + 1 * a1.val = a1.val; omega

/-- The output window's block index and cut at each point: block `t` starts at row `4096 t`, and only the last is cut,
    to the 576 rows the million leave. -/
theorem idx_facts9 : ∀ t : Fin cfg0.N, win0_9.index t 0 = t.val
    ∧ win0_9.xsize (grid0.coords t) 0 = (if t.val = 244 then 576 else 4096) :=
  (by decide +kernel : ∀ t : Fin grid0.N, _)

/-- WHAT POINT `t` WRITES BACK is block `t` of the result function. -/
theorem flushed9_eq (c : Dev nD) (t : Fin cfg0.N) :
    (dats m 0 c).flushed 9 t = ((cfg0.win 9).blk t).view.read (Elt Ideal) (matK m c) := by
  show (cfg0.win 9).cut (grid0.coords t) ((dats m 0 c).after 9 t) = _
  rw [after_9]
  funext j
  have hj : (j 0).val < win0_9.xsize (grid0.coords t) 0 := (j 0).isLt
  have hj4096 : (j 0).val < 4096 := lt_of_lt_of_le hj (win0_9.xsize_le _ 0)
  obtain ⟨hidx, hx⟩ := idx_facts9 t
  have ht : t.val < 245 := t.isLt
  have hrow : win0_9.index t 0 * 4096 + (j 0).val < 1000000 := by
    rw [hidx]; rw [hx] at hj; split at hj <;> omega
  show out9 (fblk m c 0 t) (fblk m c 1 t) (fblk m c 2 t) (fblk m c 3 t) (fblk m c 4 t) (fblk m c 5 t) (fblk m c 6 t)
      (fblk m c 7 t) (fblk m c 8 t) (win0_9.xinj (grid0.coords t) j)
    = matK m c (((cfg0.win 9).blk t).view.emb j)
  rw [out9_eq, stored_apply_idx _ _ _ _ _ _ _ _ _ _ ⟨(j 0).val, hj4096⟩ rfl]
  have hr : matK m c (((cfg0.win 9).blk t).view.emb j) = rowK m c ⟨win0_9.index t 0 * 4096 + (j 0).val, hrow⟩ := by
    unfold matK
    refine congrArg (rowK m c) (Fin.ext ?_)
    show win0_9.index t 0 * 4096 + 1 * (j 0).val = win0_9.index t 0 * 4096 + (j 0).val
    omega
  rw [hr]
  unfold rowK
  have e0 : (fun k => fblk m c 0 t (ix2 (⟨(j 0).val, hj4096⟩ : Fin 4096) k))
      = fun k => V m c main_v10 (ix2 (⟨win0_9.index t 0 * 4096 + (j 0).val, hrow⟩ : Fin 1000000) k) :=
    funext fun k => fblk0_apply m c t _ hj k _ rfl
  have e1 : (fun k => fblk m c 1 t (ix2 (⟨(j 0).val, hj4096⟩ : Fin 4096) k))
      = fun k => V m c main_v17 (ix2 (⟨win0_9.index t 0 * 4096 + (j 0).val, hrow⟩ : Fin 1000000) k) :=
    funext fun k => fblk1_apply m c t _ hj k _ rfl
  have e2 : (fun k j => fblk m c 2 t (ix2 k j)) = fun (k j : Fin 64) => V m c main_v20 (ix2 k j) :=
    funext fun k => funext fun j => fblk2_apply m c t k j
  have e3 : (fun k j => fblk m c 3 t (ix2 k j)) = fun (k j : Fin 64) => V m c main_v21 (ix2 k j) :=
    funext fun k => funext fun j => fblk3_apply m c t k j
  have e4 : (fun j => fblk m c 4 t (ix2 (0 : Fin 1) j)) = fun (j : Fin 64) => V m c main_v23 (ix2 (0 : Fin 1) j) :=
    funext fun j => fblk4_apply m c t 0 j
  have e5 : (fun j => fblk m c 5 t (ix2 j (0 : Fin 1))) = fun (j : Fin 64) => V m c main_v22 (ix2 j (0 : Fin 1)) :=
    funext fun j => fblk5_apply m c t j 0
  rw [e0, e1, e2, e3, e4, e5, fblk6_apply m c t 0 0, fblk7_apply m c t ⟨(j 0).val, hj4096⟩ hj ⟨win0_9.index t 0 * 4096 + (j 0).val, hrow⟩ rfl,
    fblk8_apply m c t ⟨(j 0).val, hj4096⟩ hj ⟨win0_9.index t 0 * 4096 + (j 0).val, hrow⟩ rfl]

/-- An index of the array is in point `t`'s block iff its row is among the block's rows inside the array. -/
theorem mem_blk9 (t : Fin cfg0.N) (i : S1000000x1.Idx) :
    i ∈ ((cfg0.win 9).blk t).view.set ↔ win0_9.index t 0 * 4096 ≤ (i 0 : Nat) ∧ (i 0 : Nat) < win0_9.index t 0 * 4096 + win0_9.xsize (grid0.coords t) 0 := by
  show i ∈ ((View.whole main_v26).slice (win0_9.rect t)).set ↔ _
  rw [View.set_slice_whole, Rect.mem_set_unit]
  have h1 : (i 1 : Nat) < 1 := (i 1).isLt
  refine ⟨fun h => h 0, fun h a => ?_⟩
  match a with
  | ⟨0, _⟩ => exact h
  | ⟨1, _⟩ =>
    show 0 * 1 ≤ (i 1 : Nat) ∧ (i 1 : Nat) < 0 * 1 + 1
    omega

/-- Every row is in the block of the point its quotient by 4096 names. -/
theorem cover9 (i : S1000000x1.Idx) : ∃ t : Fin cfg0.N, (cfg0.win 9).flush t = true ∧ i ∈ ((cfg0.win 9).blk t).view.set := by
  have hi : (i 0 : Nat) < 1000000 := (i 0).isLt
  have ht : (i 0 : Nat) / 4096 < 245 := by omega
  refine ⟨⟨(i 0 : Nat) / 4096, ht⟩, flush0_9 _, ?_⟩
  rw [mem_blk9]
  obtain ⟨hidx, hx⟩ := idx_facts9 ⟨(i 0 : Nat) / 4096, ht⟩
  rw [hidx, hx]
  show (i 0 : Nat) / 4096 * 4096 ≤ (i 0 : Nat) ∧ (i 0 : Nat) < (i 0 : Nat) / 4096 * 4096 + (if (i 0 : Nat) / 4096 = 244 then 576 else 4096)
  split <;> omega

/-- THE ARRAY after the run: every row the row function of that row of the arrays as the region finds them. -/
theorem final9 (c : Dev nD) : (dats m 0 c).arrAt 9 cfg0.N = matK m c :=
  (dats m 0 c).arrAt_eq_of_cover 9 (matK m c) (fun t _ => flushed9_eq m c t) cover9

end Cert.KernelIdeal.Run

end
-- ==== Proof.HostTermsIdeal.lean ====
/- The host operations of `Cert.KernelIdeal`'s @main read back as pure terms. Before the region: what each window's
   array holds when the region is entered, as a term of the argument arrays (`srcOf`, `dstOf`, `embOf`, `v20Of` … `v25Of`;
   `V_src` … `V_v25`). After the region: the program's three results as terms of the source and destination index
   vectors, the second index table and the region's output array (`tailRowsK`, `tailColsK`, `tailValsK`, built from
   `rowsOf`, `colsOf`, `valsOf`, `orderOf`, `takeI`, `takeF`, `changeOf`, `segOf`, `segSumOf`, `mergedOf`; `tail_rows`,
   `tail_cols`, `tail_vals`). Each definition's body is the printed pure functions of the operations it covers, composed;
   each equation is the fold of the operations' results (`StableHlo.after`) rewritten operation by operation.
   Generic in the float model `F`. -/
import proofs.«165509_j29300266893702_2_alg».proof.Proof.AroundIdeal
import Idealize.ShloMosaic.Lib.StableHlo.Run
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.ShloMosaic.StableHlo (after_cons after_nil)
open Idealize.SL Idealize.SL.Sem
open Idealize.ShloMosaic.Pipeline (Dat)

variable {F : FTy → Type} [FloatOps F]

/-! ## Before the region: the windows' arrays as terms of the arguments -/

/-- Row 0 of the 2 × 1000000 index table, as a vector of 1000000 indices. -/
def srcOf (a5 : IVec S2x1000000 32) : IVec S1000000 32 :=
  shapeCast S1000000 (extractStridedSlice S1x1000000 ![0, 0] a5 slices_S2x1000000_S1x1000000_0_0) shapeCasts_S1x1000000_S1000000
/-- Row 1 of the 2 × 1000000 index table, as a vector of 1000000 indices. -/
def dstOf (a5 : IVec S2x1000000 32) : IVec S1000000 32 :=
  shapeCast S1000000 (extractStridedSlice S1x1000000 ![1, 0] a5 slices_S2x1000000_S1x1000000_1_0) shapeCasts_S1x1000000_S1000000
/-- Each index with a negative value (signed comparison with 0) shifted by the extent 300000: `i + 300000` where `i < 0`, else `i`. -/
def wrapIdx (i : IVec S1000000 32) : IVec S1000000 32 :=
  select (cmpi .slt i (broadcastInDim S1000000 ![] bcast_S_S1000000 (constantI S_ 32 0#32))) (addi i (broadcastInDim S1000000 ![] bcast_S_S1000000 (constantI S_ 32 300000#32))) i
/-- The gather (by the printed dimension record) of the 300000 × 64 array `a0` at the indices `wrapIdx i`, taken as a 1000000 × 1 index array: a 1000000 × 64 array. -/
def embOf (a0 : FVec F S300000x64 .f32) (i : IVec S1000000 32) : FVec F S1000000x64 .f32 :=
  Host.gather gather_S300000x64_S1000000x1_S1000000x64_1_0_n_n_0_1_164 a0 (broadcastInDim S1000000x1 ![0] bcast_S1000000_S1000000x1_0 (wrapIdx i))
/-- The transpose of columns 0 … 63 of the 64 × 128 matrix `a1`. -/
def v20Of (a1 : FVec F S64x128 .f32) : FVec F S64x64 .f32 :=
  transpose S64x64 [1, 0] (extractStridedSlice S64x64 ![0, 0] a1 slices_S64x128_S64x64_0_0) transposes_S64x64_S64x64_1_0
/-- The transpose of columns 64 … 127 of the 64 × 128 matrix `a1`. -/
def v21Of (a1 : FVec F S64x128 .f32) : FVec F S64x64 .f32 :=
  transpose S64x64 [1, 0] (extractStridedSlice S64x64 ![0, 64] a1 slices_S64x128_S64x64_0_64) transposes_S64x64_S64x64_1_0
/-- The 1 × 64 row `a3` as a 64 × 1 column. -/
def v22Of (a3 : FVec F S1x64 .f32) : FVec F S64x1 .f32 :=
  transpose S64x1 [1, 0] a3 transposes_S1x64_S64x1_1_0
/-- The 64-vector `a2` as a 1 × 64 row. -/
def v23Of (a2 : FVec F S64 .f32) : FVec F S1x64 .f32 :=
  shapeCast S1x64 a2 shapeCasts_S64_S1x64
/-- The 1-vector `a4` as a 1 × 1 matrix. -/
def v24Of (a4 : FVec F S1 .f32) : FVec F S1x1 .f32 :=
  shapeCast S1x1 a4 shapeCasts_S1_S1x1
/-- The 1000000-vector `a8` as a 1000000 × 1 column. -/
def v25Of (a8 : FVec F S1000000 .f32) : FVec F S1000000x1 .f32 :=
  shapeCast S1000000x1 a8 shapeCasts_S1000000_S1000000x1

variable (m : (ℓ : Loc nD τ sig) → Buf (Elt F) ℓ)

/-- `main_v1` at the region's entry, of the launch contents of the arguments. -/
theorem V_src (c : Dev nD) : V m c main_v1 = srcOf ((m ((c : Thread nD τ).loc main_arg5))) := by
  show StableHlo.after hostOps0 (fun b => m (c, b)) (Proc.devRef .tc main_v1) = _
  after_results_simp
  rfl
/-- `main_v3` at the region's entry, of the launch contents of the arguments. -/
theorem V_dst (c : Dev nD) : V m c main_v3 = dstOf ((m ((c : Thread nD τ).loc main_arg5))) := by
  show StableHlo.after hostOps0 (fun b => m (c, b)) (Proc.devRef .tc main_v3) = _
  after_results_simp
  rfl
/-- `main_v10` at the region's entry, of the launch contents of the arguments. -/
theorem V_v10 (c : Dev nD) : V m c main_v10 = embOf ((m ((c : Thread nD τ).loc main_arg0))) (srcOf ((m ((c : Thread nD τ).loc main_arg5)))) := by
  show StableHlo.after hostOps0 (fun b => m (c, b)) (Proc.devRef .tc main_v10) = _
  after_results_simp
  rfl
/-- `main_v17` at the region's entry, of the launch contents of the arguments. -/
theorem V_v17 (c : Dev nD) : V m c main_v17 = embOf ((m ((c : Thread nD τ).loc main_arg0))) (dstOf ((m ((c : Thread nD τ).loc main_arg5)))) := by
  show StableHlo.after hostOps0 (fun b => m (c, b)) (Proc.devRef .tc main_v17) = _
  after_results_simp
  rfl
/-- `main_v20` at the region's entry, of the launch contents of the arguments. -/
theorem V_v20 (c : Dev nD) : V m c main_v20 = v20Of ((m ((c : Thread nD τ).loc main_arg1))) := by
  show StableHlo.after hostOps0 (fun b => m (c, b)) (Proc.devRef .tc main_v20) = _
  after_results_simp
  rfl
/-- `main_v21` at the region's entry, of the launch contents of the arguments. -/
theorem V_v21 (c : Dev nD) : V m c main_v21 = v21Of ((m ((c : Thread nD τ).loc main_arg1))) := by
  show StableHlo.after hostOps0 (fun b => m (c, b)) (Proc.devRef .tc main_v21) = _
  after_results_simp
  rfl
/-- `main_v22` at the region's entry, of the launch contents of the arguments. -/
theorem V_v22 (c : Dev nD) : V m c main_v22 = v22Of ((m ((c : Thread nD τ).loc main_arg3))) := by
  show StableHlo.after hostOps0 (fun b => m (c, b)) (Proc.devRef .tc main_v22) = _
  after_results_simp
  rfl
/-- `main_v23` at the region's entry, of the launch contents of the arguments. -/
theorem V_v23 (c : Dev nD) : V m c main_v23 = v23Of ((m ((c : Thread nD τ).loc main_arg2))) := by
  show StableHlo.after hostOps0 (fun b => m (c, b)) (Proc.devRef .tc main_v23) = _
  after_results_simp
  rfl
/-- `main_v24` at the region's entry, of the launch contents of the arguments. -/
theorem V_v24 (c : Dev nD) : V m c main_v24 = v24Of ((m ((c : Thread nD τ).loc main_arg4))) := by
  show StableHlo.after hostOps0 (fun b => m (c, b)) (Proc.devRef .tc main_v24) = _
  after_results_simp
  rfl
/-- `main_v25` at the region's entry, of the launch contents of the arguments. -/
theorem V_v25 (c : Dev nD) : V m c main_v25 = v25Of ((m ((c : Thread nD τ).loc main_arg8))) := by
  show StableHlo.after hostOps0 (fun b => m (c, b)) (Proc.devRef .tc main_v25) = _
  after_results_simp
  rfl

/-! ## After the region: the three results as terms -/

/-- Row 0 of the 2 × 100000 index table, as a vector of 100000 indices. -/
def extra0Of (a6 : IVec S2x100000 32) : IVec S100000 32 :=
  shapeCast S100000 (extractStridedSlice S1x100000 ![0, 0] a6 slices_S2x100000_S1x100000_0_0) shapeCasts_S1x100000_S100000
/-- Row 1 of the 2 × 100000 index table, as a vector of 100000 indices. -/
def extra1Of (a6 : IVec S2x100000 32) : IVec S100000 32 :=
  shapeCast S100000 (extractStridedSlice S1x100000 ![1, 0] a6 slices_S2x100000_S1x100000_1_0) shapeCasts_S1x100000_S100000
/-- The 1100000 row indices: `src` followed by row 0 of `a6`. -/
def rowsOf (src : IVec S1000000 32) (a6 : IVec S2x100000 32) : IVec S1100000 32 :=
  concatenate S1100000 0 [⟨S1000000, src⟩, ⟨S100000, (extra0Of a6)⟩] concatenates_S1000000_S100000_S1100000_d0
/-- The 1100000 column indices: `dst` followed by row 1 of `a6`. -/
def colsOf (dst : IVec S1000000 32) (a6 : IVec S2x100000 32) : IVec S1100000 32 :=
  concatenate S1100000 0 [⟨S1000000, dst⟩, ⟨S100000, (extra1Of a6)⟩] concatenates_S1000000_S100000_S1100000_d0
/-- The 1100000 values: the 1000000 × 1 column `out` flattened, followed by 100000 copies of the constant with bits `0x3D4CCCCD`. -/
def valsOf (out : FVec F S1000000x1 .f32) : FVec F S1100000 .f32 :=
  concatenate S1100000 0 [⟨S1000000, (shapeCast S1000000 out shapeCasts_S1000000x1_S1000000)⟩, ⟨S100000, (broadcastInDim S100000 ![] bcast_S_S100000 (constant (F := F) S_ .f32 0x3D4CCCCD#32))⟩] concatenates_S1000000_S100000_S1100000_d0
/-- The positions `0 … 1099999` carried through the sort, along axis 0, of the triples (`rows`, `cols`, position) by the printed comparator (first component, then second where the first are equal): the third component of the sorted triples. -/
def orderOf (rows : IVec S1100000 32) (cols : IVec S1100000 32) : IVec S1100000 32 :=
  (Host.sort3 S1100000 0 comparator_i32_i32_i32_d0 rows cols (iotaInDim S1100000 32 0)).2.2
/-- Each index with a negative value (signed comparison with 0) shifted by the extent 1100000: `i + 1100000` where `i < 0`, else `i`. -/
def wrapOf (i : IVec S1100000 32) : IVec S1100000 32 :=
  select (cmpi .slt i (broadcastInDim S1100000 ![] bcast_S_S1100000 (constantI S_ 32 0#32))) (addi i (broadcastInDim S1100000 ![] bcast_S_S1100000 (constantI S_ 32 1100000#32))) i
/-- The gather (by the printed dimension record) of the integer vector `x` at the indices `wrapOf i`, taken as a 1100000 × 1 index array. -/
def takeI (x : IVec S1100000 32) (i : IVec S1100000 32) : IVec S1100000 32 :=
  Host.gather gather_S1100000_S1100000x1_S1100000_n_0_n_n_0_1_1 x (broadcastInDim S1100000x1 ![0] bcast_S1100000_S1100000x1_0 (wrapOf i))
/-- The gather (by the printed dimension record) of the float vector `x` at the indices `wrapOf i`, taken as a 1100000 × 1 index array. -/
def takeF (x : FVec F S1100000 .f32) (i : IVec S1100000 32) : FVec F S1100000 .f32 :=
  Host.gather gather_S1100000_S1100000x1_S1100000_n_0_n_n_0_1_1 x (broadcastInDim S1100000x1 ![0] bcast_S1100000_S1100000x1_0 (wrapOf i))
/-- The change flags of two vectors: 1 at position 0, and at position `k + 1` whether `r` or `c` differs there from its value at position `k`. -/
def changeOf (r : IVec S1100000 32) (c : IVec S1100000 32) : IVec S1100000 1 :=
  concatenate S1100000 0 [⟨S1, (broadcastInDim S1 ![] bcast_S_S1 (constantI S_ 1 1#1))⟩, ⟨S1099999, (ori (cmpi .ne (extractStridedSlice S1099999 ![1] r slices_S1100000_S1099999_1) (extractStridedSlice S1099999 ![0] r slices_S1100000_S1099999_0)) (cmpi .ne (extractStridedSlice S1099999 ![1] c slices_S1100000_S1099999_1) (extractStridedSlice S1099999 ![0] c slices_S1100000_S1099999_0)))⟩] concatenates_S1_S1099999_S1100000_d0
/-- The window sums of the flags widened to 32 bits (window 1100000, stride 1, padded 1099999 low from 0: the sum over positions `0 … k`), less one at every position. -/
def segOf (chg : IVec S1100000 1) : IVec S1100000 32 :=
  subi (Host.reduceWindow IntOp.addi ![1100000] ![1] ![1099999] ![0] (extui 32 chg natLt_1_32) (broadcastInDim S_ ![] bcast_S_S_ (constantI S_ 32 0#32)) reduceWindows_S1100000_S1100000_w1100000s1p1099999_0 h_S_) (broadcastInDim S1100000 ![] bcast_S_S1100000 (constantI S_ 32 1#32))
/-- The scatter-add (by the printed dimension record) of `v` at the indices `seg`, taken as a 1100000 × 1 index array, into the zero vector. -/
def segSumOf (seg : IVec S1100000 32) (v : FVec F S1100000 .f32) : FVec F S1100000 .f32 :=
  Host.scatterAdd scatter_S1100000_S1100000x1_S1100000_n_0_0_1 (broadcastInDim S1100000 ![] bcast_S_S1100000 (constant (F := F) S_ .f32 0x00000000#32)) (broadcastInDim S1100000x1 ![0] bcast_S1100000_S1100000x1_0 seg) v
/-- Where `chg` is set, `segSumOf seg v` read at `seg`; zero elsewhere. -/
def mergedOf (chg : IVec S1100000 1) (seg : IVec S1100000 32) (v : FVec F S1100000 .f32) : FVec F S1100000 .f32 :=
  select chg (takeF (segSumOf seg v) seg) (broadcastInDim S1100000 ![] bcast_S_S1100000 (id (constant (F := F) S_ .f32 0x00000000#32)))
/-- `orderOf` of the 1100000 row and column indices. -/
def tailOrderK (src : IVec S1000000 32) (dst : IVec S1000000 32) (a6 : IVec S2x100000 32) : IVec S1100000 32 :=
  orderOf (rowsOf src a6) (colsOf dst a6)
/-- The row indices read in that order (the program's first result). -/
def tailRowsK (src : IVec S1000000 32) (dst : IVec S1000000 32) (a6 : IVec S2x100000 32) : IVec S1100000 32 :=
  takeI (rowsOf src a6) (tailOrderK src dst a6)
/-- The column indices read in that order (the program's second result). -/
def tailColsK (src : IVec S1000000 32) (dst : IVec S1000000 32) (a6 : IVec S2x100000 32) : IVec S1100000 32 :=
  takeI (colsOf dst a6) (tailOrderK src dst a6)
/-- The change flags of the reordered row and column indices. -/
def tailChangeK (src : IVec S1000000 32) (dst : IVec S1000000 32) (a6 : IVec S2x100000 32) : IVec S1100000 1 :=
  changeOf (tailRowsK src dst a6) (tailColsK src dst a6)
/-- `segOf` of those flags. -/
def tailSegK (src : IVec S1000000 32) (dst : IVec S1000000 32) (a6 : IVec S2x100000 32) : IVec S1100000 32 :=
  segOf (tailChangeK src dst a6)
/-- `mergedOf` of those flags, those segment numbers and the values read in that order (the program's third result). -/
def tailValsK (src : IVec S1000000 32) (dst : IVec S1000000 32) (a6 : IVec S2x100000 32) (out : FVec F S1000000x1 .f32) : FVec F S1100000 .f32 :=
  mergedOf (tailChangeK src dst a6) (tailSegK src dst a6) (takeF (valsOf out) (tailOrderK src dst a6))

/-! ### The typed references of the module-local functions

A value of a module-local function is carried to and from its buffer along the equation between the buffer's type and the
value's, which holds by computation: the transport is the identity. One equation per typed reference, each by `rfl`
at a VARIABLE value, so that the transports are rewritten away before two composed terms are compared. -/

theorem toBuf_main_call0_v0 (Z : (⟨S1100000, .i32⟩ : BufTy).Contents (Elt F)) : (StableHlo.TRef.of main_call0_v0 : StableHlo.TRef sig ⟨S1100000, .i32⟩).toBuf Z = Z := rfl
theorem ofBuf_main_call0_v0 (Z : (main_call0_v0 : Ref sig .tc).ty.Contents (Elt F)) : (StableHlo.TRef.of main_call0_v0 : StableHlo.TRef sig ⟨S1100000, .i32⟩).ofBuf Z = Z := rfl
theorem toBuf_main_v31 (Z : (⟨S1100000, .i32⟩ : BufTy).Contents (Elt F)) : (StableHlo.TRef.of main_v31 : StableHlo.TRef sig ⟨S1100000, .i32⟩).toBuf Z = Z := rfl
theorem ofBuf_main_v31 (Z : (main_v31 : Ref sig .tc).ty.Contents (Elt F)) : (StableHlo.TRef.of main_v31 : StableHlo.TRef sig ⟨S1100000, .i32⟩).ofBuf Z = Z := rfl
theorem toBuf_main_v34 (Z : (⟨S1100000, .i32⟩ : BufTy).Contents (Elt F)) : (StableHlo.TRef.of main_v34 : StableHlo.TRef sig ⟨S1100000, .i32⟩).toBuf Z = Z := rfl
theorem ofBuf_main_v34 (Z : (main_v34 : Ref sig .tc).ty.Contents (Elt F)) : (StableHlo.TRef.of main_v34 : StableHlo.TRef sig ⟨S1100000, .i32⟩).ofBuf Z = Z := rfl
theorem toBuf_main_call0_v1_0 (Z : (⟨S1100000, .i32⟩ : BufTy).Contents (Elt F)) : (StableHlo.TRef.of main_call0_v1_0 : StableHlo.TRef sig ⟨S1100000, .i32⟩).toBuf Z = Z := rfl
theorem ofBuf_main_call0_v1_0 (Z : (main_call0_v1_0 : Ref sig .tc).ty.Contents (Elt F)) : (StableHlo.TRef.of main_call0_v1_0 : StableHlo.TRef sig ⟨S1100000, .i32⟩).ofBuf Z = Z := rfl
theorem toBuf_main_call0_v1_1 (Z : (⟨S1100000, .i32⟩ : BufTy).Contents (Elt F)) : (StableHlo.TRef.of main_call0_v1_1 : StableHlo.TRef sig ⟨S1100000, .i32⟩).toBuf Z = Z := rfl
theorem ofBuf_main_call0_v1_1 (Z : (main_call0_v1_1 : Ref sig .tc).ty.Contents (Elt F)) : (StableHlo.TRef.of main_call0_v1_1 : StableHlo.TRef sig ⟨S1100000, .i32⟩).ofBuf Z = Z := rfl
theorem toBuf_main_v36 (Z : (⟨S1100000, .i32⟩ : BufTy).Contents (Elt F)) : (StableHlo.TRef.of main_v36 : StableHlo.TRef sig ⟨S1100000, .i32⟩).toBuf Z = Z := rfl
theorem ofBuf_main_v36 (Z : (main_v36 : Ref sig .tc).ty.Contents (Elt F)) : (StableHlo.TRef.of main_v36 : StableHlo.TRef sig ⟨S1100000, .i32⟩).ofBuf Z = Z := rfl
theorem toBuf_main_v66 (Z : (⟨S1100000, .i1⟩ : BufTy).Contents (Elt F)) : (StableHlo.TRef.of main_v66 : StableHlo.TRef sig ⟨S1100000, .i1⟩).toBuf Z = Z := rfl
theorem ofBuf_main_v66 (Z : (main_v66 : Ref sig .tc).ty.Contents (Elt F)) : (StableHlo.TRef.of main_v66 : StableHlo.TRef sig ⟨S1100000, .i1⟩).ofBuf Z = Z := rfl
theorem toBuf_main_call1_v0 (Z : (⟨S1100000, .i32⟩ : BufTy).Contents (Elt F)) : (StableHlo.TRef.of main_call1_v0 : StableHlo.TRef sig ⟨S1100000, .i32⟩).toBuf Z = Z := rfl
theorem ofBuf_main_call1_v0 (Z : (main_call1_v0 : Ref sig .tc).ty.Contents (Elt F)) : (StableHlo.TRef.of main_call1_v0 : StableHlo.TRef sig ⟨S1100000, .i32⟩).ofBuf Z = Z := rfl
theorem toBuf_main_call1_call0_c (Z : (⟨S_, .i32⟩ : BufTy).Contents (Elt F)) : (StableHlo.TRef.of main_call1_call0_c : StableHlo.TRef sig ⟨S_, .i32⟩).toBuf Z = Z := rfl
theorem ofBuf_main_call1_call0_c (Z : (main_call1_call0_c : Ref sig .tc).ty.Contents (Elt F)) : (StableHlo.TRef.of main_call1_call0_c : StableHlo.TRef sig ⟨S_, .i32⟩).ofBuf Z = Z := rfl
theorem toBuf_main_call1_call0_v0 (Z : (⟨S_, .i32⟩ : BufTy).Contents (Elt F)) : (StableHlo.TRef.of main_call1_call0_v0 : StableHlo.TRef sig ⟨S_, .i32⟩).toBuf Z = Z := rfl
theorem ofBuf_main_call1_call0_v0 (Z : (main_call1_call0_v0 : Ref sig .tc).ty.Contents (Elt F)) : (StableHlo.TRef.of main_call1_call0_v0 : StableHlo.TRef sig ⟨S_, .i32⟩).ofBuf Z = Z := rfl
theorem toBuf_main_v67 (Z : (⟨S1100000, .i32⟩ : BufTy).Contents (Elt F)) : (StableHlo.TRef.of main_v67 : StableHlo.TRef sig ⟨S1100000, .i32⟩).toBuf Z = Z := rfl
theorem ofBuf_main_v67 (Z : (main_v67 : Ref sig .tc).ty.Contents (Elt F)) : (StableHlo.TRef.of main_v67 : StableHlo.TRef sig ⟨S1100000, .i32⟩).ofBuf Z = Z := rfl
theorem toBuf_main_cst_14 (Z : (⟨S_, .f32⟩ : BufTy).Contents (Elt F)) : (StableHlo.TRef.of main_cst_14 : StableHlo.TRef sig ⟨S_, .f32⟩).toBuf Z = Z := rfl
theorem ofBuf_main_cst_14 (Z : (main_cst_14 : Ref sig .tc).ty.Contents (Elt F)) : (StableHlo.TRef.of main_cst_14 : StableHlo.TRef sig ⟨S_, .f32⟩).ofBuf Z = Z := rfl
theorem toBuf_main_call2_v0 (Z : (⟨S_, .f32⟩ : BufTy).Contents (Elt F)) : (StableHlo.TRef.of main_call2_v0 : StableHlo.TRef sig ⟨S_, .f32⟩).toBuf Z = Z := rfl
theorem ofBuf_main_call2_v0 (Z : (main_call2_v0 : Ref sig .tc).ty.Contents (Elt F)) : (StableHlo.TRef.of main_call2_v0 : StableHlo.TRef sig ⟨S_, .f32⟩).ofBuf Z = Z := rfl
theorem toBuf_main_call2_v1 (Z : (⟨S1100000, .f32⟩ : BufTy).Contents (Elt F)) : (StableHlo.TRef.of main_call2_v1 : StableHlo.TRef sig ⟨S1100000, .f32⟩).toBuf Z = Z := rfl
theorem ofBuf_main_call2_v1 (Z : (main_call2_v1 : Ref sig .tc).ty.Contents (Elt F)) : (StableHlo.TRef.of main_call2_v1 : StableHlo.TRef sig ⟨S1100000, .f32⟩).ofBuf Z = Z := rfl
theorem toBuf_main_v79 (Z : (⟨S1100000, .f32⟩ : BufTy).Contents (Elt F)) : (StableHlo.TRef.of main_v79 : StableHlo.TRef sig ⟨S1100000, .f32⟩).toBuf Z = Z := rfl
theorem ofBuf_main_v79 (Z : (main_v79 : Ref sig .tc).ty.Contents (Elt F)) : (StableHlo.TRef.of main_v79 : StableHlo.TRef sig ⟨S1100000, .f32⟩).ofBuf Z = Z := rfl
theorem toBuf_main_v80 (Z : (⟨S1100000, .f32⟩ : BufTy).Contents (Elt F)) : (StableHlo.TRef.of main_v80 : StableHlo.TRef sig ⟨S1100000, .f32⟩).toBuf Z = Z := rfl
theorem ofBuf_main_v80 (Z : (main_v80 : Ref sig .tc).ty.Contents (Elt F)) : (StableHlo.TRef.of main_v80 : StableHlo.TRef sig ⟨S1100000, .f32⟩).ofBuf Z = Z := rfl

/-! ### The three results, from any contents of the buffers before the six stretches -/

-- the fold over 75 operations decides some hundreds of inequalities of references
set_option maxHeartbeats 4000000 in
/-- The first result after the six stretches, from any contents `X` of the buffers before them. -/
theorem tail_rows_X (X : Valuation τ sig (Elt F)) :
    StableHlo.after (List.flatten (tailOps (F := F))) X (Proc.devRef .tc main_v43)
      = tailRowsK (X (Proc.devRef .tc main_v1)) (X (Proc.devRef .tc main_v3)) (X (Proc.devRef .tc main_arg6)) := by
  simp only [tailOps, hostOps1, hostOps1_1, hostOps1_2, hostOps1_3, hostOps1_4, hostOps1_5, List.flatten_cons, List.flatten_nil, List.append_nil, List.cons_append, List.nil_append]
  after_results_simp
  simp only [toBuf_main_call0_v0, ofBuf_main_call0_v0, toBuf_main_v31, ofBuf_main_v31, toBuf_main_v34, ofBuf_main_v34, toBuf_main_call0_v1_0, ofBuf_main_call0_v1_0, toBuf_main_call0_v1_1, ofBuf_main_call0_v1_1, toBuf_main_v36, ofBuf_main_v36, toBuf_main_v66, ofBuf_main_v66, toBuf_main_call1_v0, ofBuf_main_call1_v0, toBuf_main_call1_call0_c, ofBuf_main_call1_call0_c, toBuf_main_call1_call0_v0, ofBuf_main_call1_call0_v0, toBuf_main_v67, ofBuf_main_v67, toBuf_main_cst_14, ofBuf_main_cst_14, toBuf_main_call2_v0, ofBuf_main_call2_v0, toBuf_main_call2_v1, ofBuf_main_call2_v1, toBuf_main_v79, ofBuf_main_v79, toBuf_main_v80, ofBuf_main_v80]
  first | done | rfl
set_option maxHeartbeats 4000000 in
/-- The second result likewise. -/
theorem tail_cols_X (X : Valuation τ sig (Elt F)) :
    StableHlo.after (List.flatten (tailOps (F := F))) X (Proc.devRef .tc main_v50)
      = tailColsK (X (Proc.devRef .tc main_v1)) (X (Proc.devRef .tc main_v3)) (X (Proc.devRef .tc main_arg6)) := by
  simp only [tailOps, hostOps1, hostOps1_1, hostOps1_2, hostOps1_3, hostOps1_4, hostOps1_5, List.flatten_cons, List.flatten_nil, List.append_nil, List.cons_append, List.nil_append]
  after_results_simp
  simp only [toBuf_main_call0_v0, ofBuf_main_call0_v0, toBuf_main_v31, ofBuf_main_v31, toBuf_main_v34, ofBuf_main_v34, toBuf_main_call0_v1_0, ofBuf_main_call0_v1_0, toBuf_main_call0_v1_1, ofBuf_main_call0_v1_1, toBuf_main_v36, ofBuf_main_v36, toBuf_main_v66, ofBuf_main_v66, toBuf_main_call1_v0, ofBuf_main_call1_v0, toBuf_main_call1_call0_c, ofBuf_main_call1_call0_c, toBuf_main_call1_call0_v0, ofBuf_main_call1_call0_v0, toBuf_main_v67, ofBuf_main_v67, toBuf_main_cst_14, ofBuf_main_cst_14, toBuf_main_call2_v0, ofBuf_main_call2_v0, toBuf_main_call2_v1, ofBuf_main_call2_v1, toBuf_main_v79, ofBuf_main_v79, toBuf_main_v80, ofBuf_main_v80]
  first | done | rfl

/-! ### The third result, stretch by stretch

Its term reads almost every one of the 75 operations: it is composed from the stretches' own equations, each from ANY
contents `X` of the buffers before the stretch, joined by `StableHlo.after_append` and, for a buffer a stretch does not
write, by `after_keep`. -/

/-- A buffer outside a line's result buffers keeps its contents through the line. -/
theorem after_keep {ops : List (HloOp τ sig (Elt F))} {W : List (Ref sig .tc)}
    (h : ops.map (fun op => op.writes) = W.map fun y => ({Proc.devRef .tc y} : Finset (DevRef τ sig)))
    (X : Valuation τ sig (Elt F)) (r : Ref sig .tc) (hr : r ∉ W) :
    StableHlo.after ops X (Proc.devRef .tc r) = X (Proc.devRef .tc r) :=
  StableHlo.after_of_forall_not_mem (b := Proc.devRef .tc r) ops X fun op hop hb => hr (mem_of_writes h op hop r hb)

/-- The six stretches in a row. -/
theorem tail_flat : List.flatten (tailOps (F := F))
    = (hostOps1 : List (HloOp τ sig (Elt F))) ++ (hostOps1_1 ++ (hostOps1_2 ++ (hostOps1_3 ++ (hostOps1_4 ++ hostOps1_5)))) := by
  simp only [tailOps, List.flatten_cons, List.flatten_nil, List.append_nil]

/-- After the first stretch: the row indices. -/
theorem s1_rows (X : Valuation τ sig (Elt F)) :
    StableHlo.after (hostOps1 (F := F)) X (Proc.devRef .tc main_v31) = rowsOf (X (Proc.devRef .tc main_v1)) (X (Proc.devRef .tc main_arg6)) := by
  simp only [hostOps1, List.append_nil, List.cons_append, List.nil_append]
  after_results_simp
  first | done | rfl
/-- After the first stretch: the column indices. -/
theorem s1_cols (X : Valuation τ sig (Elt F)) :
    StableHlo.after (hostOps1 (F := F)) X (Proc.devRef .tc main_v34) = colsOf (X (Proc.devRef .tc main_v3)) (X (Proc.devRef .tc main_arg6)) := by
  simp only [hostOps1, List.append_nil, List.cons_append, List.nil_append]
  after_results_simp
  first | done | rfl
/-- After the first stretch: the values. -/
theorem s1_vals (X : Valuation τ sig (Elt F)) :
    StableHlo.after (hostOps1 (F := F)) X (Proc.devRef .tc main_v35) = valsOf (X (Proc.devRef .tc main_v26)) := by
  simp only [hostOps1, List.append_nil, List.cons_append, List.nil_append]
  after_results_simp
  first | done | rfl
/-- After the second stretch: the sorting order. -/
theorem s2_order (X : Valuation τ sig (Elt F)) :
    StableHlo.after (hostOps1_1 (F := F)) X (Proc.devRef .tc main_v36) = orderOf (X (Proc.devRef .tc main_v31)) (X (Proc.devRef .tc main_v34)) := by
  simp only [hostOps1_1, List.append_nil, List.cons_append, List.nil_append]
  after_results_simp
  simp only [toBuf_main_call0_v0, ofBuf_main_call0_v0, toBuf_main_v31, ofBuf_main_v31, toBuf_main_v34, ofBuf_main_v34, toBuf_main_call0_v1_0, ofBuf_main_call0_v1_0, toBuf_main_call0_v1_1, ofBuf_main_call0_v1_1, toBuf_main_v36, ofBuf_main_v36, toBuf_main_v66, ofBuf_main_v66, toBuf_main_call1_v0, ofBuf_main_call1_v0, toBuf_main_call1_call0_c, ofBuf_main_call1_call0_c, toBuf_main_call1_call0_v0, ofBuf_main_call1_call0_v0, toBuf_main_v67, ofBuf_main_v67, toBuf_main_cst_14, ofBuf_main_cst_14, toBuf_main_call2_v0, ofBuf_main_call2_v0, toBuf_main_call2_v1, ofBuf_main_call2_v1, toBuf_main_v79, ofBuf_main_v79, toBuf_main_v80, ofBuf_main_v80]
  first | done | rfl
/-- After the third stretch: the values in that order. -/
theorem s3_vals (X : Valuation τ sig (Elt F)) :
    StableHlo.after (hostOps1_2 (F := F)) X (Proc.devRef .tc main_v57) = takeF (X (Proc.devRef .tc main_v35)) (X (Proc.devRef .tc main_v36)) := by
  simp only [hostOps1_2, List.append_nil, List.cons_append, List.nil_append]
  after_results_simp
  first | done | rfl
-- the third stretch's fold decides some hundreds of inequalities of references
set_option maxHeartbeats 1000000 in
/-- After the third stretch: the change flags. -/
theorem s3_chg (X : Valuation τ sig (Elt F)) :
    StableHlo.after (hostOps1_2 (F := F)) X (Proc.devRef .tc main_v66) = changeOf (takeI (X (Proc.devRef .tc main_v31)) (X (Proc.devRef .tc main_v36))) (takeI (X (Proc.devRef .tc main_v34)) (X (Proc.devRef .tc main_v36))) := by
  simp only [hostOps1_2, List.append_nil, List.cons_append, List.nil_append]
  after_results_simp
  first | done | rfl
set_option maxHeartbeats 1000000 in
/-- After the last three stretches: the merged values, of the flags and the reordered values before them. -/
theorem s456_vals (X : Valuation τ sig (Elt F)) :
    StableHlo.after (hostOps1_3 (F := F) ++ (hostOps1_4 ++ hostOps1_5)) X (Proc.devRef .tc main_v80) = mergedOf (X (Proc.devRef .tc main_v66)) (segOf (X (Proc.devRef .tc main_v66))) (X (Proc.devRef .tc main_v57)) := by
  simp only [hostOps1_3, hostOps1_4, hostOps1_5, List.append_nil, List.cons_append, List.nil_append]
  after_results_simp
  simp only [toBuf_main_call0_v0, ofBuf_main_call0_v0, toBuf_main_v31, ofBuf_main_v31, toBuf_main_v34, ofBuf_main_v34, toBuf_main_call0_v1_0, ofBuf_main_call0_v1_0, toBuf_main_call0_v1_1, ofBuf_main_call0_v1_1, toBuf_main_v36, ofBuf_main_v36, toBuf_main_v66, ofBuf_main_v66, toBuf_main_call1_v0, ofBuf_main_call1_v0, toBuf_main_call1_call0_c, ofBuf_main_call1_call0_c, toBuf_main_call1_call0_v0, ofBuf_main_call1_call0_v0, toBuf_main_v67, ofBuf_main_v67, toBuf_main_cst_14, ofBuf_main_cst_14, toBuf_main_call2_v0, ofBuf_main_call2_v0, toBuf_main_call2_v1, ofBuf_main_call2_v1, toBuf_main_v79, ofBuf_main_v79, toBuf_main_v80, ofBuf_main_v80]
  first | done | rfl

/-- The third result after the six stretches, from any contents `X` of the buffers before them; it also reads the
    region's output array `main_v26`. -/
theorem tail_vals_X (X : Valuation τ sig (Elt F)) :
    StableHlo.after (List.flatten (tailOps (F := F))) X (Proc.devRef .tc main_v80)
      = tailValsK (X (Proc.devRef .tc main_v1)) (X (Proc.devRef .tc main_v3)) (X (Proc.devRef .tc main_arg6)) (X (Proc.devRef .tc main_v26)) := by
  rw [tail_flat, StableHlo.after_append, StableHlo.after_append, StableHlo.after_append]
  rw [s456_vals, s3_chg, s3_vals, s2_order,
    after_keep hostOps1_1_writes _ main_v31 (by decide), after_keep hostOps1_1_writes _ main_v34 (by decide),
    after_keep hostOps1_1_writes _ main_v35 (by decide), s1_rows, s1_cols, s1_vals]
  rfl

/-- A buffer that is no array of the pipeline holds at the region's exit what it held at its entry. -/
theorem exit_of_ne (dats : (p : Fin 1) → (c : Dev nD) → Dat τ (Elt F) Unit ℕ (UR sig nD τ) ℕ (cfgs p) c) (c : Dev nD) (r : Ref sig .tc) (ha : ∀ w, Pipeline.arrRef spec0 w ≠ r) :
    (Pipeline.withArrays (cfgs 0).spec c (V0 m c) fun w => (dats 0 c).arrAt w (cfgs 0).N) (Proc.devRef .tc r) = V m c r :=
  Pipeline.withArrays_of_ne _ c (V0 m c) _ r ha
/-- The output window's array holds at the region's exit what the proof data say of it. -/
theorem exit_out (dats : (p : Fin 1) → (c : Dev nD) → Dat τ (Elt F) Unit ℕ (UR sig nD τ) ℕ (cfgs p) c) (c : Dev nD) :
    (Pipeline.withArrays (cfgs 0).spec c (V0 m c) fun w => (dats 0 c).arrAt w (cfgs 0).N) (Proc.devRef .tc main_v26) = (dats 0 c).arrAt 9 cfg0.N :=
  Pipeline.withArrays_arr spec0 launch0.win.arr_inj c (V0 m c) (fun w => (dats 0 c).arrAt w cfg0.N) 9

/-- THE FIRST RESULT after @main's last line: the row indices in sorted order, of the region-entry contents. -/
theorem tail_rows (dats : (p : Fin 1) → (c : Dev nD) → Dat τ (Elt F) Unit ℕ (UR sig nD τ) ℕ (cfgs p) c) (c : Dev nD) :
    Pipeline.afterTail₀ cfgs dats 0 (V0 m) tailOps c main_v43 = tailRowsK (V m c main_v1) (V m c main_v3) (V m c main_arg6) := by
  unfold Pipeline.afterTail₀
  refine (tail_rows_X _).trans ?_
  exact congr (congr (congrArg tailRowsK (exit_of_ne m dats c main_v1 (by decide))) (exit_of_ne m dats c main_v3 (by decide)))
    (exit_of_ne m dats c main_arg6 (by decide))
/-- THE SECOND RESULT: the column indices in sorted order. -/
theorem tail_cols (dats : (p : Fin 1) → (c : Dev nD) → Dat τ (Elt F) Unit ℕ (UR sig nD τ) ℕ (cfgs p) c) (c : Dev nD) :
    Pipeline.afterTail₀ cfgs dats 0 (V0 m) tailOps c main_v50 = tailColsK (V m c main_v1) (V m c main_v3) (V m c main_arg6) := by
  unfold Pipeline.afterTail₀
  refine (tail_cols_X _).trans ?_
  exact congr (congr (congrArg tailColsK (exit_of_ne m dats c main_v1 (by decide))) (exit_of_ne m dats c main_v3 (by decide)))
    (exit_of_ne m dats c main_arg6 (by decide))
/-- THE THIRD RESULT: the merged values, of the region-entry contents and of the output window's array as the proof data
    compute it. -/
theorem tail_vals (dats : (p : Fin 1) → (c : Dev nD) → Dat τ (Elt F) Unit ℕ (UR sig nD τ) ℕ (cfgs p) c) (c : Dev nD) :
    Pipeline.afterTail₀ cfgs dats 0 (V0 m) tailOps c main_v80
      = tailValsK (V m c main_v1) (V m c main_v3) (V m c main_arg6) ((dats 0 c).arrAt 9 cfg0.N) := by
  unfold Pipeline.afterTail₀
  refine (tail_vals_X _).trans ?_
  exact congr (congr (congr (congrArg tailValsK (exit_of_ne m dats c main_v1 (by decide))) (exit_of_ne m dats c main_v3 (by decide)))
    (exit_of_ne m dats c main_arg6 (by decide))) (exit_out m dats c)

end Cert.KernelIdeal.Around

end
-- ==== Proof.ResultsIdeal.lean ====
/-
  The idealized kernel program's results as functions of the launch arrays: the two sorted index vectors are the
  sparse rebuild's reordering of the row and column indices, and the value vector is the rebuild applied to the output
  array of the region — every row of it the gate's row function of that row of the staged arrays.
-/
import proofs.«165509_j29300266893702_2_alg».proof.Proof.RunIdeal
import proofs.«165509_j29300266893702_2_alg».proof.Proof.FinalIdeal
import proofs.«165509_j29300266893702_2_alg».proof.Proof.HostTermsIdeal

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The run with every result named, the arguments unchanged. -/
theorem results (hloc : Local) : θ_run defs (onTc (τ := τ) (main (F := Ideal))) ⟨m, fun _ => 0, ρ⟩ (fun r => ∀ c : Dev nD,
      r.2.mem ((c.tc : Thread nD τ).loc main_v43) = tailRowsK (srcOf (m ((c.tc : Thread nD τ).loc main_arg5))) (dstOf (m ((c.tc : Thread nD τ).loc main_arg5))) (m ((c.tc : Thread nD τ).loc main_arg6))
      ∧ r.2.mem ((c.tc : Thread nD τ).loc main_v50) = tailColsK (srcOf (m ((c.tc : Thread nD τ).loc main_arg5))) (dstOf (m ((c.tc : Thread nD τ).loc main_arg5))) (m ((c.tc : Thread nD τ).loc main_arg6))
      ∧ r.2.mem ((c.tc : Thread nD τ).loc main_v80) = tailValsK (F := Ideal) (srcOf (m ((c.tc : Thread nD τ).loc main_arg5))) (dstOf (m ((c.tc : Thread nD τ).loc main_arg5))) (m ((c.tc : Thread nD τ).loc main_arg6)) (matK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v43 (Pipeline.mem_restRefs_of main_v43 (by decide) (by decide))).trans
        ((tail_rows m (dats m) c).trans (by rw [V_src, V_dst, V_main_arg6])),
      ((h c).2 main_v50 (Pipeline.mem_restRefs_of main_v50 (by decide) (by decide))).trans
        ((tail_cols m (dats m) c).trans (by rw [V_src, V_dst, V_main_arg6])),
      ((h c).2 main_v80 (Pipeline.mem_restRefs_of main_v80 (by decide) (by decide))).trans
        ((tail_vals m (dats m) c).trans (by rw [V_src, V_dst, V_main_arg6, final9])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans ((((dats m) 0 c).arrAt_in 7 rfl _).trans ((A_eq m c 7).trans (V_main_arg7 m c))),
      ((h c).2 main_arg8 (Pipeline.mem_restRefs_of main_arg8 (by decide) (by decide))).trans (W_main_arg8 m (dats m) c)⟩) (run_main m ρ hloc)

end Cert.KernelIdeal.Run

end
-- ==== Proof.LayoutIdeal.lean ====
/-
  The small arrays the region stages, read by coordinates: the two halves of the first layer's weight, sliced out of
  the [64,128] matrix and transposed, read at (k, j) the matrix at (j, k) and at (j, 64 + k); the transposed second
  layer's row reads at (j, 0) the row at (0, j); a vector reshaped to one row, a scalar to one cell and a vector to one
  column read the vector's entries.
-/
import proofs.«165509_j29300266893702_2_alg».proof.Proof.Gen.KernelIdeal
import Idealize.ShloMosaic.Lib.ValueIdx
import Idealize.ShloMosaic.Lib.ValueLayout
import Idealize.ShloMosaic.Lib.Pipeline.Value

noncomputable section

namespace Cert.KernelIdeal.Layout

open Cert.KernelIdeal
open Idealize.ShloMosaic Idealize.ShloMosaic.ValueIdx

variable {α : Type}

theorem w1a_apply (a1 : S64x128.Idx → α) (hs : S64x128.Slices ![0, 0] S64x64) (ht : S64x64.Transposes [1, 0] S64x64) (k j : Fin 64) :
    transpose S64x64 [1, 0] (extractStridedSlice S64x64 ![0, 0] a1 hs) ht (ix2 k j)
      = a1 (ix2 j (⟨k.val, by omega⟩ : Fin 128)) := by
  rw [transpose_ix2_apply]
  exact extractStridedSlice_apply _ a1 _ _ _ fun a => match a with | ⟨0, _⟩ => by simp [ix2] | ⟨1, _⟩ => by simp [ix2]

theorem w1b_apply (a1 : S64x128.Idx → α) (hs : S64x128.Slices ![0, 64] S64x64) (ht : S64x64.Transposes [1, 0] S64x64) (k j : Fin 64) :
    transpose S64x64 [1, 0] (extractStridedSlice S64x64 ![0, 64] a1 hs) ht (ix2 k j)
      = a1 (ix2 j (⟨64 + k.val, by omega⟩ : Fin 128)) := by
  rw [transpose_ix2_apply]
  exact extractStridedSlice_apply _ a1 _ _ _ fun a => match a with | ⟨0, _⟩ => by simp [ix2] | ⟨1, _⟩ => by simp [ix2]

theorem w2_apply (a3 : S1x64.Idx → α) (ht : S1x64.Transposes [1, 0] S64x1) (j : Fin 64) :
    transpose S64x1 [1, 0] a3 ht (ix2 j (0 : Fin 1)) = a3 (ix2 (0 : Fin 1) j) :=
  transpose_ix2_apply a3 _ j 0

theorem b1_apply (a2 : S64.Idx → α) (h : S64.ShapeCasts S1x64) (j : Fin 64) :
    shapeCast S1x64 a2 h (ix2 (0 : Fin 1) j) = a2 (ix1 j) :=
  shapeCast_apply a2 _ _ _ (by rw [Shape.rowMajor_val_one, Shape.rowMajor_val_two]; simp [ix1, ix2])

theorem b2_apply (a4 : S1.Idx → α) (h : S1.ShapeCasts S1x1) :
    shapeCast S1x1 a4 h (ix2 (0 : Fin 1) (0 : Fin 1)) = a4 (ix1 (0 : Fin 1)) :=
  shapeCast_apply a4 _ _ _ (by rw [Shape.rowMajor_val_one, Shape.rowMajor_val_two]; simp [ix1, ix2])

theorem col_apply (a8 : S1000000.Idx → α) (h : S1000000.ShapeCasts S1000000x1) (e : Fin 1000000) :
    shapeCast S1000000x1 a8 h (ix2 e (0 : Fin 1)) = a8 (ix1 e) :=
  shapeCast_apply a8 _ _ _ (by rw [Shape.rowMajor_val_one, Shape.rowMajor_val_two]; simp [ix1, ix2])

theorem uncol_apply (o : S1000000x1.Idx → α) (h : S1000000x1.ShapeCasts S1000000) (e : Fin 1000000) :
    shapeCast S1000000 o h (ix1 e) = o (ix2 e (0 : Fin 1)) :=
  shapeCast_apply o _ _ _ (by rw [Shape.rowMajor_val_one, Shape.rowMajor_val_two]; simp [ix1, ix2])

end Cert.KernelIdeal.Layout

end
-- ==== Proof.RowIdeal.lean ====
/-
  The result's rows in terms of the launch arrays. When the region is entered each staged array is a layout of an
  argument: the two embedding arrays are the gathers of the table at the source and destination index rows, the two
  weight halves are the transposed column halves of the first layer's matrix, the second layer's column is its row
  transposed, the biases and the second sample column are reshaped vectors. Read by coordinates, row r of the result is
  the row function of row r of the two gathers, of the matrix entries, and of entry r of the two sample vectors; and
  the result column flattened is that function of the position.
-/
import proofs.«165509_j29300266893702_2_alg».proof.Proof.FinalIdeal
import proofs.«165509_j29300266893702_2_alg».proof.Proof.HostTermsIdeal
import proofs.«165509_j29300266893702_2_alg».proof.Proof.LayoutIdeal

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Row `r` of the result from the launch arrays: the embedding table `a0` gathered at the source and destination
    index rows of `a5`, the first layer's matrix `a1` (hidden unit `j`, input coordinate `k` or `64 + k`), its bias
    `a2`, the second layer's row `a3` and bias `a4`, and entry `r` of the two sample arrays `a7`, `a8`. -/
def rowL (a0 : FVec Ideal S300000x64 .f32) (a1 : FVec Ideal S64x128 .f32) (a2 : FVec Ideal S64 .f32)
    (a3 : FVec Ideal S1x64 .f32) (a4 : FVec Ideal S1 .f32) (a5 : IVec S2x1000000 32)
    (a7 : FVec Ideal S1000000x1 .f32) (a8 : FVec Ideal S1000000 .f32) (r : Fin 1000000) : EReal :=
  Cert.GateSpec.rowfn (fun k => embOf a0 (srcOf a5) (ix2 r k)) (fun k => embOf a0 (dstOf a5) (ix2 r k))
    (fun k j => a1 (ix2 j (⟨k.val, by omega⟩ : Fin 128))) (fun k j => a1 (ix2 j (⟨64 + k.val, by omega⟩ : Fin 128)))
    (fun j => a2 (ix1 j)) (fun j => a3 (ix2 (0 : Fin 1) j)) (a4 (ix1 (0 : Fin 1)))
    (a7 (ix2 r (0 : Fin 1))) (a8 (ix1 r))

/-- `rowL` over the staged layouts of the arguments: the two transposed column halves of the matrix, the transposed
    row, the reshaped vectors, read by coordinates. -/
theorem rowL_eq (a0 : FVec Ideal S300000x64 .f32) (a1 : FVec Ideal S64x128 .f32) (a2 : FVec Ideal S64 .f32)
    (a3 : FVec Ideal S1x64 .f32) (a4 : FVec Ideal S1 .f32) (a5 : IVec S2x1000000 32)
    (a7 : FVec Ideal S1000000x1 .f32) (a8 : FVec Ideal S1000000 .f32) (r : Fin 1000000) :
    Cert.GateSpec.rowfn (fun k => embOf a0 (srcOf a5) (ix2 r k)) (fun k => embOf a0 (dstOf a5) (ix2 r k))
        (fun k j => v20Of a1 (ix2 k j)) (fun k j => v21Of a1 (ix2 k j)) (fun j => v23Of a2 (ix2 (0 : Fin 1) j))
        (fun j => v22Of a3 (ix2 j (0 : Fin 1))) (v24Of a4 (ix2 (0 : Fin 1) (0 : Fin 1))) (a7 (ix2 r (0 : Fin 1)))
        (v25Of a8 (ix2 r (0 : Fin 1)))
      = rowL a0 a1 a2 a3 a4 a5 a7 a8 r := by
  have e3 : (fun k j => v20Of a1 (ix2 k j)) = fun (k j : Fin 64) => a1 (ix2 j (⟨k.val, by omega⟩ : Fin 128)) :=
    funext fun k => funext fun j => Layout.w1a_apply a1 _ _ k j
  have e4 : (fun k j => v21Of a1 (ix2 k j)) = fun (k j : Fin 64) => a1 (ix2 j (⟨64 + k.val, by omega⟩ : Fin 128)) :=
    funext fun k => funext fun j => Layout.w1b_apply a1 _ _ k j
  have e5 : (fun j => v23Of a2 (ix2 (0 : Fin 1) j)) = fun j : Fin 64 => a2 (ix1 j) :=
    funext fun j => Layout.b1_apply a2 _ j
  have e6 : (fun j => v22Of a3 (ix2 j (0 : Fin 1))) = fun j : Fin 64 => a3 (ix2 (0 : Fin 1) j) :=
    funext fun j => Layout.w2_apply a3 _ j
  have e7 : v24Of a4 (ix2 (0 : Fin 1) (0 : Fin 1)) = a4 (ix1 (0 : Fin 1)) := Layout.b2_apply a4 _
  have e8 : v25Of a8 (ix2 r (0 : Fin 1)) = a8 (ix1 r) := Layout.col_apply a8 _ r
  rw [e3, e4, e5, e6, e7, e8]
  rfl

/-- Row `r` of the result array is `rowL` of the launch contents of the arguments. -/
theorem rowK_launch (c : Dev nD) (r : Fin 1000000) :
    rowK m c r = rowL (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg7)) (m ((c : Thread nD τ).loc main_arg8)) r := by
  unfold rowK
  rw [V_v10, V_v17, V_v20, V_v21, V_v22, V_v23, V_v24, V_v25, V_main_arg7]
  exact rowL_eq _ _ _ _ _ _ _ _ r

/-- THE RESULT COLUMN FLATTENED, as the program hands it on: at position `e`, `rowL` of the launch arrays at row `e`. -/
theorem flatK (c : Dev nD) (h : S1000000x1.ShapeCasts S1000000) :
    shapeCast S1000000 ((dats m 0 c).arrAt 9 cfg0.N : S1000000x1.Idx → EReal) h
      = fun e => rowL (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7)) (m ((c : Thread nD τ).loc main_arg8))
          ⟨(e 0).val, (e 0).isLt⟩ := by
  rw [final9]
  funext e
  obtain ⟨q, rfl⟩ : ∃ q : Fin 1000000, e = ix1 q := ⟨e 0, eq_ix1 e⟩
  rw [Layout.uncol_apply]
  exact rowK_launch m c _

end Cert.KernelIdeal.Run

end
-- ==== Proof.RefTerms.lean ====
/- The reference program's results as pure terms of its argument arrays: each definition is the composed term of one
   buffer of @main, read off the operations in order (the value an operation writes is its function applied to the terms of
   the buffers it reads). RefRun.lean proves that the run ends with the buffers at these terms. -/
import proofs.«165509_j29300266893702_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The contents of a buffer of shape `s` and element type `e`. -/
abbrev Arr (F : FTy → Type) (s : Shape) (e : EltTy) : Type := (⟨s, e⟩ : BufTy).Contents (Elt F)

/-! The four concatenations of the program, named: two arrays side by side along the given axis. -/

/-- %18's: two blocks of 64 columns side by side. -/
def cat64 (a b : Arr F S1000000x64 .f32) : Arr F S1000000x128 .f32 :=
  concatenate S1000000x128 1 [⟨S1000000x64, a⟩, ⟨S1000000x64, b⟩] concatenates_S1000000x64_S1000000x64_S1000000x128_d1

/-- %72's and %75's: a million indices followed by a hundred thousand. -/
def catI (a : Arr F S1000000 .i32) (b : Arr F S100000 .i32) : Arr F S1100000 .i32 :=
  concatenate S1100000 0 [⟨S1000000, a⟩, ⟨S100000, b⟩] concatenates_S1000000_S100000_S1100000_d0

/-- %76's: a million values followed by a hundred thousand. -/
def catF (a : Arr F S1000000 .f32) (b : Arr F S100000 .f32) : Arr F S1100000 .f32 :=
  concatenate S1100000 0 [⟨S1000000, a⟩, ⟨S100000, b⟩] concatenates_S1000000_S100000_S1100000_d0

/-- %107's: one flag followed by 1099999. -/
def catFlag (a : Arr F S1 .i1) (b : Arr F S1099999 .i1) : Arr F S1100000 .i1 :=
  concatenate S1100000 0 [⟨S1, a⟩, ⟨S1099999, b⟩] concatenates_S1_S1099999_S1100000_d0

/-- %1: row 0 of the first index table, as a vector (the slice, reshaped). -/
def rows0 (a5 : Arr F S2x1000000 .i32) : Arr F S1000000 .i32 :=
  shapeCast S1000000 (extractStridedSlice S1x1000000 ![0, 0] a5 slices_S2x1000000_S1x1000000_0_0) shapeCasts_S1x1000000_S1000000

/-- %3: row 1 of the first index table. -/
def cols0 (a5 : Arr F S2x1000000 .i32) : Arr F S1000000 .i32 :=
  shapeCast S1000000 (extractStridedSlice S1x1000000 ![1, 0] a5 slices_S2x1000000_S1x1000000_1_0) shapeCasts_S1x1000000_S1000000

/-- %9 of %1 (and %16 of %3): a negative index counted from the end of the 300000 rows, then as a column of
    start indices. -/
def wrap300k (x : Arr F S1000000 .i32) : Arr F S1000000x1 .i32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 300000#32))) x)

/-- %29: the two gathered feature rows side by side, through the two dense layers (the first with @relu). -/
def logit (a0 : Arr F S300000x64 .f32) (a1 : Arr F S64x128 .f32) (a2 : Arr F S64 .f32) (a3 : Arr F S1x64 .f32) (a4 : Arr F S1 .f32)
    (a5 : Arr F S2x1000000 .i32) : Arr F S1000000x1 .f32 :=
  addf
    (Host.dotGeneral dot_S1000000x64_S64x1_S1000000x1_1_0_0_1_n_n none
      (maximumf
        (addf
          (Host.dotGeneral dot_S1000000x128_S128x64_S1000000x64_1_0_0_1_n_n none
            (cat64 (Host.gather gather_S300000x64_S1000000x1_S1000000x64_1_0_n_n_0_1_164 a0 (wrap300k (rows0 a5)))
              (Host.gather gather_S300000x64_S1000000x1_S1000000x64_1_0_n_n_0_1_164 a0 (wrap300k (cols0 a5))))
            (transpose S128x64 [1, 0] a1 transposes_S64x128_S128x64_1_0))
          (broadcastInDim S1000000x64 ![0, 1] bcast_S1x64_S1000000x64_0_1 (broadcastInDim S1x64 ![1] bcast_S64_S1x64_1 a2)))
        (broadcastInDim S1000000x64 ![] bcast_S_S1000000x64 (constant S_ .f32 0x00000000#32)))
      (transpose S64x1 [1, 0] a3 transposes_S1x64_S64x1_1_0))
    (broadcastInDim S1000000x1 ![0, 1] bcast_S1x1_S1000000x1_0_1 (broadcastInDim S1x1 ![1] bcast_S1_S1x1_1 a4))

/-- %33: the noise, scaled and shifted into the open unit interval. -/
def noise (a7 : Arr F S1000000x1 .f32) : Arr F S1000000x1 .f32 :=
  addf (mulf (broadcastInDim S1000000x1 ![] bcast_S_S1000000x1 (constant S_ .f32 0xBF7FF2E5#32)) a7)
    (broadcastInDim S1000000x1 ![] bcast_S_S1000000x1 (constant S_ .f32 0x3F7FF972#32))

/-- %46: the logistic of (the noise's logit plus %29), as a vector, clipped to [0.01, 0.99] (@clip). -/
def clipA (a0 : Arr F S300000x64 .f32) (a1 : Arr F S64x128 .f32) (a2 : Arr F S64 .f32) (a3 : Arr F S1x64 .f32) (a4 : Arr F S1 .f32)
    (a5 : Arr F S2x1000000 .i32) (a7 : Arr F S1000000x1 .f32) : Arr F S1000000 .f32 :=
  minimumf (broadcastInDim S1000000 ![] bcast_S_S1000000 (id (constant S_ .f32 0x3F7D70A4#32)))
    (maximumf (broadcastInDim S1000000 ![] bcast_S_S1000000 (id (constant S_ .f32 0x3C23D70A#32)))
      (shapeCast S1000000
        (Host.divf (broadcastInDim S1000000x1 ![] bcast_S_S1000000x1 (constant S_ .f32 0x3F800000#32))
          (addf (broadcastInDim S1000000x1 ![] bcast_S_S1000000x1 (constant S_ .f32 0x3F800000#32))
            (Host.exp (Host.negf
              (addf (subf (Host.log (noise a7)) (Host.log1p (Host.negf (noise a7)))) (logit a0 a1 a2 a3 a4 a5))))))
        shapeCasts_S1000000x1_S1000000))

/-- %47: the ninth argument clipped to [1e-7, 1 - 2⁻²³] (@clip_0). -/
def clipB (a8 : Arr F S1000000 .f32) : Arr F S1000000 .f32 :=
  minimumf (broadcastInDim S1000000 ![] bcast_S_S1000000 (id (constant S_ .f32 0x3F7FFFFE#32)))
    (maximumf (broadcastInDim S1000000 ![] bcast_S_S1000000 (id (constant S_ .f32 0x33D6BF95#32))) a8)

/-- %64 of %46 and %47: the logistic of (logit p + logit q) / 0.9. -/
def gate (p q : Arr F S1000000 .f32) : Arr F S1000000 .f32 :=
  Host.divf (broadcastInDim S1000000 ![] bcast_S_S1000000 (constant S_ .f32 0x3F800000#32))
    (addf (broadcastInDim S1000000 ![] bcast_S_S1000000 (constant S_ .f32 0x3F800000#32))
      (Host.exp (Host.negf
        (Host.divf
          (subf (addf (subf (Host.log p) (Host.log1p (Host.negf p))) (Host.log q)) (Host.log1p (Host.negf q)))
          (broadcastInDim S1000000 ![] bcast_S_S1000000 (constant S_ .f32 0x3F666666#32))))))

/-- %68 of %46 and %47: the gate times the indicator that it is positive. -/
def matOf (p q : Arr F S1000000 .f32) : Arr F S1000000 .f32 :=
  mulf (gate p q)
    (uitofp .f32 (cmpf .ogt (gate p q) (broadcastInDim S1000000 ![] bcast_S_S1000000 (constant S_ .f32 0x00000000#32))))

/-- %68 ('mat', before the sparse rebuild) of the arguments it reads. -/
def refMat (a0 : Arr F S300000x64 .f32) (a1 : Arr F S64x128 .f32) (a2 : Arr F S64 .f32) (a3 : Arr F S1x64 .f32) (a4 : Arr F S1 .f32)
    (a5 : Arr F S2x1000000 .i32) (a7 : Arr F S1000000x1 .f32) (a8 : Arr F S1000000 .f32) : FVec F S1000000 .f32 :=
  matOf (clipA a0 a1 a2 a3 a4 a5 a7) (clipB a8)

/-- %72 of %1: the first table's row 0 followed by the second table's row 0. -/
def allRows (r : Arr F S1000000 .i32) (a6 : Arr F S2x100000 .i32) : Arr F S1100000 .i32 :=
  catI r (shapeCast S100000 (extractStridedSlice S1x100000 ![0, 0] a6 slices_S2x100000_S1x100000_0_0) shapeCasts_S1x100000_S100000)

/-- %75 of %3: likewise the rows 1. -/
def allCols (s : Arr F S1000000 .i32) (a6 : Arr F S2x100000 .i32) : Arr F S1100000 .i32 :=
  catI s (shapeCast S100000 (extractStridedSlice S1x100000 ![1, 0] a6 slices_S2x100000_S1x100000_1_0) shapeCasts_S1x100000_S100000)

/-- %76 of %68: the matrix values followed by 100000 times 0.05. -/
def allVals (mat : Arr F S1000000 .f32) : Arr F S1100000 .f32 :=
  catF mat (broadcastInDim S100000 ![] bcast_S_S100000 (constant S_ .f32 0x3D4CCCCD#32))

/-- %82 of %77 (and %118 of %110): a negative index counted from the end of the 1100000 entries. -/
def wrapN (p : Arr F S1100000 .i32) : Arr F S1100000 .i32 :=
  select (cmpi .slt p (broadcastInDim S1100000 ![] bcast_S_S1100000 (constantI S_ 32 0#32)))
    (addi p (broadcastInDim S1100000 ![] bcast_S_S1100000 (constantI S_ 32 1100000#32))) p

/-- %96 (= %82 = %89) of %1, %3: @lexsort's permutation (the stable sort of the positions by row, then column), wrapped. -/
def sortedIdx (r s : Arr F S1000000 .i32) (a6 : Arr F S2x100000 .i32) : Arr F S1100000 .i32 :=
  wrapN (Host.sort3 S1100000 0 comparator_i32_i32_i32_d0 (allRows r a6) (allCols s a6) (iotaInDim S1100000 32 0)).2.2

/-- A vector of indices as a column of start indices (%83, %90, %97, %112, %119). -/
def asCol (p : Arr F S1100000 .i32) : Arr F S1100000x1 .i32 :=
  broadcastInDim S1100000x1 ![0] bcast_S1100000_S1100000x1_0 p

/-- %84 of %1, %3: the rows in sorted order. -/
def sortedRows (r s : Arr F S1000000 .i32) (a6 : Arr F S2x100000 .i32) : Arr F S1100000 .i32 :=
  Host.gather gather_S1100000_S1100000x1_S1100000_n_0_n_n_0_1_1 (allRows r a6) (asCol (sortedIdx r s a6))

/-- %91 of %1, %3: the columns in sorted order. -/
def sortedCols (r s : Arr F S1000000 .i32) (a6 : Arr F S2x100000 .i32) : Arr F S1100000 .i32 :=
  Host.gather gather_S1100000_S1100000x1_S1100000_n_0_n_n_0_1_1 (allCols s a6) (asCol (sortedIdx r s a6))

/-- %107 of %84, %91: entry 0, and every entry whose (row, column) differs from the entry before it. -/
def flags (R C : Arr F S1100000 .i32) : Arr F S1100000 .i1 :=
  catFlag (broadcastInDim S1 ![] bcast_S_S1 (constantI S_ 1 1#1))
    (ori
      (cmpi .ne (extractStridedSlice S1099999 ![1] R slices_S1100000_S1099999_1) (extractStridedSlice S1099999 ![0] R slices_S1100000_S1099999_0))
      (cmpi .ne (extractStridedSlice S1099999 ![1] C slices_S1100000_S1099999_1) (extractStridedSlice S1099999 ![0] C slices_S1100000_S1099999_0)))

/-- %110 of %107: the running count of flags (@cumsum: the window sum over all entries up to each), less one. -/
def segId (fl : Arr F S1100000 .i1) : Arr F S1100000 .i32 :=
  subi
    (Host.reduceWindow IntOp.addi ![1100000] ![1] ![1099999] ![0] (extui 32 fl natLt_1_32)
      (broadcastInDim S_ ![] bcast_S_S_ (constantI S_ 32 0#32)) reduceWindows_S1100000_S1100000_w1100000s1p1099999_0 h_S_)
    (broadcastInDim S1100000 ![] bcast_S_S1100000 (constantI S_ 32 1#32))

/-- %121 of %84, %91 and %98: the sorted values summed per segment (scatter-add at the segment numbers), read back
    at each entry's segment, kept where the entry starts a segment and 0 elsewhere (@_where). -/
def valsFrom (R C : Arr F S1100000 .i32) (sv : Arr F S1100000 .f32) : Arr F S1100000 .f32 :=
  select (flags R C)
    (Host.gather gather_S1100000_S1100000x1_S1100000_n_0_n_n_0_1_1
      (Host.scatterAdd scatter_S1100000_S1100000x1_S1100000_n_0_0_1
        (broadcastInDim S1100000 ![] bcast_S_S1100000 (constant S_ .f32 0x00000000#32)) (asCol (segId (flags R C))) sv)
      (asCol (wrapN (segId (flags R C)))))
    (broadcastInDim S1100000 ![] bcast_S_S1100000 (id (constant S_ .f32 0x00000000#32)))

/-- %84 of the arguments. -/
def tailRows (a5 : Arr F S2x1000000 .i32) (a6 : Arr F S2x100000 .i32) : IVec S1100000 32 :=
  sortedRows (rows0 a5) (cols0 a5) a6

/-- %91 of the arguments. -/
def tailCols (a5 : Arr F S2x1000000 .i32) (a6 : Arr F S2x100000 .i32) : IVec S1100000 32 :=
  sortedCols (rows0 a5) (cols0 a5) a6

/-- %121 of the arguments and %68. -/
def tailVals (a5 : Arr F S2x1000000 .i32) (a6 : Arr F S2x100000 .i32) (mat : FVec F S1000000 .f32) : FVec F S1100000 .f32 :=
  valsFrom (tailRows a5 a6) (tailCols a5 a6)
    (Host.gather gather_S1100000_S1100000x1_S1100000_n_0_n_n_0_1_1 (allVals mat) (asCol (sortedIdx (rows0 a5) (cols0 a5) a6)))

end Cert.ReferenceIdeal.RefRun

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.RowRef.lean ====
/-
  The reference's 'mat' vector read at an entry. The reference contracts the concatenated row [es | ed] of the two
  gathered embedding arrays against the whole transposed first-layer matrix, adds the bias row, rectifies, contracts
  with the transposed second-layer row, adds the scalar bias; then applies the gate in the host's spelling (the
  logistic function as 1 / (1 + exp(−x)), negations as negations, the indicator as a converted comparison). Read at
  entry e it is the host-spelt row function of row e, which is the row function of the two halves.
-/
import proofs.«165509_j29300266893702_2_alg».proof.Proof.RefTerms
import proofs.«165509_j29300266893702_2_alg».proof.Proof.GateSpec
import proofs.«165509_j29300266893702_2_alg».proof.Proof.LibPlainDot
import proofs.«165509_j29300266893702_2_alg».proof.Proof.LibConcatPair
import Idealize.ShloMosaic.Lib.ValueLayout
import Idealize.ShloMosaic.Lib.Pipeline.Value

set_option maxRecDepth 16384

noncomputable section

namespace Cert.RowRef

open Cert.ReferenceIdeal Cert.ReferenceIdeal.Gen Cert.ReferenceIdeal.RefRun
open Idealize.ShloMosaic Idealize.ShloMosaic.ValueIdx
open scoped BigOperators

/-! ## Layout operations of the reference read by coordinates -/

section Layouts
variable {α : Type}

/-- A column of a million entries flattened reads, at `e`, the column at `(e, 0)`. -/
theorem uncol_apply (o : S1000000x1.Idx → α) (h : S1000000x1.ShapeCasts S1000000) (e : Fin 1000000) :
    shapeCast S1000000 o h (ix1 e) = o (ix2 e (0 : Fin 1)) :=
  shapeCast_apply o _ _ _ (by rw [Shape.rowMajor_val_one, Shape.rowMajor_val_two]; simp [ix1, ix2])

/-- A 64-vector broadcast to one row and then down a million rows reads, at `(e, j)`, entry `j`. -/
theorem bias_row_apply (a2 : S64.Idx → α) (h1 : S64.BroadcastsInDim S1x64 ![1]) (h2 : S1x64.BroadcastsInDim S1000000x64 ![0, 1])
    (e : Fin 1000000) (j : Fin 64) :
    broadcastInDim S1000000x64 ![0, 1] h2 (broadcastInDim S1x64 ![1] h1 a2) (ix2 e j) = a2 (ix1 j) := by
  refine (broadcastInDim_apply _ h2 _ (ix2 e j) (ix2 (0 : Fin 1) j) (fun a => ?_)).trans
    (broadcastInDim_apply _ h1 a2 (ix2 (0 : Fin 1) j) (ix1 j) (fun a => ?_))
  · match a with
    | ⟨0, _⟩ => rfl
    | ⟨1, _⟩ => rfl
  · match a with
    | ⟨0, _⟩ => rfl

/-- A 1-vector broadcast to one cell and then down a million rows reads its entry. -/
theorem bias_one_apply (a4 : S1.Idx → α) (h1 : S1.BroadcastsInDim S1x1 ![1]) (h2 : S1x1.BroadcastsInDim S1000000x1 ![0, 1])
    (e : Fin 1000000) :
    broadcastInDim S1000000x1 ![0, 1] h2 (broadcastInDim S1x1 ![1] h1 a4) (ix2 e (0 : Fin 1)) = a4 (ix1 (0 : Fin 1)) := by
  refine (broadcastInDim_apply _ h2 _ (ix2 e (0 : Fin 1)) (ix2 (0 : Fin 1) (0 : Fin 1)) (fun a => ?_)).trans
    (broadcastInDim_apply _ h1 a4 (ix2 (0 : Fin 1) (0 : Fin 1)) (ix1 (0 : Fin 1)) (fun a => ?_))
  · match a with
    | ⟨0, _⟩ => rfl
    | ⟨1, _⟩ => rfl
  · match a with
    | ⟨0, _⟩ => rfl

end Layouts

/-! ## The pointwise layers -/

/-- The second clip at an entry. -/
theorem clipB_apply (a8 : Arr Ideal S1000000 .f32) (i : S1000000.Idx) :
    clipB (F := Ideal) a8 i = Cert.GateSpec.unif (a8 i) := rfl

/-- The sample times its indicator at an entry, from the two clipped vectors' entries. -/
theorem matOf_apply (p q : Arr Ideal S1000000 .f32) (i : S1000000.Idx) :
    matOf (F := Ideal) p q i
      = (fun s : EReal => s * Cert.GateSpec.hostMask s)
          (Cert.GateSpec.hostSigmoid (Ideal.div
            (Cert.GateSpec.hostLogOdds (p i) + Ideal.log (q i) - Ideal.log1p (-(q i))) (Ideal.ofBits .f32 0x3F666666#32))) := rfl

/-- The first clip at an entry: the host-spelt clipped edge weight of the logit and the noise sample there. -/
theorem clipA_apply (a0 : Arr Ideal S300000x64 .f32) (a1 : Arr Ideal S64x128 .f32) (a2 : Arr Ideal S64 .f32)
    (a3 : Arr Ideal S1x64 .f32) (a4 : Arr Ideal S1 .f32) (a5 : Arr Ideal S2x1000000 .i32) (a7 : Arr Ideal S1000000x1 .f32)
    (e : Fin 1000000) :
    clipA (F := Ideal) a0 a1 a2 a3 a4 a5 a7 (ix1 e)
      = Cert.GateSpec.hostAtt (RefRun.logit (F := Ideal) a0 a1 a2 a3 a4 a5 (ix2 e (0 : Fin 1))) (a7 (ix2 e (0 : Fin 1))) := by
  unfold clipA
  show min _ (max _ (shapeCast S1000000 _ shapeCasts_S1000000x1_S1000000 (ix1 e))) = _
  rw [uncol_apply]
  rfl

/-- The gathered source and destination rows, as the reference spells them. -/
abbrev gSrc (a0 : Arr Ideal S300000x64 .f32) (a5 : Arr Ideal S2x1000000 .i32) : Arr Ideal S1000000x64 .f32 :=
  Host.gather gather_S300000x64_S1000000x1_S1000000x64_1_0_n_n_0_1_164 a0 (wrap300k (F := Ideal) (rows0 (F := Ideal) a5))
abbrev gDst (a0 : Arr Ideal S300000x64 .f32) (a5 : Arr Ideal S2x1000000 .i32) : Arr Ideal S1000000x64 .f32 :=
  Host.gather gather_S300000x64_S1000000x1_S1000000x64_1_0_n_n_0_1_164 a0 (wrap300k (F := Ideal) (cols0 (F := Ideal) a5))

/-- The logit at row `e`: the host-spelt logit of the concatenated row and the transposed matrix read by coordinates. -/
theorem logit_apply (a0 : Arr Ideal S300000x64 .f32) (a1 : Arr Ideal S64x128 .f32) (a2 : Arr Ideal S64 .f32)
    (a3 : Arr Ideal S1x64 .f32) (a4 : Arr Ideal S1 .f32) (a5 : Arr Ideal S2x1000000 .i32) (e : Fin 1000000) :
    RefRun.logit (F := Ideal) a0 a1 a2 a3 a4 a5 (ix2 e (0 : Fin 1))
      = Cert.GateSpec.hostLogit (fun c => cat64 (F := Ideal) (gSrc a0 a5) (gDst a0 a5) (ix2 e c)) (fun c j => a1 (ix2 j c))
          (fun j => a2 (ix1 j)) (fun j => a3 (ix2 (0 : Fin 1) j)) (a4 (ix1 (0 : Fin 1))) := by
  unfold RefRun.logit Cert.GateSpec.hostLogit
  show (Host.dotGeneral (F := Ideal) dot_S1000000x64_S64x1_S1000000x1_1_0_0_1_n_n none _ _ (ix2 e (0 : Fin 1)) : EReal)
      + broadcastInDim S1000000x1 ![0, 1] bcast_S1x1_S1000000x1_0_1 (broadcastInDim S1x1 ![1] bcast_S1_S1x1_1 a4) (ix2 e (0 : Fin 1)) = _
  rw [PlainDot.hostDot_apply dot_S1000000x64_S64x1_S1000000x1_1_0_0_1_n_n rfl, bias_one_apply]
  refine congrArg (· + a4 (ix1 (0 : Fin 1))) (Finset.sum_congr rfl fun j _ => ?_)
  show max ((Host.dotGeneral (F := Ideal) dot_S1000000x128_S128x64_S1000000x64_1_0_0_1_n_n none _ _ (ix2 e j) : EReal)
        + broadcastInDim S1000000x64 ![0, 1] bcast_S1x64_S1000000x64_0_1 (broadcastInDim S1x64 ![1] bcast_S64_S1x64_1 a2) (ix2 e j))
        (Ideal.ofBits .f32 0x00000000#32)
      * transpose S64x1 [1, 0] a3 transposes_S1x64_S64x1_1_0 (ix2 j (0 : Fin 1)) = _
  rw [PlainDot.hostDot_apply dot_S1000000x128_S128x64_S1000000x64_1_0_0_1_n_n rfl, bias_row_apply, transpose_ix2_apply]
  refine congrArg (fun x => max (x + a2 (ix1 j)) (Ideal.ofBits .f32 0x00000000#32) * a3 (ix2 (0 : Fin 1) j))
    (Finset.sum_congr rfl fun c _ => ?_)
  show _ * transpose S128x64 [1, 0] a1 transposes_S64x128_S128x64_1_0 (ix2 c j) = _
  rw [transpose_ix2_apply]

/-- THE REFERENCE'S 'mat' AT ENTRY `e`: the row function of row `e` of the two gathered arrays, of the matrix entries
    and of entry `e` of the two sample arrays. -/
theorem refMat_apply (a0 : Arr Ideal S300000x64 .f32) (a1 : Arr Ideal S64x128 .f32) (a2 : Arr Ideal S64 .f32)
    (a3 : Arr Ideal S1x64 .f32) (a4 : Arr Ideal S1 .f32) (a5 : Arr Ideal S2x1000000 .i32) (a7 : Arr Ideal S1000000x1 .f32)
    (a8 : Arr Ideal S1000000 .f32) (e : Fin 1000000) :
    refMat (F := Ideal) a0 a1 a2 a3 a4 a5 a7 a8 (ix1 e)
      = Cert.GateSpec.rowfn (fun k => gSrc a0 a5 (ix2 e k)) (fun k => gDst a0 a5 (ix2 e k))
          (fun k j => a1 (ix2 j (⟨k.val, by omega⟩ : Fin 128))) (fun k j => a1 (ix2 j (⟨64 + k.val, by omega⟩ : Fin 128)))
          (fun j => a2 (ix1 j)) (fun j => a3 (ix2 (0 : Fin 1) j)) (a4 (ix1 (0 : Fin 1)))
          (a7 (ix2 e (0 : Fin 1))) (a8 (ix1 e)) := by
  unfold refMat
  rw [matOf_apply, clipA_apply, clipB_apply, logit_apply]
  have hrow : Cert.GateSpec.hostRow (fun c => cat64 (F := Ideal) (gSrc a0 a5) (gDst a0 a5) (ix2 e c)) (fun c j => a1 (ix2 j c))
      (fun j => a2 (ix1 j)) (fun j => a3 (ix2 (0 : Fin 1) j)) (a4 (ix1 (0 : Fin 1))) (a7 (ix2 e (0 : Fin 1))) (a8 (ix1 e))
      = _ := Cert.GateSpec.hostRow_eq _ _ _ _ _ _ _
  have e1 : (fun k : Fin 64 => cat64 (F := Ideal) (gSrc a0 a5) (gDst a0 a5) (ix2 e (⟨k.val, by omega⟩ : Fin 128)))
      = fun k => gSrc a0 a5 (ix2 e k) :=
    funext fun k => ConcatPair.cols_fst _ _ _ e k _
  have e2 : (fun k : Fin 64 => cat64 (F := Ideal) (gSrc a0 a5) (gDst a0 a5) (ix2 e (⟨64 + k.val, by omega⟩ : Fin 128)))
      = fun k => gDst a0 a5 (ix2 e k) :=
    funext fun k => ConcatPair.cols_snd _ _ _ e k _
  rw [e1, e2] at hrow
  exact hrow

end Cert.RowRef

end
-- ==== Proof.RefOps.lean ====
/- The reference program's host operations as list literals, one per window of @main (a window cut again after the
   operation that writes a named buffer): each entry is the printed operation's term, a call's entries its callee's
   operations over the call's own buffers; and per window the list of the buffers its operations write. Tables only:
   every statement about them is in RefRun.lean. -/
import proofs.«165509_j29300266893702_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 72 of 171. -/
abbrev ops0 : List (HloOp τ sig (Elt F)) :=
  [ StableHlo.unary main_arg5 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg5 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 300000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S300000x64_S1000000x1_S1000000x64_1_0_n_n_0_1_164 x i) : (⟨S300000x64, .f32⟩ : BufTy).Contents (Elt F) → (⟨S1000000x1, .i32⟩ : BufTy).Contents (Elt F) → (⟨S1000000x64, .f32⟩ : BufTy).Contents (Elt F)),
    StableHlo.nullary main_c_1 (constantI S_ 32 0#32),
    StableHlo.unary main_c_1 main_v11 (broadcastInDim S1000000 ![] bcast_S_S1000000 : (⟨S_, .i32⟩ : BufTy).Contents (Elt F) → (⟨S1000000, .i32⟩ : BufTy).Contents (Elt F)),
    StableHlo.binary main_v3 main_v11 main_v12 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 300000#32),
    StableHlo.unary main_c_2 main_v13 (broadcastInDim S1000000 ![] bcast_S_S1000000 : (⟨S_, .i32⟩ : BufTy).Contents (Elt F) → (⟨S1000000, .i32⟩ : BufTy).Contents (Elt F)),
    StableHlo.binary main_v3 main_v13 main_v14 (addi : (⟨S1000000, .i32⟩ : BufTy).Contents (Elt F) → (⟨S1000000, .i32⟩ : BufTy).Contents (Elt F) → (⟨S1000000, .i32⟩ : BufTy).Contents (Elt F)),
    StableHlo.ternary main_v12 main_v14 main_v3 main_v15 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v15 main_v16 (broadcastInDim S1000000x1 ![0] bcast_S1000000_S1000000x1_0 : (⟨S1000000, .i32⟩ : BufTy).Contents (Elt F) → (⟨S1000000x1, .i32⟩ : BufTy).Contents (Elt F)),
    StableHlo.binary main_arg0 main_v16 main_v17 ((fun x i => Host.gather gather_S300000x64_S1000000x1_S1000000x64_1_0_n_n_0_1_164 x i) : (⟨S300000x64, .f32⟩ : BufTy).Contents (Elt F) → (⟨S1000000x1, .i32⟩ : BufTy).Contents (Elt F) → (⟨S1000000x64, .f32⟩ : BufTy).Contents (Elt F)),
    StableHlo.binary main_v10 main_v17 main_v18 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    StableHlo.unary main_arg1 main_v19 ((transpose S128x64 [1, 0] · transposes_S64x128_S128x64_1_0) : (⟨S64x128, .f32⟩ : BufTy).Contents (Elt F) → (⟨S128x64, .f32⟩ : BufTy).Contents (Elt F)),
    StableHlo.binary main_v18 main_v19 main_v20 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    StableHlo.unary main_arg2 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1000000x64 ![0, 1] bcast_S1x64_S1000000x64_0_1 : (⟨S1x64, .f32⟩ : BufTy).Contents (Elt F) → (⟨S1000000x64, .f32⟩ : BufTy).Contents (Elt F)),
    StableHlo.binary main_v20 main_v22 main_v23 (addf : (⟨S1000000x64, .f32⟩ : BufTy).Contents (Elt F) → (⟨S1000000x64, .f32⟩ : BufTy).Contents (Elt F) → (⟨S1000000x64, .f32⟩ : BufTy).Contents (Elt F)),
    StableHlo.nullary main_call0_cst (constant S_ .f32 0x00000000#32),
    StableHlo.unary main_call0_cst main_call0_v0 ((broadcastInDim S1000000x64 ![] bcast_S_S1000000x64) : (⟨S_, .f32⟩ : BufTy).Contents (Elt F) → (⟨S1000000x64, .f32⟩ : BufTy).Contents (Elt F)),
    StableHlo.binary main_v23 main_call0_v0 main_v24 (maximumf : (⟨S1000000x64, .f32⟩ : BufTy).Contents (Elt F) → (⟨S1000000x64, .f32⟩ : BufTy).Contents (Elt F) → (⟨S1000000x64, .f32⟩ : BufTy).Contents (Elt F)),
    StableHlo.unary main_arg3 main_v25 ((transpose S64x1 [1, 0] · transposes_S1x64_S64x1_1_0) : (⟨S1x64, .f32⟩ : BufTy).Contents (Elt F) → (⟨S64x1, .f32⟩ : BufTy).Contents (Elt F)),
    StableHlo.binary main_v24 main_v25 main_v26 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    StableHlo.unary main_arg4 main_v27 (broadcastInDim S1x1 ![1] bcast_S1_S1x1_1 : (⟨S1, .f32⟩ : BufTy).Contents (Elt F) → (⟨S1x1, .f32⟩ : BufTy).Contents (Elt F)),
    StableHlo.unary main_v27 main_v28 (broadcastInDim S1000000x1 ![0, 1] bcast_S1x1_S1000000x1_0_1 : (⟨S1x1, .f32⟩ : BufTy).Contents (Elt F) → (⟨S1000000x1, .f32⟩ : BufTy).Contents (Elt F)),
    StableHlo.binary main_v26 main_v28 main_v29 (addf : (⟨S1000000x1, .f32⟩ : BufTy).Contents (Elt F) → (⟨S1000000x1, .f32⟩ : BufTy).Contents (Elt F) → (⟨S1000000x1, .f32⟩ : BufTy).Contents (Elt F)),
    StableHlo.nullary main_cst (constant S_ .f32 0xBF7FF2E5#32),
    StableHlo.unary main_cst main_v30 (broadcastInDim S1000000x1 ![] bcast_S_S1000000x1 : (⟨S_, .f32⟩ : BufTy).Contents (Elt F) → (⟨S1000000x1, .f32⟩ : BufTy).Contents (Elt F)),
    StableHlo.binary main_v30 main_arg7 main_v31 (mulf : (⟨S1000000x1, .f32⟩ : BufTy).Contents (Elt F) → (⟨S1000000x1, .f32⟩ : BufTy).Contents (Elt F) → (⟨S1000000x1, .f32⟩ : BufTy).Contents (Elt F)),
    StableHlo.nullary main_cst_3 (constant S_ .f32 0x3F7FF972#32),
    StableHlo.unary main_cst_3 main_v32 (broadcastInDim S1000000x1 ![] bcast_S_S1000000x1 : (⟨S_, .f32⟩ : BufTy).Contents (Elt F) → (⟨S1000000x1, .f32⟩ : BufTy).Contents (Elt F)),
    StableHlo.binary main_v31 main_v32 main_v33 (addf : (⟨S1000000x1, .f32⟩ : BufTy).Contents (Elt F) → (⟨S1000000x1, .f32⟩ : BufTy).Contents (Elt F) → (⟨S1000000x1, .f32⟩ : BufTy).Contents (Elt F)),
    StableHlo.unary main_v33 main_v34 (Host.log : (⟨S1000000x1, .f32⟩ : BufTy).Contents (Elt F) → (⟨S1000000x1, .f32⟩ : BufTy).Contents (Elt F)),
    StableHlo.unary main_v33 main_v35 (Host.negf : (⟨S1000000x1, .f32⟩ : BufTy).Contents (Elt F) → (⟨S1000000x1, .f32⟩ : BufTy).Contents (Elt F)),
    StableHlo.unary main_v35 main_v36 (Host.log1p : (⟨S1000000x1, .f32⟩ : BufTy).Contents (Elt F) → (⟨S1000000x1, .f32⟩ : BufTy).Contents (Elt F)),
    StableHlo.binary main_v34 main_v36 main_v37 (subf : (⟨S1000000x1, .f32⟩ : BufTy).Contents (Elt F) → (⟨S1000000x1, .f32⟩ : BufTy).Contents (Elt F) → (⟨S1000000x1, .f32⟩ : BufTy).Contents (Elt F)),
    StableHlo.binary main_v37 main_v29 main_v38 (addf : (⟨S1000000x1, .f32⟩ : BufTy).Contents (Elt F) → (⟨S1000000x1, .f32⟩ : BufTy).Contents (Elt F) → (⟨S1000000x1, .f32⟩ : BufTy).Contents (Elt F)),
    StableHlo.unary main_v38 main_v39 (Host.negf : (⟨S1000000x1, .f32⟩ : BufTy).Contents (Elt F) → (⟨S1000000x1, .f32⟩ : BufTy).Contents (Elt F)),
    StableHlo.unary main_v39 main_v40 (Host.exp : (⟨S1000000x1, .f32⟩ : BufTy).Contents (Elt F) → (⟨S1000000x1, .f32⟩ : BufTy).Contents (Elt F)),
    StableHlo.nullary main_cst_4 (constant S_ .f32 0x3F800000#32),
    StableHlo.unary main_cst_4 main_v41 (broadcastInDim S1000000x1 ![] bcast_S_S1000000x1 : (⟨S_, .f32⟩ : BufTy).Contents (Elt F) → (⟨S1000000x1, .f32⟩ : BufTy).Contents (Elt F)),
    StableHlo.binary main_v41 main_v40 main_v42 (addf : (⟨S1000000x1, .f32⟩ : BufTy).Contents (Elt F) → (⟨S1000000x1, .f32⟩ : BufTy).Contents (Elt F) → (⟨S1000000x1, .f32⟩ : BufTy).Contents (Elt F)),
    StableHlo.nullary main_cst_5 (constant S_ .f32 0x3F800000#32),
    StableHlo.unary main_cst_5 main_v43 (broadcastInDim S1000000x1 ![] bcast_S_S1000000x1 : (⟨S_, .f32⟩ : BufTy).Contents (Elt F) → (⟨S1000000x1, .f32⟩ : BufTy).Contents (Elt F)),
    StableHlo.binary main_v43 main_v42 main_v44 (Host.divf : (⟨S1000000x1, .f32⟩ : BufTy).Contents (Elt F) → (⟨S1000000x1, .f32⟩ : BufTy).Contents (Elt F) → (⟨S1000000x1, .f32⟩ : BufTy).Contents (Elt F)),
    StableHlo.reshape main_v44 main_v45 rfl shapeCasts_S1000000x1_S1000000,
    StableHlo.nullary main_cst_6 (constant S_ .f32 0x3C23D70A#32),
    StableHlo.nullary main_cst_7 (constant S_ .f32 0x3F7D70A4#32),
    StableHlo.unary main_cst_6 main_call1_v0 (id : (⟨S_, .f32⟩ : BufTy).Contents (Elt F) → (⟨S_, .f32⟩ : BufTy).Contents (Elt F)),
    StableHlo.unary main_call1_v0 main_call1_v1 ((broadcastInDim S1000000 ![] bcast_S_S1000000) : (⟨S_, .f32⟩ : BufTy).Contents (Elt F) → (⟨S1000000, .f32⟩ : BufTy).Contents (Elt F)),
    StableHlo.binary main_call1_v1 main_v45 main_call1_v2 (maximumf : (⟨S1000000, .f32⟩ : BufTy).Contents (Elt F) → (⟨S1000000, .f32⟩ : BufTy).Contents (Elt F) → (⟨S1000000, .f32⟩ : BufTy).Contents (Elt F)),
    StableHlo.unary main_cst_7 main_call1_v3 (id : (⟨S_, .f32⟩ : BufTy).Contents (Elt F) → (⟨S_, .f32⟩ : BufTy).Contents (Elt F)),
    StableHlo.unary main_call1_v3 main_call1_v4 ((broadcastInDim S1000000 ![] bcast_S_S1000000) : (⟨S_, .f32⟩ : BufTy).Contents (Elt F) → (⟨S1000000, .f32⟩ : BufTy).Contents (Elt F)),
    StableHlo.binary main_call1_v4 main_call1_v2 main_v46 (minimumf : (⟨S1000000, .f32⟩ : BufTy).Contents (Elt F) → (⟨S1000000, .f32⟩ : BufTy).Contents (Elt F) → (⟨S1000000, .f32⟩ : BufTy).Contents (Elt F)),
    StableHlo.nullary main_cst_8 (constant S_ .f32 0x33D6BF95#32),
    StableHlo.nullary main_cst_9 (constant S_ .f32 0x3F7FFFFE#32),
    StableHlo.unary main_cst_8 main_call2_v0 (id : (⟨S_, .f32⟩ : BufTy).Contents (Elt F) → (⟨S_, .f32⟩ : BufTy).Contents (Elt F)),
    StableHlo.unary main_call2_v0 main_call2_v1 ((broadcastInDim S1000000 ![] bcast_S_S1000000) : (⟨S_, .f32⟩ : BufTy).Contents (Elt F) → (⟨S1000000, .f32⟩ : BufTy).Contents (Elt F)),
    StableHlo.binary main_call2_v1 main_arg8 main_call2_v2 (maximumf : (⟨S1000000, .f32⟩ : BufTy).Contents (Elt F) → (⟨S1000000, .f32⟩ : BufTy).Contents (Elt F) → (⟨S1000000, .f32⟩ : BufTy).Contents (Elt F)),
    StableHlo.unary main_cst_9 main_call2_v3 (id : (⟨S_, .f32⟩ : BufTy).Contents (Elt F) → (⟨S_, .f32⟩ : BufTy).Contents (Elt F)),
    StableHlo.unary main_call2_v3 main_call2_v4 ((broadcastInDim S1000000 ![] bcast_S_S1000000) : (⟨S_, .f32⟩ : BufTy).Contents (Elt F) → (⟨S1000000, .f32⟩ : BufTy).Contents (Elt F)),
    StableHlo.binary main_call2_v4 main_call2_v2 main_v47 (minimumf : (⟨S1000000, .f32⟩ : BufTy).Contents (Elt F) → (⟨S1000000, .f32⟩ : BufTy).Contents (Elt F) → (⟨S1000000, .f32⟩ : BufTy).Contents (Elt F)) ]

/-- The buffers that operations 1 … 72 write, in order. -/
abbrev ops0_W : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_v23, main_call0_cst, main_call0_v0, main_v24, main_v25, main_v26, main_v27, main_v28, main_v29, main_cst, main_v30, main_v31, main_cst_3, main_v32, main_v33, main_v34, main_v35, main_v36, main_v37, main_v38, main_v39, main_v40, main_cst_4, main_v41, main_v42, main_cst_5, main_v43, main_v44, main_v45, main_cst_6, main_cst_7, main_call1_v0, main_call1_v1, main_call1_v2, main_call1_v3, main_call1_v4, main_v46, main_cst_8, main_cst_9, main_call2_v0, main_call2_v1, main_call2_v2, main_call2_v3, main_call2_v4, main_v47]

/-- Operations 73 … 97 of 171. -/
abbrev ops1a : List (HloOp τ sig (Elt F)) :=
  [ StableHlo.unary main_v46 main_v48 (Host.log : (⟨S1000000, .f32⟩ : BufTy).Contents (Elt F) → (⟨S1000000, .f32⟩ : BufTy).Contents (Elt F)),
    StableHlo.unary main_v46 main_v49 (Host.negf : (⟨S1000000, .f32⟩ : BufTy).Contents (Elt F) → (⟨S1000000, .f32⟩ : BufTy).Contents (Elt F)),
    StableHlo.unary main_v49 main_v50 (Host.log1p : (⟨S1000000, .f32⟩ : BufTy).Contents (Elt F) → (⟨S1000000, .f32⟩ : BufTy).Contents (Elt F)),
    StableHlo.binary main_v48 main_v50 main_v51 (subf : (⟨S1000000, .f32⟩ : BufTy).Contents (Elt F) → (⟨S1000000, .f32⟩ : BufTy).Contents (Elt F) → (⟨S1000000, .f32⟩ : BufTy).Contents (Elt F)),
    StableHlo.unary main_v47 main_v52 (Host.log : (⟨S1000000, .f32⟩ : BufTy).Contents (Elt F) → (⟨S1000000, .f32⟩ : BufTy).Contents (Elt F)),
    StableHlo.binary main_v51 main_v52 main_v53 (addf : (⟨S1000000, .f32⟩ : BufTy).Contents (Elt F) → (⟨S1000000, .f32⟩ : BufTy).Contents (Elt F) → (⟨S1000000, .f32⟩ : BufTy).Contents (Elt F)),
    StableHlo.unary main_v47 main_v54 (Host.negf : (⟨S1000000, .f32⟩ : BufTy).Contents (Elt F) → (⟨S1000000, .f32⟩ : BufTy).Contents (Elt F)),
    StableHlo.unary main_v54 main_v55 (Host.log1p : (⟨S1000000, .f32⟩ : BufTy).Contents (Elt F) → (⟨S1000000, .f32⟩ : BufTy).Contents (Elt F)),
    StableHlo.binary main_v53 main_v55 main_v56 (subf : (⟨S1000000, .f32⟩ : BufTy).Contents (Elt F) → (⟨S1000000, .f32⟩ : BufTy).Contents (Elt F) → (⟨S1000000, .f32⟩ : BufTy).Contents (Elt F)),
    StableHlo.nullary main_cst_10 (constant S_ .f32 0x3F666666#32),
    StableHlo.unary main_cst_10 main_v57 (broadcastInDim S1000000 ![] bcast_S_S1000000 : (⟨S_, .f32⟩ : BufTy).Contents (Elt F) → (⟨S1000000, .f32⟩ : BufTy).Contents (Elt F)),
    StableHlo.binary main_v56 main_v57 main_v58 (Host.divf : (⟨S1000000, .f32⟩ : BufTy).Contents (Elt F) → (⟨S1000000, .f32⟩ : BufTy).Contents (Elt F) → (⟨S1000000, .f32⟩ : BufTy).Contents (Elt F)),
    StableHlo.unary main_v58 main_v59 (Host.negf : (⟨S1000000, .f32⟩ : BufTy).Contents (Elt F) → (⟨S1000000, .f32⟩ : BufTy).Contents (Elt F)),
    StableHlo.unary main_v59 main_v60 (Host.exp : (⟨S1000000, .f32⟩ : BufTy).Contents (Elt F) → (⟨S1000000, .f32⟩ : BufTy).Contents (Elt F)),
    StableHlo.nullary main_cst_11 (constant S_ .f32 0x3F800000#32),
    StableHlo.unary main_cst_11 main_v61 (broadcastInDim S1000000 ![] bcast_S_S1000000 : (⟨S_, .f32⟩ : BufTy).Contents (Elt F) → (⟨S1000000, .f32⟩ : BufTy).Contents (Elt F)),
    StableHlo.binary main_v61 main_v60 main_v62 (addf : (⟨S1000000, .f32⟩ : BufTy).Contents (Elt F) → (⟨S1000000, .f32⟩ : BufTy).Contents (Elt F) → (⟨S1000000, .f32⟩ : BufTy).Contents (Elt F)),
    StableHlo.nullary main_cst_12 (constant S_ .f32 0x3F800000#32),
    StableHlo.unary main_cst_12 main_v63 (broadcastInDim S1000000 ![] bcast_S_S1000000 : (⟨S_, .f32⟩ : BufTy).Contents (Elt F) → (⟨S1000000, .f32⟩ : BufTy).Contents (Elt F)),
    StableHlo.binary main_v63 main_v62 main_v64 (Host.divf : (⟨S1000000, .f32⟩ : BufTy).Contents (Elt F) → (⟨S1000000, .f32⟩ : BufTy).Contents (Elt F) → (⟨S1000000, .f32⟩ : BufTy).Contents (Elt F)),
    StableHlo.nullary main_cst_13 (constant S_ .f32 0x00000000#32),
    StableHlo.unary main_cst_13 main_v65 (broadcastInDim S1000000 ![] bcast_S_S1000000 : (⟨S_, .f32⟩ : BufTy).Contents (Elt F) → (⟨S1000000, .f32⟩ : BufTy).Contents (Elt F)),
    StableHlo.binary main_v64 main_v65 main_v66 (cmpf .ogt : (⟨S1000000, .f32⟩ : BufTy).Contents (Elt F) → (⟨S1000000, .f32⟩ : BufTy).Contents (Elt F) → (⟨S1000000, .i1⟩ : BufTy).Contents (Elt F)),
    StableHlo.unary main_v66 main_v67 (uitofp .f32 : (⟨S1000000, .i1⟩ : BufTy).Contents (Elt F) → (⟨S1000000, .f32⟩ : BufTy).Contents (Elt F)),
    StableHlo.binary main_v64 main_v67 main_v68 (mulf : (⟨S1000000, .f32⟩ : BufTy).Contents (Elt F) → (⟨S1000000, .f32⟩ : BufTy).Contents (Elt F) → (⟨S1000000, .f32⟩ : BufTy).Contents (Elt F)) ]

/-- The buffers that operations 73 … 97 write, in order. -/
abbrev ops1a_W : List (Ref sig .tc) :=
  [main_v48, main_v49, main_v50, main_v51, main_v52, main_v53, main_v54, main_v55, main_v56, main_cst_10, main_v57, main_v58, main_v59, main_v60, main_cst_11, main_v61, main_v62, main_cst_12, main_v63, main_v64, main_cst_13, main_v65, main_v66, main_v67, main_v68]

/-- Operations 98 … 135 of 171. -/
abbrev ops1b : List (HloOp τ sig (Elt F)) :=
  [ StableHlo.nullary main_cst_14 (constant S_ .f32 0x3D4CCCCD#32),
    StableHlo.unary main_cst_14 main_v69 (broadcastInDim S100000 ![] bcast_S_S100000 : (⟨S_, .f32⟩ : BufTy).Contents (Elt F) → (⟨S100000, .f32⟩ : BufTy).Contents (Elt F)),
    StableHlo.unary main_arg6 main_v70 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v70 main_v71 rfl shapeCasts_S1x100000_S100000,
    StableHlo.binary main_v1 main_v71 main_v72 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    StableHlo.unary main_arg6 main_v73 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v73 main_v74 rfl shapeCasts_S1x100000_S100000,
    StableHlo.binary main_v3 main_v74 main_v75 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    StableHlo.binary main_v68 main_v69 main_v76 ((fun a b => concatenate S1100000 0 [⟨S1000000, a⟩, ⟨S100000, b⟩] concatenates_S1000000_S100000_S1100000_d0) : (⟨S1000000, .f32⟩ : BufTy).Contents (Elt F) → (⟨S100000, .f32⟩ : BufTy).Contents (Elt F) → (⟨S1100000, .f32⟩ : BufTy).Contents (Elt F)),
    StableHlo.nullary main_call3_v0 (iotaInDim S1100000 32 0),
    StableHlo.ternary main_v72 main_v75 main_call3_v0 main_call3_v1_0 ((fun x y z => (Host.sort3 S1100000 0 comparator_i32_i32_i32_d0 x y z).1) : (⟨S1100000, .i32⟩ : BufTy).Contents (Elt F) → (⟨S1100000, .i32⟩ : BufTy).Contents (Elt F) → (⟨S1100000, .i32⟩ : BufTy).Contents (Elt F) → (⟨S1100000, .i32⟩ : BufTy).Contents (Elt F)),
    StableHlo.ternary main_v72 main_v75 main_call3_v0 main_call3_v1_1 ((fun x y z => (Host.sort3 S1100000 0 comparator_i32_i32_i32_d0 x y z).2.1) : (⟨S1100000, .i32⟩ : BufTy).Contents (Elt F) → (⟨S1100000, .i32⟩ : BufTy).Contents (Elt F) → (⟨S1100000, .i32⟩ : BufTy).Contents (Elt F) → (⟨S1100000, .i32⟩ : BufTy).Contents (Elt F)),
    StableHlo.ternary main_v72 main_v75 main_call3_v0 main_v77 ((fun x y z => (Host.sort3 S1100000 0 comparator_i32_i32_i32_d0 x y z).2.2) : (⟨S1100000, .i32⟩ : BufTy).Contents (Elt F) → (⟨S1100000, .i32⟩ : BufTy).Contents (Elt F) → (⟨S1100000, .i32⟩ : BufTy).Contents (Elt F) → (⟨S1100000, .i32⟩ : BufTy).Contents (Elt F)),
    StableHlo.nullary main_c_15 (constantI S_ 32 0#32),
    StableHlo.unary main_c_15 main_v78 (broadcastInDim S1100000 ![] bcast_S_S1100000 : (⟨S_, .i32⟩ : BufTy).Contents (Elt F) → (⟨S1100000, .i32⟩ : BufTy).Contents (Elt F)),
    StableHlo.binary main_v77 main_v78 main_v79 (cmpi .slt : (⟨S1100000, .i32⟩ : BufTy).Contents (Elt F) → (⟨S1100000, .i32⟩ : BufTy).Contents (Elt F) → (⟨S1100000, .i1⟩ : BufTy).Contents (Elt F)),
    StableHlo.nullary main_c_16 (constantI S_ 32 1100000#32),
    StableHlo.unary main_c_16 main_v80 (broadcastInDim S1100000 ![] bcast_S_S1100000 : (⟨S_, .i32⟩ : BufTy).Contents (Elt F) → (⟨S1100000, .i32⟩ : BufTy).Contents (Elt F)),
    StableHlo.binary main_v77 main_v80 main_v81 (addi : (⟨S1100000, .i32⟩ : BufTy).Contents (Elt F) → (⟨S1100000, .i32⟩ : BufTy).Contents (Elt F) → (⟨S1100000, .i32⟩ : BufTy).Contents (Elt F)),
    StableHlo.ternary main_v79 main_v81 main_v77 main_v82 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v82 main_v83 (broadcastInDim S1100000x1 ![0] bcast_S1100000_S1100000x1_0 : (⟨S1100000, .i32⟩ : BufTy).Contents (Elt F) → (⟨S1100000x1, .i32⟩ : BufTy).Contents (Elt F)),
    StableHlo.binary main_v72 main_v83 main_v84 ((fun x i => Host.gather gather_S1100000_S1100000x1_S1100000_n_0_n_n_0_1_1 x i) : (⟨S1100000, .i32⟩ : BufTy).Contents (Elt F) → (⟨S1100000x1, .i32⟩ : BufTy).Contents (Elt F) → (⟨S1100000, .i32⟩ : BufTy).Contents (Elt F)),
    StableHlo.nullary main_c_17 (constantI S_ 32 0#32),
    StableHlo.unary main_c_17 main_v85 (broadcastInDim S1100000 ![] bcast_S_S1100000 : (⟨S_, .i32⟩ : BufTy).Contents (Elt F) → (⟨S1100000, .i32⟩ : BufTy).Contents (Elt F)),
    StableHlo.binary main_v77 main_v85 main_v86 (cmpi .slt : (⟨S1100000, .i32⟩ : BufTy).Contents (Elt F) → (⟨S1100000, .i32⟩ : BufTy).Contents (Elt F) → (⟨S1100000, .i1⟩ : BufTy).Contents (Elt F)),
    StableHlo.nullary main_c_18 (constantI S_ 32 1100000#32),
    StableHlo.unary main_c_18 main_v87 (broadcastInDim S1100000 ![] bcast_S_S1100000 : (⟨S_, .i32⟩ : BufTy).Contents (Elt F) → (⟨S1100000, .i32⟩ : BufTy).Contents (Elt F)),
    StableHlo.binary main_v77 main_v87 main_v88 (addi : (⟨S1100000, .i32⟩ : BufTy).Contents (Elt F) → (⟨S1100000, .i32⟩ : BufTy).Contents (Elt F) → (⟨S1100000, .i32⟩ : BufTy).Contents (Elt F)),
    StableHlo.ternary main_v86 main_v88 main_v77 main_v89 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v89 main_v90 (broadcastInDim S1100000x1 ![0] bcast_S1100000_S1100000x1_0 : (⟨S1100000, .i32⟩ : BufTy).Contents (Elt F) → (⟨S1100000x1, .i32⟩ : BufTy).Contents (Elt F)),
    StableHlo.binary main_v75 main_v90 main_v91 ((fun x i => Host.gather gather_S1100000_S1100000x1_S1100000_n_0_n_n_0_1_1 x i) : (⟨S1100000, .i32⟩ : BufTy).Contents (Elt F) → (⟨S1100000x1, .i32⟩ : BufTy).Contents (Elt F) → (⟨S1100000, .i32⟩ : BufTy).Contents (Elt F)),
    StableHlo.nullary main_c_19 (constantI S_ 32 0#32),
    StableHlo.unary main_c_19 main_v92 (broadcastInDim S1100000 ![] bcast_S_S1100000 : (⟨S_, .i32⟩ : BufTy).Contents (Elt F) → (⟨S1100000, .i32⟩ : BufTy).Contents (Elt F)),
    StableHlo.binary main_v77 main_v92 main_v93 (cmpi .slt : (⟨S1100000, .i32⟩ : BufTy).Contents (Elt F) → (⟨S1100000, .i32⟩ : BufTy).Contents (Elt F) → (⟨S1100000, .i1⟩ : BufTy).Contents (Elt F)),
    StableHlo.nullary main_c_20 (constantI S_ 32 1100000#32),
    StableHlo.unary main_c_20 main_v94 (broadcastInDim S1100000 ![] bcast_S_S1100000 : (⟨S_, .i32⟩ : BufTy).Contents (Elt F) → (⟨S1100000, .i32⟩ : BufTy).Contents (Elt F)),
    StableHlo.binary main_v77 main_v94 main_v95 (addi : (⟨S1100000, .i32⟩ : BufTy).Contents (Elt F) → (⟨S1100000, .i32⟩ : BufTy).Contents (Elt F) → (⟨S1100000, .i32⟩ : BufTy).Contents (Elt F)),
    StableHlo.ternary main_v93 main_v95 main_v77 main_v96 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)) ]

/-- The buffers that operations 98 … 135 write, in order. -/
abbrev ops1b_W : List (Ref sig .tc) :=
  [main_cst_14, main_v69, main_v70, main_v71, main_v72, main_v73, main_v74, main_v75, main_v76, main_call3_v0, main_call3_v1_0, main_call3_v1_1, main_v77, main_c_15, main_v78, main_v79, main_c_16, main_v80, main_v81, main_v82, main_v83, main_v84, main_c_17, main_v85, main_v86, main_c_18, main_v87, main_v88, main_v89, main_v90, main_v91, main_c_19, main_v92, main_v93, main_c_20, main_v94, main_v95, main_v96]

/-- Operations 136 … 171 of 171. -/
abbrev ops2 : List (HloOp τ sig (Elt F)) :=
  [ StableHlo.unary main_v96 main_v97 (broadcastInDim S1100000x1 ![0] bcast_S1100000_S1100000x1_0 : (⟨S1100000, .i32⟩ : BufTy).Contents (Elt F) → (⟨S1100000x1, .i32⟩ : BufTy).Contents (Elt F)),
    StableHlo.binary main_v76 main_v97 main_v98 ((fun x i => Host.gather gather_S1100000_S1100000x1_S1100000_n_0_n_n_0_1_1 x i) : (⟨S1100000, .f32⟩ : BufTy).Contents (Elt F) → (⟨S1100000x1, .i32⟩ : BufTy).Contents (Elt F) → (⟨S1100000, .f32⟩ : BufTy).Contents (Elt F)),
    StableHlo.nullary main_c_21 (constantI S_ 1 1#1),
    StableHlo.unary main_c_21 main_v99 (broadcastInDim S1 ![] bcast_S_S1 : (⟨S_, .i1⟩ : BufTy).Contents (Elt F) → (⟨S1, .i1⟩ : BufTy).Contents (Elt F)),
    StableHlo.unary main_v84 main_v100 ((extractStridedSlice S1099999 ![1] · slices_S1100000_S1099999_1) : (⟨S1100000, .i32⟩ : BufTy).Contents (Elt F) → (⟨S1099999, .i32⟩ : BufTy).Contents (Elt F)),
    StableHlo.unary main_v84 main_v101 ((extractStridedSlice S1099999 ![0] · slices_S1100000_S1099999_0) : (⟨S1100000, .i32⟩ : BufTy).Contents (Elt F) → (⟨S1099999, .i32⟩ : BufTy).Contents (Elt F)),
    StableHlo.binary main_v100 main_v101 main_v102 (cmpi .ne : (⟨S1099999, .i32⟩ : BufTy).Contents (Elt F) → (⟨S1099999, .i32⟩ : BufTy).Contents (Elt F) → (⟨S1099999, .i1⟩ : BufTy).Contents (Elt F)),
    StableHlo.unary main_v91 main_v103 ((extractStridedSlice S1099999 ![1] · slices_S1100000_S1099999_1) : (⟨S1100000, .i32⟩ : BufTy).Contents (Elt F) → (⟨S1099999, .i32⟩ : BufTy).Contents (Elt F)),
    StableHlo.unary main_v91 main_v104 ((extractStridedSlice S1099999 ![0] · slices_S1100000_S1099999_0) : (⟨S1100000, .i32⟩ : BufTy).Contents (Elt F) → (⟨S1099999, .i32⟩ : BufTy).Contents (Elt F)),
    StableHlo.binary main_v103 main_v104 main_v105 (cmpi .ne : (⟨S1099999, .i32⟩ : BufTy).Contents (Elt F) → (⟨S1099999, .i32⟩ : BufTy).Contents (Elt F) → (⟨S1099999, .i1⟩ : BufTy).Contents (Elt F)),
    StableHlo.binary main_v102 main_v105 main_v106 (ori : (⟨S1099999, .i1⟩ : BufTy).Contents (Elt F) → (⟨S1099999, .i1⟩ : BufTy).Contents (Elt F) → (⟨S1099999, .i1⟩ : BufTy).Contents (Elt F)),
    StableHlo.binary main_v99 main_v106 main_v107 ((fun a b => concatenate S1100000 0 [⟨S1, a⟩, ⟨S1099999, b⟩] concatenates_S1_S1099999_S1100000_d0) : (⟨S1, .i1⟩ : BufTy).Contents (Elt F) → (⟨S1099999, .i1⟩ : BufTy).Contents (Elt F) → (⟨S1100000, .i1⟩ : BufTy).Contents (Elt F)),
    StableHlo.unary main_v107 main_call4_v0 ((extui 32 · natLt_1_32) : (⟨S1100000, .i1⟩ : BufTy).Contents (Elt F) → (⟨S1100000, .i32⟩ : BufTy).Contents (Elt F)),
    StableHlo.nullary main_call4_call0_c (constantI S_ 32 0#32),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_call4_v0 main_call4_call0_v0 main_v108 ((fun x v => Host.reduceWindow IntOp.addi ![1100000] ![1] ![1099999] ![0] x v reduceWindows_S1100000_S1100000_w1100000s1p1099999_0 h_S_) : (⟨S1100000, .i32⟩ : BufTy).Contents (Elt F) → (⟨S_, .i32⟩ : BufTy).Contents (Elt F) → (⟨S1100000, .i32⟩ : BufTy).Contents (Elt F)),
    StableHlo.nullary main_c_22 (constantI S_ 32 1#32),
    StableHlo.unary main_c_22 main_v109 (broadcastInDim S1100000 ![] bcast_S_S1100000 : (⟨S_, .i32⟩ : BufTy).Contents (Elt F) → (⟨S1100000, .i32⟩ : BufTy).Contents (Elt F)),
    StableHlo.binary main_v108 main_v109 main_v110 (subi : (⟨S1100000, .i32⟩ : BufTy).Contents (Elt F) → (⟨S1100000, .i32⟩ : BufTy).Contents (Elt F) → (⟨S1100000, .i32⟩ : BufTy).Contents (Elt F)),
    StableHlo.nullary main_cst_23 (constant S_ .f32 0x00000000#32),
    StableHlo.unary main_cst_23 main_v111 (broadcastInDim S1100000 ![] bcast_S_S1100000 : (⟨S_, .f32⟩ : BufTy).Contents (Elt F) → (⟨S1100000, .f32⟩ : BufTy).Contents (Elt F)),
    StableHlo.unary main_v110 main_v112 (broadcastInDim S1100000x1 ![0] bcast_S1100000_S1100000x1_0 : (⟨S1100000, .i32⟩ : BufTy).Contents (Elt F) → (⟨S1100000x1, .i32⟩ : BufTy).Contents (Elt F)),
    StableHlo.ternary main_v111 main_v112 main_v98 main_v113 ((fun x i u => Host.scatterAdd scatter_S1100000_S1100000x1_S1100000_n_0_0_1 x i u) : (⟨S1100000, .f32⟩ : BufTy).Contents (Elt F) → (⟨S1100000x1, .i32⟩ : BufTy).Contents (Elt F) → (⟨S1100000, .f32⟩ : BufTy).Contents (Elt F) → (⟨S1100000, .f32⟩ : BufTy).Contents (Elt F)),
    StableHlo.nullary main_c_24 (constantI S_ 32 0#32),
    StableHlo.unary main_c_24 main_v114 (broadcastInDim S1100000 ![] bcast_S_S1100000 : (⟨S_, .i32⟩ : BufTy).Contents (Elt F) → (⟨S1100000, .i32⟩ : BufTy).Contents (Elt F)),
    StableHlo.binary main_v110 main_v114 main_v115 (cmpi .slt : (⟨S1100000, .i32⟩ : BufTy).Contents (Elt F) → (⟨S1100000, .i32⟩ : BufTy).Contents (Elt F) → (⟨S1100000, .i1⟩ : BufTy).Contents (Elt F)),
    StableHlo.nullary main_c_25 (constantI S_ 32 1100000#32),
    StableHlo.unary main_c_25 main_v116 (broadcastInDim S1100000 ![] bcast_S_S1100000 : (⟨S_, .i32⟩ : BufTy).Contents (Elt F) → (⟨S1100000, .i32⟩ : BufTy).Contents (Elt F)),
    StableHlo.binary main_v110 main_v116 main_v117 (addi : (⟨S1100000, .i32⟩ : BufTy).Contents (Elt F) → (⟨S1100000, .i32⟩ : BufTy).Contents (Elt F) → (⟨S1100000, .i32⟩ : BufTy).Contents (Elt F)),
    StableHlo.ternary main_v115 main_v117 main_v110 main_v118 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v118 main_v119 (broadcastInDim S1100000x1 ![0] bcast_S1100000_S1100000x1_0 : (⟨S1100000, .i32⟩ : BufTy).Contents (Elt F) → (⟨S1100000x1, .i32⟩ : BufTy).Contents (Elt F)),
    StableHlo.binary main_v113 main_v119 main_v120 ((fun x i => Host.gather gather_S1100000_S1100000x1_S1100000_n_0_n_n_0_1_1 x i) : (⟨S1100000, .f32⟩ : BufTy).Contents (Elt F) → (⟨S1100000x1, .i32⟩ : BufTy).Contents (Elt F) → (⟨S1100000, .f32⟩ : BufTy).Contents (Elt F)),
    StableHlo.nullary main_cst_26 (constant S_ .f32 0x00000000#32),
    StableHlo.unary main_cst_26 main_call5_v0 (id : (⟨S_, .f32⟩ : BufTy).Contents (Elt F) → (⟨S_, .f32⟩ : BufTy).Contents (Elt F)),
    StableHlo.unary main_call5_v0 main_call5_v1 ((broadcastInDim S1100000 ![] bcast_S_S1100000) : (⟨S_, .f32⟩ : BufTy).Contents (Elt F) → (⟨S1100000, .f32⟩ : BufTy).Contents (Elt F)),
    StableHlo.ternary main_v107 main_v120 main_call5_v1 main_v121 (select : (⟨S1100000, .i1⟩ : BufTy).Contents (Elt F) → (⟨S1100000, .f32⟩ : BufTy).Contents (Elt F) → (⟨S1100000, .f32⟩ : BufTy).Contents (Elt F) → (⟨S1100000, .f32⟩ : BufTy).Contents (Elt F)) ]

/-- The buffers that operations 136 … 171 write, in order. -/
abbrev ops2_W : List (Ref sig .tc) :=
  [main_v97, main_v98, main_c_21, main_v99, main_v100, main_v101, main_v102, main_v103, main_v104, main_v105, main_v106, main_v107, main_call4_v0, main_call4_call0_c, main_call4_call0_v0, main_v108, main_c_22, main_v109, main_v110, main_cst_23, main_v111, main_v112, main_v113, main_c_24, main_v114, main_v115, main_c_25, main_v116, main_v117, main_v118, main_v119, main_v120, main_cst_26, main_call5_v0, main_call5_v1, main_v121]

end Cert.ReferenceIdeal.RefRun

end
-- ==== Proof.RefRun.lean ====
/- The reference program's run, by hand: @main is the straight line of its 171 host operations (its three windows, the
   outlined functions unfolded at their calls); every weakly fair execution terminates with each buffer at the fold of
   the operations over the launch contents; no operation writes an argument; and the three results are stated as
   composed pure terms of the arguments. The operation lists themselves are the tables of RefOps.lean, the terms the
   definitions of RefTerms.lean. -/
import proofs.«165509_j29300266893702_2_alg».proof.Proof.RefOps
import proofs.«165509_j29300266893702_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the list -/

/-- The fold of two lists run one after the other is the fold of their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- @main's 171 operations in order: its three windows, the calls unfolded (@relu three, @clip and @clip_0 six each,
    @lexsort four, @cumsum one and @cumsum_1's three inside it, @_where three); the second window cut after the
    product that writes the dense matrix, main_v68. -/
abbrev ops : List (HloOp τ sig (Elt F)) := ops0 ++ ((ops1a ++ ops1b) ++ ops2)

section Parts

-- a callee's operation over typed references and its restatement over the buffers differ only by the transports along
-- the references' type equations, which are the identity; the whole-array functions inside are equal as written
attribute [local irreducible] Host.gather Host.sort3 Host.scatterAdd Host.reduceWindow

-- a window is a chain of up to 72 binds, re-associated one by one
set_option maxRecDepth 8192 in
/-- The first window is its straight line: @relu's, @clip's and @clip_0's definitions unfolded at their calls and the
    records at their fields, both sides are one chain of hlo steps once sequencing is re-associated; a callee's
    operation over typed references is the same operation over the buffers themselves (the transports along the
    references' type equations are the identity at literal references). -/
theorem part0_eq (c : Dev nD) : main_part0 (F := F) c = seq ops0 := by
  simp only [main_part0, fn_relu.body, fn_clip.body, fn_clip_0.body, seq, bind_assoc, pure_bind]
  rfl

set_option maxRecDepth 8192 in
/-- The second window likewise (@lexsort unfolded); its last statement is an operation, which is that operation
    followed by the return. -/
theorem part1_eq (c : Dev nD) : main_part1 (F := F) c = seq (ops1a ++ ops1b) := by
  rw [seq_append]
  simp only [main_part1, fn_lexsort.body, seq, bind_assoc, pure_bind]
  rfl

set_option maxRecDepth 8192 in
/-- The third window likewise (@cumsum, the @cumsum_1 it calls, and @_where unfolded). -/
theorem part2_eq (c : Dev nD) : main_part2 (F := F) c = seq ops2 := by
  simp only [main_part2, fn_cumsum.body, fn_cumsum_1.body, fn_where.body, seq, bind_assoc, pure_bind]
  rfl

end Parts

/-- @main runs its windows in order, and a concatenation runs its parts in order. -/
theorem main_eq (c : Dev nD) : main (F := F) c = seq ops := by
  show main (F := F) c = seq (ops0 ++ ((ops1a ++ ops1b) ++ ops2))
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

/-- Each operation of a literal list touches TensorCore references only: what it touches are its operands' buffers
    and its result's, each a reference of the core. -/
local macro "each_bufs_sub" : tactic =>
  `(tactic| simp only [List.Forall, nullary_bufs_sub, unary_bufs_sub, binary_bufs_sub, ternary_bufs_sub, reshape_bufs_sub,
      and_self])

theorem ops0_sub : (ops0 : List (HloOp τ sig (Elt F))).Forall fun op => op.bufs ⊆ tcRefs τ sig := by
  each_bufs_sub
theorem ops1a_sub : (ops1a : List (HloOp τ sig (Elt F))).Forall fun op => op.bufs ⊆ tcRefs τ sig := by
  each_bufs_sub
theorem ops1b_sub : (ops1b : List (HloOp τ sig (Elt F))).Forall fun op => op.bufs ⊆ tcRefs τ sig := by
  each_bufs_sub
theorem ops2_sub : (ops2 : List (HloOp τ sig (Elt F))).Forall fun op => op.bufs ⊆ tcRefs τ sig := by
  each_bufs_sub

theorem ops_sub : (ops : List (HloOp τ sig (Elt F))).Forall fun op => op.bufs ⊆ tcRefs τ sig :=
  forall_append ops0_sub (forall_append (forall_append ops1a_sub ops1b_sub) ops2_sub)

theorem ops0_fresh : (ops0 : List (HloOp τ sig (Elt F))).Forall fun op => op.fresh = ∅ := by
  simp only [List.Forall]; repeat' (first | exact rfl | apply And.intro)
theorem ops1a_fresh : (ops1a : List (HloOp τ sig (Elt F))).Forall fun op => op.fresh = ∅ := by
  simp only [List.Forall]; repeat' (first | exact rfl | apply And.intro)
theorem ops1b_fresh : (ops1b : List (HloOp τ sig (Elt F))).Forall fun op => op.fresh = ∅ := by
  simp only [List.Forall]; repeat' (first | exact rfl | apply And.intro)
theorem ops2_fresh : (ops2 : List (HloOp τ sig (Elt F))).Forall fun op => op.fresh = ∅ := by
  simp only [List.Forall]; repeat' (first | exact rfl | apply And.intro)

theorem ops_fresh : (ops : List (HloOp τ sig (Elt F))).Forall fun op => op.fresh = ∅ :=
  forall_append ops0_fresh (forall_append (forall_append ops1a_fresh ops1b_fresh) ops2_fresh)

/-! ## The run -/

/-- On every device, for any float values, from any memory with zero counters: every weakly fair execution of @main
    terminates, and every final state has each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-! ## What a window leaves alone -/

/-- Each operation of a literal list writes exactly one buffer, its result, and that buffer is in the given list. -/
local macro "each_writes" : tactic =>
  `(tactic| (simp only [List.Forall, nullary_writes, unary_writes, binary_writes, ternary_writes, reshape_writes,
      Finset.singleton_subset_iff, List.mem_toFinset]; repeat' (first | exact List.mem_map_of_mem (by decide) | apply And.intro)))

theorem ops0_writes : (ops0 : List (HloOp τ sig (Elt F))).Forall fun op =>
    op.writes ⊆ (ops0_W.map (Proc.devRef (τ := τ) .tc)).toFinset := by each_writes
theorem ops1a_writes : (ops1a : List (HloOp τ sig (Elt F))).Forall fun op =>
    op.writes ⊆ (ops1a_W.map (Proc.devRef (τ := τ) .tc)).toFinset := by each_writes
theorem ops1b_writes : (ops1b : List (HloOp τ sig (Elt F))).Forall fun op =>
    op.writes ⊆ (ops1b_W.map (Proc.devRef (τ := τ) .tc)).toFinset := by each_writes
theorem ops2_writes : (ops2 : List (HloOp τ sig (Elt F))).Forall fun op =>
    op.writes ⊆ (ops2_W.map (Proc.devRef (τ := τ) .tc)).toFinset := by each_writes

/-- A buffer no operation of the first window writes keeps its contents through it; likewise the other windows. -/
theorem keep0 (W : Valuation τ sig (Elt F)) (r : Ref sig .tc) (h : r ∉ ops0_W) :
    after ops0 W (r : DevRef τ sig) = W (r : DevRef τ sig) := after_of_writes_sub ops0 W ops0_writes h
theorem keep1a (W : Valuation τ sig (Elt F)) (r : Ref sig .tc) (h : r ∉ ops1a_W) :
    after ops1a W (r : DevRef τ sig) = W (r : DevRef τ sig) := after_of_writes_sub ops1a W ops1a_writes h
theorem keep1b (W : Valuation τ sig (Elt F)) (r : Ref sig .tc) (h : r ∉ ops1b_W) :
    after ops1b W (r : DevRef τ sig) = W (r : DevRef τ sig) := after_of_writes_sub ops1b W ops1b_writes h
theorem keep2 (W : Valuation τ sig (Elt F)) (r : Ref sig .tc) (h : r ∉ ops2_W) :
    after ops2 W (r : DevRef τ sig) = W (r : DevRef τ sig) := after_of_writes_sub ops2 W ops2_writes h

/-- The whole line is the four windows in order. -/
theorem after_ops (V : Valuation τ sig (Elt F)) :
    after ops V = after ops2 (after ops1b (after ops1a (after ops0 V))) := by
  show after (ops0 ++ ((ops1a ++ ops1b) ++ ops2)) V = _
  rw [after_append, after_append, after_append]

/-- A buffer no window writes keeps its contents through the whole line. -/
theorem keep (V : Valuation τ sig (Elt F)) (r : Ref sig .tc)
    (h0 : r ∉ ops0_W) (h1 : r ∉ ops1a_W) (h2 : r ∉ ops1b_W) (h3 : r ∉ ops2_W) :
    after ops V (r : DevRef τ sig) = V (r : DevRef τ sig) := by
  rw [after_ops, keep2 _ r h3, keep1b _ r h2, keep1a _ r h1, keep0 _ r h0]

/-! ## The frame -/

/-- The reference runs (terminates, nothing faulting) and its nine argument arrays end unchanged: no operation writes one. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c main_arg0).trans (keep _ main_arg0 (by decide) (by decide) (by decide) (by decide)),
     (h c main_arg1).trans (keep _ main_arg1 (by decide) (by decide) (by decide) (by decide)),
     (h c main_arg2).trans (keep _ main_arg2 (by decide) (by decide) (by decide) (by decide)),
     (h c main_arg3).trans (keep _ main_arg3 (by decide) (by decide) (by decide) (by decide)),
     (h c main_arg4).trans (keep _ main_arg4 (by decide) (by decide) (by decide) (by decide)),
     (h c main_arg5).trans (keep _ main_arg5 (by decide) (by decide) (by decide) (by decide)),
     (h c main_arg6).trans (keep _ main_arg6 (by decide) (by decide) (by decide) (by decide)),
     (h c main_arg7).trans (keep _ main_arg7 (by decide) (by decide) (by decide) (by decide)),
     (h c main_arg8).trans (keep _ main_arg8 (by decide) (by decide) (by decide) (by decide))⟩)
    (run_after m ρ)

/-! ## Each window's results

What a window's last valuation holds at the buffers read after it, as the terms of RefTerms.lean of what its first
valuation holds: the fold unrolled, each operation's result at its own buffer its function's value and at any other
buffer what was there; a concatenation's function is first read as its name, so that its operands are plain arguments.
The two sides then differ only by the
definitions' names. -/

theorem cat64_fn : ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)) = cat64 := rfl
theorem catI_fn : ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) = catI := rfl
theorem catF_fn : ((fun a b => concatenate S1100000 0 [⟨S1000000, a⟩, ⟨S100000, b⟩] concatenates_S1000000_S100000_S1100000_d0) : (⟨S1000000, .f32⟩ : BufTy).Contents (Elt F) → (⟨S100000, .f32⟩ : BufTy).Contents (Elt F) → (⟨S1100000, .f32⟩ : BufTy).Contents (Elt F)) = catF := rfl
theorem catFlag_fn : ((fun a b => concatenate S1100000 0 [⟨S1, a⟩, ⟨S1099999, b⟩] concatenates_S1_S1099999_S1100000_d0) : (⟨S1, .i1⟩ : BufTy).Contents (Elt F) → (⟨S1099999, .i1⟩ : BufTy).Contents (Elt F) → (⟨S1100000, .i1⟩ : BufTy).Contents (Elt F)) = catFlag := rfl

section Windows

attribute [local irreducible] Host.gather Host.sort3 Host.scatterAdd Host.reduceWindow

variable (W : Valuation τ sig (Elt F))

set_option maxRecDepth 8192 in
theorem w0_v1 : after ops0 W (main_v1 : DevRef τ sig) = rows0 (W (main_arg5 : DevRef τ sig)) := by
  simp only [ops0]; rw [cat64_fn]; after_results_simp; rfl

set_option maxRecDepth 8192 in
theorem w0_v3 : after ops0 W (main_v3 : DevRef τ sig) = cols0 (W (main_arg5 : DevRef τ sig)) := by
  simp only [ops0]; rw [cat64_fn]; after_results_simp; rfl

set_option maxRecDepth 8192 in
set_option maxHeartbeats 2000000 in
theorem w0_v46 : after ops0 W (main_v46 : DevRef τ sig)
    = clipA (W (main_arg0 : DevRef τ sig)) (W (main_arg1 : DevRef τ sig)) (W (main_arg2 : DevRef τ sig))
        (W (main_arg3 : DevRef τ sig)) (W (main_arg4 : DevRef τ sig)) (W (main_arg5 : DevRef τ sig))
        (W (main_arg7 : DevRef τ sig)) := by
  simp only [ops0]; rw [cat64_fn]; after_results_simp; rfl

set_option maxRecDepth 8192 in
theorem w0_v47 : after ops0 W (main_v47 : DevRef τ sig) = clipB (W (main_arg8 : DevRef τ sig)) := by
  simp only [ops0]; rw [cat64_fn]; after_results_simp; rfl

set_option maxRecDepth 8192 in
theorem w1a_v68 : after ops1a W (main_v68 : DevRef τ sig)
    = matOf (W (main_v46 : DevRef τ sig)) (W (main_v47 : DevRef τ sig)) := by
  simp only [ops1a]; after_results_simp; rfl

set_option maxRecDepth 8192 in
theorem w1b_v76 : after ops1b W (main_v76 : DevRef τ sig) = allVals (W (main_v68 : DevRef τ sig)) := by
  simp only [ops1b]; rw [catI_fn, catF_fn]; after_results_simp; rfl

set_option maxRecDepth 8192 in
theorem w1b_v84 : after ops1b W (main_v84 : DevRef τ sig)
    = sortedRows (W (main_v1 : DevRef τ sig)) (W (main_v3 : DevRef τ sig)) (W (main_arg6 : DevRef τ sig)) := by
  simp only [ops1b]; rw [catI_fn, catF_fn]; after_results_simp; rfl

set_option maxRecDepth 8192 in
theorem w1b_v91 : after ops1b W (main_v91 : DevRef τ sig)
    = sortedCols (W (main_v1 : DevRef τ sig)) (W (main_v3 : DevRef τ sig)) (W (main_arg6 : DevRef τ sig)) := by
  simp only [ops1b]; rw [catI_fn, catF_fn]; after_results_simp; rfl

set_option maxRecDepth 8192 in
theorem w1b_v96 : after ops1b W (main_v96 : DevRef τ sig)
    = sortedIdx (W (main_v1 : DevRef τ sig)) (W (main_v3 : DevRef τ sig)) (W (main_arg6 : DevRef τ sig)) := by
  simp only [ops1b]; rw [catI_fn, catF_fn]; after_results_simp; rfl

set_option maxRecDepth 8192 in
set_option maxHeartbeats 2000000 in
theorem w2_v121 : after ops2 W (main_v121 : DevRef τ sig)
    = valsFrom (W (main_v84 : DevRef τ sig)) (W (main_v91 : DevRef τ sig))
        (Host.gather gather_S1100000_S1100000x1_S1100000_n_0_n_n_0_1_1 (W (main_v76 : DevRef τ sig))
          (asCol (W (main_v96 : DevRef τ sig)))) := by
  simp only [ops2]; rw [catFlag_fn]; after_results_simp; rfl

end Windows
/-! ## The whole line's results -/

variable (V : Valuation τ sig (Elt F))

theorem v84_eq : after ops V (main_v84 : DevRef τ sig)
    = tailRows (V (main_arg5 : DevRef τ sig)) (V (main_arg6 : DevRef τ sig)) := by
  rw [after_ops, keep2 _ main_v84 (by decide), w1b_v84, keep1a _ main_v1 (by decide), keep1a _ main_v3 (by decide),
    keep1a _ main_arg6 (by decide), w0_v1, w0_v3, keep0 _ main_arg6 (by decide)]
  rfl

theorem v91_eq : after ops V (main_v91 : DevRef τ sig)
    = tailCols (V (main_arg5 : DevRef τ sig)) (V (main_arg6 : DevRef τ sig)) := by
  rw [after_ops, keep2 _ main_v91 (by decide), w1b_v91, keep1a _ main_v1 (by decide), keep1a _ main_v3 (by decide),
    keep1a _ main_arg6 (by decide), w0_v1, w0_v3, keep0 _ main_arg6 (by decide)]
  rfl

theorem v121_eq : after ops V (main_v121 : DevRef τ sig)
    = tailVals (V (main_arg5 : DevRef τ sig)) (V (main_arg6 : DevRef τ sig))
        (refMat (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg7 : DevRef τ sig)) (V (main_arg8 : DevRef τ sig))) := by
  rw [after_ops, w2_v121, w1b_v84, w1b_v91, w1b_v76, w1b_v96, keep1a _ main_v1 (by decide), keep1a _ main_v3 (by decide),
    keep1a _ main_arg6 (by decide), w1a_v68, w0_v1, w0_v3, w0_v46, w0_v47, keep0 _ main_arg6 (by decide)]
  rfl

/-- %68 after the whole line: the dense matrix of the arguments. -/
theorem v68_eq : after ops V (main_v68 : DevRef τ sig)
    = refMat (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg7 : DevRef τ sig)) (V (main_arg8 : DevRef τ sig)) := by
  rw [after_ops, keep2 _ main_v68 (by decide), keep1b _ main_v68 (by decide), w1a_v68, w0_v46, w0_v47]
  rfl

/-- On every device, for any float values, from any memory with zero counters: every weakly fair execution of @main
    terminates with the three results at their terms of the arguments' launch contents, the arguments unchanged. -/
theorem results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v84)
        = tailRows (m ((c.tc : Thread nD τ).loc main_arg5)) (m ((c.tc : Thread nD τ).loc main_arg6))
      ∧ r.2.mem ((c.tc : Thread nD τ).loc main_v91)
        = tailCols (m ((c.tc : Thread nD τ).loc main_arg5)) (m ((c.tc : Thread nD τ).loc main_arg6))
      ∧ r.2.mem ((c.tc : Thread nD τ).loc main_v121)
        = tailVals (m ((c.tc : Thread nD τ).loc main_arg5)) (m ((c.tc : Thread nD τ).loc main_arg6))
            (refMat (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c main_v84).trans (v84_eq _), (h c main_v91).trans (v91_eq _), (h c main_v121).trans (v121_eq _),
     (h c main_arg0).trans (keep _ main_arg0 (by decide) (by decide) (by decide) (by decide)),
     (h c main_arg1).trans (keep _ main_arg1 (by decide) (by decide) (by decide) (by decide)),
     (h c main_arg2).trans (keep _ main_arg2 (by decide) (by decide) (by decide) (by decide)),
     (h c main_arg3).trans (keep _ main_arg3 (by decide) (by decide) (by decide) (by decide)),
     (h c main_arg4).trans (keep _ main_arg4 (by decide) (by decide) (by decide) (by decide)),
     (h c main_arg5).trans (keep _ main_arg5 (by decide) (by decide) (by decide) (by decide)),
     (h c main_arg6).trans (keep _ main_arg6 (by decide) (by decide) (by decide) (by decide)),
     (h c main_arg7).trans (keep _ main_arg7 (by decide) (by decide) (by decide) (by decide)),
     (h c main_arg8).trans (keep _ main_arg8 (by decide) (by decide) (by decide) (by decide))⟩)
    (run_after m ρ)

end Cert.ReferenceIdeal.RefRun

end
-- ==== Proof.Bridge.lean ====
/-
  The two idealized programs compute one function. Both hand the same sparse rebuild (sort the concatenated row and
  column indices, merge equal neighbours by a segment sum) the same index arrays and a vector of a million values; the
  kernel's vector is its output column flattened, every entry the gate's row function of that row of the two gathered
  embedding blocks, the two transposed halves of the first layer's weight, the biases, the second layer's row and the
  two noise entries; the reference's entry is the same row function of the concatenated gathered row against the whole
  transposed weight — a sum over 128 columns split as two sums over 64. The gathers and the rebuild are the same terms
  of the arguments in both programs, never opened.
-/
import proofs.«165509_j29300266893702_2_alg».proof.Defs
import proofs.«165509_j29300266893702_2_alg».proof.Proof.ResultsIdeal
import proofs.«165509_j29300266893702_2_alg».proof.Proof.RowIdeal
import proofs.«165509_j29300266893702_2_alg».proof.Proof.RowRef
import proofs.«165509_j29300266893702_2_alg».proof.Proof.RefRun
import proofs.«165509_j29300266893702_2_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.KernelIdeal.Around Cert.KernelIdeal.Run

/-- The two programs' rebuilds of the index arrays are one term. -/
theorem rows_eq (a5 : IVec Cert.KernelIdeal.S2x1000000 32) (a6 : IVec Cert.KernelIdeal.S2x100000 32) :
    tailRowsK (srcOf a5) (dstOf a5) a6 = Cert.ReferenceIdeal.RefRun.tailRows (F := Ideal) a5 a6 := rfl

theorem cols_eq (a5 : IVec Cert.KernelIdeal.S2x1000000 32) (a6 : IVec Cert.KernelIdeal.S2x100000 32) :
    tailColsK (srcOf a5) (dstOf a5) a6 = Cert.ReferenceIdeal.RefRun.tailCols (F := Ideal) a5 a6 := rfl

/-- And of the values: the kernel's rebuild of its output column is the reference's of the column flattened. -/
theorem vals_eq (a5 : IVec Cert.KernelIdeal.S2x1000000 32) (a6 : IVec Cert.KernelIdeal.S2x100000 32) (out : FVec Ideal Cert.KernelIdeal.S1000000x1 .f32) :
    tailValsK (F := Ideal) (srcOf a5) (dstOf a5) a6 out
      = Cert.ReferenceIdeal.RefRun.tailVals (F := Ideal) a5 a6 (shapeCast Cert.KernelIdeal.S1000000 out Cert.KernelIdeal.Facts₀.shapeCasts_S1000000x1_S1000000) := rfl

/-- The two programs gather the same rows. -/
theorem gSrc_eq (a0 : FVec Ideal Cert.KernelIdeal.S300000x64 .f32) (a5 : IVec Cert.KernelIdeal.S2x1000000 32) :
    Cert.RowRef.gSrc a0 a5 = embOf a0 (srcOf a5) := rfl
theorem gDst_eq (a0 : FVec Ideal Cert.KernelIdeal.S300000x64 .f32) (a5 : IVec Cert.KernelIdeal.S2x1000000 32) :
    Cert.RowRef.gDst a0 a5 = embOf a0 (dstOf a5) := rfl

variable (m : (ℓ : Loc Cert.KernelIdeal.nD Cert.KernelIdeal.τ Cert.KernelIdeal.sig) → Buf (Elt Ideal) ℓ)

/-- The kernel's output column, flattened, is the reference's value vector: entry by entry both are the gate's row
    function of the same rows. -/
theorem mat_eq (c : Dev Cert.KernelIdeal.nD) :
    shapeCast Cert.KernelIdeal.S1000000 (matK m c) Cert.KernelIdeal.Facts₀.shapeCasts_S1000000x1_S1000000
      = Cert.ReferenceIdeal.RefRun.refMat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [← final9 m c, flatK m c]
  funext e
  obtain ⟨r, rfl⟩ : ∃ r : Fin 1000000, e = ix1 r := ⟨e 0, eq_ix1 e⟩
  rw [Cert.RowRef.refMat_apply, gSrc_eq, gDst_eq]
  rfl

/-- At the ideal instance, from memories agreeing on the arguments, both programs run to equal results and unchanged
    arguments. -/
theorem algebraic : Cert.algebraic_KernelIdeal_ReferenceIdeal := by
  intro m ρ m' ρ' _ hagree
  refine ⟨fun c => Cert.ReferenceIdeal.RefRun.tailRows (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.RefRun.tailCols (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.RefRun.tailVals (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (Cert.ReferenceIdeal.RefRun.refMat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · refine (θ_run Cert.KernelIdeal.defs _ _).mono (fun r h c => ?_) (Cert.KernelIdeal.Run.results m ρ Cert.KernelIdeal.Run.local_holds)
    obtain ⟨h1, h2, h3, hargs⟩ := h c
    exact ⟨h1.trans (rows_eq _ _), h2.trans (cols_eq _ _),
      h3.trans ((vals_eq _ _ _).trans (congrArg _ (mat_eq m c))), hargs⟩
  · refine (θ_run Cert.ReferenceIdeal.defs _ _).mono (fun r h c => ?_) (Cert.ReferenceIdeal.RefRun.results (F := Ideal) m' ρ')
    obtain ⟨h1, h2, h3, hargs⟩ := h c
    obtain ⟨e0, e1, e2, e3, e4, e5, e6, e7, e8⟩ := hagree c
    exact ⟨h1.trans (by rw [e5, e6]), h2.trans (by rw [e5, e6]),
      h3.trans (by rw [e0, e1, e2, e3, e4, e5, e6, e7, e8]), hargs⟩

end Cert.Bridge

end
-- ==== Proof.lean ====
/-
  The claim: the edge-gate kernel program, read at bit patterns and at the ideal instance, and its jnp reference read at
  the ideal instance, each run to the end from any memory whose float arguments are finite, fault nowhere and leave
  their nine argument arrays as launched; and at the ideal instance (floats extended reals, operations exact, format
  changes the identity) the two idealized programs, run from memories agreeing on the arguments, end with equal
  results.

  The program gathers the two endpoint embeddings of a million edges, and one region of 245 grid points — blocks of
  4096 rows, the last cut to the 576 rows inside the arrays — computes per edge a two-layer gate on the pair of
  embeddings, a Gumbel-sigmoid weight clipped to [0.01, 0.99], and a relaxed-Bernoulli sample masked by its own sign;
  a sparse rebuild on the host (sort by row and column, merge equal neighbours by a segment sum) follows. The frames
  run the region's body on whole staging buffers: at bit patterns nothing is said of the output column; at the ideal
  instance a row of the stored column depends only on that row of the row-blocked inputs, which is what the cut last
  block needs. The equality of results: the rebuild and the gathers are the same terms of the arguments in both
  programs; the million values agree entry by entry because the reference's contraction of the concatenated row
  against the whole transposed weight, a sum over 128 columns, is the kernel's two sums over 64 — sums of extended
  reals split freely —, its sigmoid spelt with exp is the one the kernel calls, 0 − x is −x, and the mask written as a
  selection of 1 or 0 is the comparison's bit read as a number. No finiteness is used.
-/
import proofs.«165509_j29300266893702_2_alg».proof.Defs
import proofs.«165509_j29300266893702_2_alg».proof.Proof.Gen.Kernel
import proofs.«165509_j29300266893702_2_alg».proof.Proof.Gen.KernelIdeal
import proofs.«165509_j29300266893702_2_alg».proof.Proof.Gen.ReferenceIdeal
import proofs.«165509_j29300266893702_2_alg».proof.Proof.Gen.Pre_finite_inputs
import proofs.«165509_j29300266893702_2_alg».proof.Proof.FrameBits
import proofs.«165509_j29300266893702_2_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame (F := Bits) m ρ,
    fun m ρ _ => Cert.KernelIdeal.Run.frame m ρ Cert.KernelIdeal.Run.local_holds,
    fun m ρ _ => Cert.ReferenceIdeal.RefRun.frame (F := Ideal) m ρ,
    trivial,
    Cert.Bridge.algebraic⟩

end Cert.Proof

end
